-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v107)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v107) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v145) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x1 : Shape := ⟨2, ![800000, 1]⟩
abbrev S2x800000 : Shape := ⟨2, ![2, 800000]⟩
abbrev S3x128x128 : Shape := ⟨3, ![3, 128, 128]⟩
abbrev S3x128 : Shape := ⟨2, ![3, 128]⟩
abbrev S3x1x128 : Shape := ⟨3, ![3, 1, 128]⟩
abbrev S256x128 : Shape := ⟨2, ![256, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x1 : S_.BroadcastsInDim S800000x1 (![] : Fin 0 → Fin S800000x1.rank)
  reducesTo_S800000x1_S_d0_1 : S800000x1.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S3x1x128 : S_.BroadcastsInDim S3x1x128 (![] : Fin 0 → Fin S3x1x128.rank)
  reducesTo_S3x1x128_S_d0_1_2 : S3x1x128.ReducesTo [0, 1, 2] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg12 : FVec F S1 .f32) (main_v48 : IVec S_ 1) (main_v49 : FVec F S128x1 .f32) (main_v50 : FVec F S128x1 .f32) : IVec S_ 1 :=
  let main_v51 : IVec S128x1 1 := cmpf .olt main_v49 main_v50
  let main_c_19 : IVec S_ 1 := constantI S_ 1 1#1
  let main_v52 : IVec S_ 1 := (fun x v => Host.reduce IntOp.andi x v reducesTo_S128x1_S_d0_1 h_S_) main_v51 main_c_19
  let main_v53 : IVec S_ 1 := andi main_v48 main_v52
  let main_v54 : FVec F S1 .f32 := Host.absf main_arg12
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg8 : FVec F S3x128 .f32) (main_arg9 : FVec F S256x128 .f32) (main_arg10 : FVec F S128 .f32) (main_arg11 : FVec F S128x1 .f32) (main_arg12 : FVec F S1 .f32) (main_v33 : IVec S_ 1) : IVec S_ 1 :=
  let main_v34 : FVec F S3x128 .f32 := Host.absf main_arg8
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  let main_v39 : FVec F S256x128 .f32 := Host.absf main_arg9
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x1 .f32 := Host.absf main_arg11
  let main_cst_18 : FVec F S_ .f32 := constant S_ .f32 0x7F800000#32
  let main_v50 : FVec F S128x1 .f32 := broadcastInDim S128x1 ![] bcast_S_S128x1 main_cst_18
  fn_part3 (F := F) main_arg12 main_v48 main_v49 main_v50

def fn_part1 {F : FTy → Type} [FloatOps F] (main_arg5 : FVec F S3x128x128 .f32) (main_arg6 : FVec F S3x128 .f32) (main_arg7 : FVec F S3x1x128 .f32) (main_arg8 : FVec F S3x128 .f32) (main_arg9 : FVec F S256x128 .f32) (main_arg10 : FVec F S128 .f32) (main_arg11 : FVec F S128x1 .f32) (main_arg12 : FVec F S1 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S3x128x128 .f32 := Host.absf main_arg5
  let main_cst_6 : FVec F S_ .f32 := constant S_ .f32 0x7F800000#32
  let main_v20 : FVec F S3x128x128 .f32 := broadcastInDim S3x128x128 ![] bcast_S_S3x128x128 main_cst_6
  let main_v21 : IVec S3x128x128 1 := cmpf .olt main_v19 main_v20
  let main_c_7 : IVec S_ 1 := constantI S_ 1 1#1
  let main_v22 : IVec S_ 1 := (fun x v => Host.reduce IntOp.andi x v reducesTo_S3x128x128_S_d0_1_2 h_S_) main_v21 main_c_7
  let main_v23 : IVec S_ 1 := andi main_v18 main_v22
  let main_v24 : FVec F S3x128 .f32 := Host.absf main_arg6
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x1x128 .f32 := Host.absf main_arg7
  let main_cst_10 : FVec F S_ .f32 := constant S_ .f32 0x7F800000#32
  let main_v30 : FVec F S3x1x128 .f32 := broadcastInDim S3x1x128 ![] bcast_S_S3x1x128 main_cst_10
  let main_v31 : IVec S3x1x128 1 := cmpf .olt main_v29 main_v30
  let main_c_11 : IVec S_ 1 := constantI S_ 1 1#1
  let main_v32 : IVec S_ 1 := (fun x v => Host.reduce IntOp.andi x v reducesTo_S3x1x128_S_d0_1_2 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S50000x128 .f32) (main_arg1 : FVec F S800000x1 .f32) (main_arg2 : IVec S2x800000 32) (main_arg3 : FVec F S3x128x128 .f32) (main_arg4 : FVec F S3x128 .f32) (main_arg5 : FVec F S3x128x128 .f32) (main_arg6 : FVec F S3x128 .f32) (main_arg7 : FVec F S3x1x128 .f32) (main_arg8 : FVec F S3x128 .f32) (main_arg9 : FVec F S256x128 .f32) (main_arg10 : FVec F S128 .f32) (main_arg11 : FVec F S128x1 .f32) (main_arg12 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x1 .f32 := Host.absf main_arg1
  let main_cst_0 : FVec F S_ .f32 := constant S_ .f32 0x7F800000#32
  let main_v5 : FVec F S800000x1 .f32 := broadcastInDim S800000x1 ![] bcast_S_S800000x1 main_cst_0
  let main_v6 : IVec S800000x1 1 := cmpf .olt main_v4 main_v5
  let main_c_1 : IVec S_ 1 := constantI S_ 1 1#1
  let main_v7 : IVec S_ 1 := (fun x v => Host.reduce IntOp.andi x v reducesTo_S800000x1_S_d0_1 h_S_) main_v6 main_c_1
  let main_v8 : IVec S_ 1 := andi main_v3 main_v7
  let main_v9 : FVec F S3x128x128 .f32 := Host.absf main_arg3
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S3x128 .f32 := Host.absf main_arg4
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg5 main_arg6 main_arg7 main_arg8 main_arg9 main_arg10 main_arg11 main_arg12 main_v13 main_v16
-- ==== Kernel.lean ====
abbrev S50000x128 : Shape := ⟨2, ![50000, 128]⟩
abbrev S800000x1 : Shape := ⟨2, ![800000, 1]⟩
abbrev S2x800000 : Shape := ⟨2, ![2, 800000]⟩
abbrev S3x128x128 : Shape := ⟨3, ![3, 128, 128]⟩
abbrev S3x128 : Shape := ⟨2, ![3, 128]⟩
abbrev S3x1x128 : Shape := ⟨3, ![3, 1, 128]⟩
abbrev S256x128 : Shape := ⟨2, ![256, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x128 : Shape := ⟨2, ![800000, 128]⟩
abbrev S1x1x128 : Shape := ⟨3, ![1, 1, 128]⟩
abbrev S1x128 : Shape := ⟨2, ![1, 128]⟩
abbrev S4000x128 : Shape := ⟨2, ![4000, 128]⟩
abbrev S4000x1 : Shape := ⟨2, ![4000, 1]⟩
abbrev S1x128x128 : Shape := ⟨3, ![1, 128, 128]⟩
abbrev S128x128 : Shape := ⟨2, ![128, 128]⟩
abbrev S5000x128 : Shape := ⟨2, ![5000, 128]⟩
abbrev S1x1 : Shape := ⟨2, ![1, 1]⟩

abbrev nBuf : Space → Nat
  | .hbm => 134
  | .vmem => 65
  | .smem => 0
  | _ => 0

abbrev hbmTy0_0 (i : Nat) : BufTy := match i % 128 with
  | 0 => ⟨S50000x128, .f32⟩
  | 1 => ⟨S800000x1, .f32⟩
  | 2 => ⟨S2x800000, .i32⟩
  | 3 => ⟨S3x128x128, .f32⟩
  | 4 => ⟨S3x128, .f32⟩
  | 5 => ⟨S3x128x128, .f32⟩
  | 6 => ⟨S3x128, .f32⟩
  | 7 => ⟨S3x1x128, .f32⟩
  | 8 => ⟨S3x128, .f32⟩
  | 9 => ⟨S256x128, .f32⟩
  | 10 => ⟨S128, .f32⟩
  | 11 => ⟨S128x1, .f32⟩
  | 12 => ⟨S1, .f32⟩
  | 13 => ⟨S1x800000, .i32⟩
  | 14 => ⟨S800000, .i32⟩
  | 15 => ⟨S1x800000, .i32⟩
  | 16 => ⟨S800000, .i32⟩
  | 17 => ⟨S_, .i32⟩
  | 18 => ⟨S800000, .i32⟩
  | 19 => ⟨S800000, .i1⟩
  | 20 => ⟨S_, .i32⟩
  | 21 => ⟨S800000, .i32⟩
  | 22 => ⟨S800000, .i32⟩
  | 23 => ⟨S800000, .i32⟩
  | 24 => ⟨S800000x1, .i32⟩
  | 25 => ⟨S800000x128, .f32⟩
  | 26 => ⟨S1x1x128, .f32⟩
  | 27 => ⟨S128, .f32⟩
  | 28 => ⟨S1x128, .f32⟩
  | 29 => ⟨S128, .f32⟩
  | 30 => ⟨S1x128, .f32⟩
  | 31 => ⟨S1x128, .f32⟩
  | 32 => ⟨S800000x128, .f32⟩
  | 33 => ⟨S_, .f32⟩
  | 34 => ⟨S50000x128, .f32⟩
  | 35 => ⟨S800000x1, .i32⟩
  | 36 => ⟨S50000x128, .f32⟩
  | 37 => ⟨S1x128x128, .f32⟩
  | 38 => ⟨S128x128, .f32⟩
  | 39 => ⟨S1x128, .f32⟩
  | 40 => ⟨S128, .f32⟩
  | 41 => ⟨S1x128x128, .f32⟩
  | 42 => ⟨S128x128, .f32⟩
  | 43 => ⟨S1x128, .f32⟩
  | 44 => ⟨S128, .f32⟩
  | 45 => ⟨S1x128, .f32⟩
  | 46 => ⟨S1x128, .f32⟩
  | 47 => ⟨S50000x128, .f32⟩
  | 48 => ⟨S_, .i32⟩
  | 49 => ⟨S800000, .i32⟩
  | 50 => ⟨S800000, .i1⟩
  | 51 => ⟨S_, .i32⟩
  | 52 => ⟨S800000, .i32⟩
  | 53 => ⟨S800000, .i32⟩
  | 54 => ⟨S800000, .i32⟩
  | 55 => ⟨S800000x1, .i32⟩
  | 56 => ⟨S800000x128, .f32⟩
  | 57 => ⟨S1x1x128, .f32⟩
  | 58 => ⟨S128, .f32⟩
  | 59 => ⟨S1x128, .f32⟩
  | 60 => ⟨S128, .f32⟩
  | 61 => ⟨S1x128, .f32⟩
  | 62 => ⟨S1x128, .f32⟩
  | 63 => ⟨S800000x128, .f32⟩
  | 64 => ⟨S_, .f32⟩
  | 65 => ⟨S50000x128, .f32⟩
  | 66 => ⟨S800000x1, .i32⟩
  | 67 => ⟨S50000x128, .f32⟩
  | 68 => ⟨S1x128x128, .f32⟩
  | 69 => ⟨S128x128, .f32⟩
  | 70 => ⟨S1x128, .f32⟩
  | 71 => ⟨S128, .f32⟩
  | 72 => ⟨S1x128x128, .f32⟩
  | 73 => ⟨S128x128, .f32⟩
  | 74 => ⟨S1x128, .f32⟩
  | 75 => ⟨S128, .f32⟩
  | 76 => ⟨S1x128, .f32⟩
  | 77 => ⟨S1x128, .f32⟩
  | 78 => ⟨S50000x128, .f32⟩
  | 79 => ⟨S_, .i32⟩
  | 80 => ⟨S800000, .i32⟩
  | 81 => ⟨S800000, .i1⟩
  | 82 => ⟨S_, .i32⟩
  | 83 => ⟨S800000, .i32⟩
  | 84 => ⟨S800000, .i32⟩
  | 85 => ⟨S800000, .i32⟩
  | 86 => ⟨S800000x1, .i32⟩
  | 87 => ⟨S800000x128, .f32⟩
  | 88 => ⟨S1x1x128, .f32⟩
  | 89 => ⟨S128, .f32⟩
  | 90 => ⟨S1x128, .f32⟩
  | 91 => ⟨S128, .f32⟩
  | 92 => ⟨S1x128, .f32⟩
  | 93 => ⟨S1x128, .f32⟩
  | 94 => ⟨S800000x128, .f32⟩
  | 95 => ⟨S_, .f32⟩
  | 96 => ⟨S50000x128, .f32⟩
  | 97 => ⟨S800000x1, .i32⟩
  | 98 => ⟨S50000x128, .f32⟩
  | 99 => ⟨S1x128x128, .f32⟩
  | 100 => ⟨S128x128, .f32⟩
  | 101 => ⟨S1x128, .f32⟩
  | 102 => ⟨S128, .f32⟩
  | 103 => ⟨S1x128x128, .f32⟩
  | 104 => ⟨S128x128, .f32⟩
  | 105 => ⟨S1x128, .f32⟩
  | 106 => ⟨S128, .f32⟩
  | 107 => ⟨S1x128, .f32⟩
  | 108 => ⟨S1x128, .f32⟩
  | 109 => ⟨S50000x128, .f32⟩
  | 110 => ⟨S_, .i32⟩
  | 111 => ⟨S800000, .i32⟩
  | 112 => ⟨S800000, .i1⟩
  | 113 => ⟨S_, .i32⟩
  | 114 => ⟨S800000, .i32⟩
  | 115 => ⟨S800000, .i32⟩
  | 116 => ⟨S800000, .i32⟩
  | 117 => ⟨S800000x1, .i32⟩
  | 118 => ⟨S800000x128, .f32⟩
  | 119 => ⟨S_, .i32⟩
  | 120 => ⟨S800000, .i32⟩
  | 121 => ⟨S800000, .i1⟩
  | 122 => ⟨S_, .i32⟩
  | 123 => ⟨S800000, .i32⟩
  | 124 => ⟨S800000, .i32⟩
  | 125 => ⟨S800000, .i32⟩
  | 126 => ⟨S800000x1, .i32⟩
  | 127 => ⟨S800000x128, .f32⟩
  | _ => ⟨S50000x128, .f32⟩

abbrev hbmTy0_1 (i : Nat) : BufTy := match i % 128 with
  | 0 => ⟨S128x128, .f32⟩
  | 1 => ⟨S128x128, .f32⟩
  | 2 => ⟨S1x128, .f32⟩
  | 3 => ⟨S1x1, .f32⟩
  | 4 => ⟨S800000x1, .f32⟩
  | 5 => ⟨S800000, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S4000x128, .f32⟩
  | .local _ .vmem, ⟨1, _⟩ => ⟨S4000x128, .f32⟩
  | .local _ .vmem, ⟨2, _⟩ => ⟨S4000x1, .f32⟩
  | .local _ .vmem, ⟨3, _⟩ => ⟨S4000x1, .f32⟩
  | .local _ .vmem, ⟨4, _⟩ => ⟨S1x128, .f32⟩
  | .local _ .vmem, ⟨5, _⟩ => ⟨S1x128, .f32⟩
  | .local _ .vmem, ⟨6, _⟩ => ⟨S4000x128, .f32⟩
  | .local _ .vmem, ⟨7, _⟩ => ⟨S4000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S1x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S4000x128, .f32⟩
  | .local _ .vmem, ⟨19, _⟩ => ⟨S4000x128, .f32⟩
  | .local _ .vmem, ⟨20, _⟩ => ⟨S4000x1, .f32⟩
  | .local _ .vmem, ⟨21, _⟩ => ⟨S4000x1, .f32⟩
  | .local _ .vmem, ⟨22, _⟩ => ⟨S1x128, .f32⟩
  | .local _ .vmem, ⟨23, _⟩ => ⟨S1x128, .f32⟩
  | .local _ .vmem, ⟨24, _⟩ => ⟨S4000x128, .f32⟩
  | .local _ .vmem, ⟨25, _⟩ => ⟨S4000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x128, .f32⟩
  | .local _ .vmem, ⟨31, _⟩ => ⟨S1x128, .f32⟩
  | .local _ .vmem, ⟨32, _⟩ => ⟨S128x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | .local _ .vmem, ⟨36, _⟩ => ⟨S4000x128, .f32⟩
  | .local _ .vmem, ⟨37, _⟩ => ⟨S4000x128, .f32⟩
  | .local _ .vmem, ⟨38, _⟩ => ⟨S4000x1, .f32⟩
  | .local _ .vmem, ⟨39, _⟩ => ⟨S4000x1, .f32⟩
  | .local _ .vmem, ⟨40, _⟩ => ⟨S1x128, .f32⟩
  | .local _ .vmem, ⟨41, _⟩ => ⟨S1x128, .f32⟩
  | .local _ .vmem, ⟨42, _⟩ => ⟨S4000x128, .f32⟩
  | .local _ .vmem, ⟨43, _⟩ => ⟨S4000x128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S5000x128, .f32⟩
  | .local _ .vmem, ⟨48, _⟩ => ⟨S128x128, .f32⟩
  | .local _ .vmem, ⟨49, _⟩ => ⟨S1x128, .f32⟩
  | .local _ .vmem, ⟨50, _⟩ => ⟨S128x128, .f32⟩
  | .local _ .vmem, ⟨51, _⟩ => ⟨S1x128, .f32⟩
  | .local _ .vmem, ⟨52, _⟩ => ⟨S5000x128, .f32⟩
  | .local _ .vmem, ⟨53, _⟩ => ⟨S5000x128, .f32⟩
  | .local _ .vmem, ⟨54, _⟩ => ⟨S4000x128, .f32⟩
  | .local _ .vmem, ⟨55, _⟩ => ⟨S4000x128, .f32⟩
  | .local _ .vmem, ⟨56, _⟩ => ⟨S4000x128, .f32⟩
  | .local _ .vmem, ⟨57, _⟩ => ⟨S4000x128, .f32⟩
  | .local _ .vmem, ⟨58, _⟩ => ⟨S128x128, .f32⟩
  | .local _ .vmem, ⟨59, _⟩ => ⟨S128x128, .f32⟩
  | .local _ .vmem, ⟨60, _⟩ => ⟨S1x128, .f32⟩
  | .local _ .vmem, ⟨61, _⟩ => ⟨S128x1, .f32⟩
  | .local _ .vmem, ⟨62, _⟩ => ⟨S1x1, .f32⟩
  | .local _ .vmem, ⟨63, _⟩ => ⟨S4000x1, .f32⟩
  | .local _ .vmem, ⟨64, _⟩ => ⟨S4000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | _, _ => false

abbrev semScoped : Fin 0 → Bool
  | ⟨_, h⟩ => absurd h (Nat.not_lt_zero _)

abbrev dmaSemScoped : Fin 65 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | _ => false

abbrev sig : RefSig :=
  ofTc nBuf bufTy 0 65 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_1 : Ref sig .tc := ⟨.hbm, 48, rfl⟩
abbrev main_v32 : Ref sig .tc := ⟨.hbm, 49, rfl⟩
abbrev main_v33 : Ref sig .tc := ⟨.hbm, 50, rfl⟩
abbrev main_c_2 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_3 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_c_4 : Ref sig .tc := ⟨.hbm, 79, rfl⟩
abbrev main_v60 : Ref sig .tc := ⟨.hbm, 80, rfl⟩
abbrev main_v61 : Ref sig .tc := ⟨.hbm, 81, rfl⟩
abbrev main_c_5 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_cst_6 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_c_7 : Ref sig .tc := ⟨.hbm, 110, rfl⟩
abbrev main_v88 : Ref sig .tc := ⟨.hbm, 111, rfl⟩
abbrev main_v89 : Ref sig .tc := ⟨.hbm, 112, rfl⟩
abbrev main_c_8 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_c_9 : Ref sig .tc := ⟨.hbm, 119, rfl⟩
abbrev main_v95 : Ref sig .tc := ⟨.hbm, 120, rfl⟩
abbrev main_v96 : Ref sig .tc := ⟨.hbm, 121, rfl⟩
abbrev main_c_10 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg6_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg4_1 : Ref sig .tc := ⟨.vmem, 43, rfl⟩
abbrev cc5_stg0_0 : Ref sig .tc := ⟨.vmem, 44, rfl⟩
abbrev cc5_stg0_1 : Ref sig .tc := ⟨.vmem, 45, rfl⟩
abbrev cc5_stg1_0 : Ref sig .tc := ⟨.vmem, 46, rfl⟩
abbrev cc5_stg1_1 : Ref sig .tc := ⟨.vmem, 47, rfl⟩
abbrev cc5_stg2_0 : Ref sig .tc := ⟨.vmem, 48, rfl⟩
abbrev cc5_stg3_0 : Ref sig .tc := ⟨.vmem, 49, rfl⟩
abbrev cc5_stg4_0 : Ref sig .tc := ⟨.vmem, 50, rfl⟩
abbrev cc5_stg5_0 : Ref sig .tc := ⟨.vmem, 51, rfl⟩
abbrev cc5_stg6_0 : Ref sig .tc := ⟨.vmem, 52, rfl⟩
abbrev cc5_stg6_1 : Ref sig .tc := ⟨.vmem, 53, rfl⟩
abbrev cc6_stg0_0 : Ref sig .tc := ⟨.vmem, 54, rfl⟩
abbrev cc6_stg0_1 : Ref sig .tc := ⟨.vmem, 55, rfl⟩
abbrev cc6_stg1_0 : Ref sig .tc := ⟨.vmem, 56, rfl⟩
abbrev cc6_stg1_1 : Ref sig .tc := ⟨.vmem, 57, rfl⟩
abbrev cc6_stg2_0 : Ref sig .tc := ⟨.vmem, 58, rfl⟩
abbrev cc6_stg3_0 : Ref sig .tc := ⟨.vmem, 59, rfl⟩
abbrev cc6_stg4_0 : Ref sig .tc := ⟨.vmem, 60, rfl⟩
abbrev cc6_stg5_0 : Ref sig .tc := ⟨.vmem, 61, rfl⟩
abbrev cc6_stg6_0 : Ref sig .tc := ⟨.vmem, 62, rfl⟩
abbrev cc6_stg7_0 : Ref sig .tc := ⟨.vmem, 63, rfl⟩
abbrev cc6_stg7_1 : Ref sig .tc := ⟨.vmem, 64, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem4_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem6_0 : DmaSem sig := 34
abbrev cc3_sem6_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42
abbrev cc4_sem4_1 : DmaSem sig := 43
abbrev cc5_sem0_0 : DmaSem sig := 44
abbrev cc5_sem0_1 : DmaSem sig := 45
abbrev cc5_sem1_0 : DmaSem sig := 46
abbrev cc5_sem1_1 : DmaSem sig := 47
abbrev cc5_sem2_0 : DmaSem sig := 48
abbrev cc5_sem3_0 : DmaSem sig := 49
abbrev cc5_sem4_0 : DmaSem sig := 50
abbrev cc5_sem5_0 : DmaSem sig := 51
abbrev cc5_sem6_0 : DmaSem sig := 52
abbrev cc5_sem6_1 : DmaSem sig := 53
abbrev cc6_sem0_0 : DmaSem sig := 54
abbrev cc6_sem0_1 : DmaSem sig := 55
abbrev cc6_sem1_0 : DmaSem sig := 56
abbrev cc6_sem1_1 : DmaSem sig := 57
abbrev cc6_sem2_0 : DmaSem sig := 58
abbrev cc6_sem3_0 : DmaSem sig := 59
abbrev cc6_sem4_0 : DmaSem sig := 60
abbrev cc6_sem5_0 : DmaSem sig := 61
abbrev cc6_sem6_0 : DmaSem sig := 62
abbrev cc6_sem7_0 : DmaSem sig := 63
abbrev cc6_sem7_1 : DmaSem sig := 64

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S4000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![200], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S4000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S5000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![200], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S4000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S128x1 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x1 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 2 → Memref sig .tc .vmem S4000x1 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  slices_S3x1x128_S1x1x128_0_0_0 : S3x1x128.Slices ![0, 0, 0] S1x1x128
  shapeCasts_S1x1x128_S128 : S1x1x128.ShapeCasts S128
  slices_S3x128_S1x128_0_0 : S3x128.Slices ![0, 0] S1x128
  shapeCasts_S1x128_S128 : S1x128.ShapeCasts S128
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S4000x1_S4000x128 : S4000x1.Broadcasts S4000x128
  broadcasts_S1x128_S4000x128 : S1x128.Broadcasts S4000x128
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S1x128_S5000x128 : S1x128.Broadcasts S5000x128
  slices_S3x1x128_S1x1x128_1_0_0 : S3x1x128.Slices ![1, 0, 0] S1x1x128
  slices_S3x128_S1x128_1_0 : S3x128.Slices ![1, 0] S1x128
  slices_S3x128x128_S1x128x128_1_0_0 : S3x128x128.Slices ![1, 0, 0] S1x128x128
  slices_S3x1x128_S1x1x128_2_0_0 : S3x1x128.Slices ![2, 0, 0] S1x1x128
  slices_S3x128_S1x128_2_0 : S3x128.Slices ![2, 0] S1x128
  slices_S3x128x128_S1x128x128_2_0_0 : S3x128x128.Slices ![2, 0, 0] S1x128x128
  slices_S256x128_S128x128_0_0 : S256x128.Slices ![0, 0] S128x128
  slices_S256x128_S128x128_128_0 : S256x128.Slices ![128, 0] S128x128
  shapeCasts_S1_S1x1 : S1.ShapeCasts S1x1
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  shapeCasts_S800000x1_S800000 : S800000x1.ShapeCasts S800000
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S4000x128_S128x128_S4000x128_1_0_0_1_n_n_wf : DotDims.WF S4000x128 S128x128 S4000x128 [1] [0] [0] [1] [] []
  dot_S4000x128_S128x1_S4000x1_1_0_0_1_n_n_wf : DotDims.WF S4000x128 S128x1 S4000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S800000x128.size a
  hwx0_0 : ∀ i : grid0.Coords, EltTy.bits .f32 = 32 ∨ (Rect.block (s := S800000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S800000x1.size a
  hwx0_1 : ∀ i : grid0.Coords, EltTy.bits .f32 = 32 ∨ (Rect.block (s := S800000x1) S4000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x128.size a ≤ S800000x128.size a
  hwx0_4 : ∀ i : grid0.Coords, EltTy.bits .f32 = 32 ∨ (Rect.block (s := S800000x128) S4000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S800000x128.size a
  hwx2_0 : ∀ i : grid2.Coords, EltTy.bits .f32 = 32 ∨ (Rect.block (s := S800000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S800000x1.size a
  hwx2_1 : ∀ i : grid2.Coords, EltTy.bits .f32 = 32 ∨ (Rect.block (s := S800000x1) S4000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4000x128.size a ≤ S800000x128.size a
  hwx2_4 : ∀ i : grid2.Coords, EltTy.bits .f32 = 32 ∨ (Rect.block (s := S800000x128) S4000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S50000x128.size a
  hwx3_6 : ∀ i : grid3.Coords, EltTy.bits .f32 = 32 ∨ (Rect.block (s := S50000x128) S5000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x128.size a ≤ S800000x128.size a
  hwx4_0 : ∀ i : grid4.Coords, EltTy.bits .f32 = 32 ∨ (Rect.block (s := S800000x128) S4000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x1.size a ≤ S800000x1.size a
  hwx4_1 : ∀ i : grid4.Coords, EltTy.bits .f32 = 32 ∨ (Rect.block (s := S800000x1) S4000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S4000x128.size a ≤ S800000x128.size a
  hwx4_4 : ∀ i : grid4.Coords, EltTy.bits .f32 = 32 ∨ (Rect.block (s := S800000x128) S4000x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S50000x128.size a
  hwx5_1 : ∀ i : grid5.Coords, EltTy.bits .f32 = 32 ∨ (Rect.block (s := S50000x128) S5000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128x128.size a ≤ S128x128.size a
  hwx5_4 : ∀ i : grid5.Coords, EltTy.bits .f32 = 32 ∨ (Rect.block (s := S128x128) S128x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x128.size a ≤ S50000x128.size a
  hwx5_6 : ∀ i : grid5.Coords, EltTy.bits .f32 = 32 ∨ (Rect.block (s := S50000x128) S5000x128.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4000x128.size a ≤ S800000x128.size a
  hwx6_0 : ∀ i : grid6.Coords, EltTy.bits .f32 = 32 ∨ (Rect.block (s := S800000x128) S4000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S4000x128.size a ≤ S800000x128.size a
  hwx6_1 : ∀ i : grid6.Coords, EltTy.bits .f32 = 32 ∨ (Rect.block (s := S800000x128) S4000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x128.size a ≤ S128x128.size a
  hwx6_2 : ∀ i : grid6.Coords, EltTy.bits .f32 = 32 ∨ (Rect.block (s := S128x128) S128x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x128.size a ≤ S128x128.size a
  hwx6_3 : ∀ i : grid6.Coords, EltTy.bits .f32 = 32 ∨ (Rect.block (s := S128x128) S128x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S128x1.size a ≤ S128x1.size a
  hwx6_5 : ∀ i : grid6.Coords, EltTy.bits .f32 = 32 ∨ (Rect.block (s := S128x1) S128x1.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x1.size a ≤ S1x1.size a
  hwx6_6 : ∀ i : grid6.Coords, EltTy.bits .f32 = 32 ∨ (Rect.block (s := S1x1) S1x1.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S4000x1.size a ≤ S800000x1.size a
  hwx6_7 : ∀ i : grid6.Coords, EltTy.bits .f32 = 32 ∨ (Rect.block (s := S800000x1) S4000x1.size (cc6_transform_7 i) (hinb6_7 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x1_S4000x1_1_0_0_1_n_n : DotDims S4000x128 S128x1 S4000x1 where
  lhsContracting := [1]
  rhsContracting := [0]
  lhsNonContracting := [0]
  rhsNonContracting := [1]
  lhsBatch := []
  rhsBatch := []
  wf := dot_S4000x128_S128x1_S4000x1_1_0_0_1_n_n_wf

abbrev win0_0 : Pipeline.Window sig grid0 :=
  Pipeline.Window.ofSpec (Memref.whole main_v10) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S4000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v30) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v31) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v38) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v43) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v44) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v45) S4000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v31) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v48) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v50) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v57) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v54) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v58) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v59) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v66) S4000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg1) S4000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v71) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v72) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v73) S4000x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v59) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v78) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v85) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v82) S128x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v86) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v87) S5000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v94) S4000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v101) S4000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v102) S128x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v103) S128x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v104) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_arg11) S128x1.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v105) S1x1.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v106) S4000x1.size cc6_transform_7 reads6_7 true false 2 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

class Facts : Prop extends Facts₀ where

variable [Facts]
-- ==== ReferenceIdeal.lean ====
abbrev S50000x128 : Shape := ⟨2, ![50000, 128]⟩
abbrev S800000x1 : Shape := ⟨2, ![800000, 1]⟩
abbrev S2x800000 : Shape := ⟨2, ![2, 800000]⟩
abbrev S3x128x128 : Shape := ⟨3, ![3, 128, 128]⟩
abbrev S3x128 : Shape := ⟨2, ![3, 128]⟩
abbrev S3x1x128 : Shape := ⟨3, ![3, 1, 128]⟩
abbrev S256x128 : Shape := ⟨2, ![256, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x128 : Shape := ⟨2, ![800000, 128]⟩
abbrev S1x1x128 : Shape := ⟨3, ![1, 1, 128]⟩
abbrev S1x128 : Shape := ⟨2, ![1, 128]⟩
abbrev S1x128x128 : Shape := ⟨3, ![1, 128, 128]⟩
abbrev S128x128 : Shape := ⟨2, ![128, 128]⟩
abbrev S800000x256 : Shape := ⟨2, ![800000, 256]⟩
abbrev S1x1 : Shape := ⟨2, ![1, 1]⟩

abbrev nBuf : Space → Nat
  | .hbm => 192
  | .vmem => 0
  | .smem => 0
  | _ => 0

abbrev hbmTy0_0 (i : Nat) : BufTy := match i % 128 with
  | 0 => ⟨S50000x128, .f32⟩
  | 1 => ⟨S800000x1, .f32⟩
  | 2 => ⟨S2x800000, .i32⟩
  | 3 => ⟨S3x128x128, .f32⟩
  | 4 => ⟨S3x128, .f32⟩
  | 5 => ⟨S3x128x128, .f32⟩
  | 6 => ⟨S3x128, .f32⟩
  | 7 => ⟨S3x1x128, .f32⟩
  | 8 => ⟨S3x128, .f32⟩
  | 9 => ⟨S256x128, .f32⟩
  | 10 => ⟨S128, .f32⟩
  | 11 => ⟨S128x1, .f32⟩
  | 12 => ⟨S1, .f32⟩
  | 13 => ⟨S1x800000, .i32⟩
  | 14 => ⟨S800000, .i32⟩
  | 15 => ⟨S1x800000, .i32⟩
  | 16 => ⟨S800000, .i32⟩
  | 17 => ⟨S_, .i32⟩
  | 18 => ⟨S800000, .i32⟩
  | 19 => ⟨S800000, .i1⟩
  | 20 => ⟨S_, .i32⟩
  | 21 => ⟨S800000, .i32⟩
  | 22 => ⟨S800000, .i32⟩
  | 23 => ⟨S800000, .i32⟩
  | 24 => ⟨S800000x1, .i32⟩
  | 25 => ⟨S800000x128, .f32⟩
  | 26 => ⟨S1x1x128, .f32⟩
  | 27 => ⟨S1x128, .f32⟩
  | 28 => ⟨S800000x128, .f32⟩
  | 29 => ⟨S800000x128, .f32⟩
  | 30 => ⟨S1x128, .f32⟩
  | 31 => ⟨S128, .f32⟩
  | 32 => ⟨S1x128, .f32⟩
  | 33 => ⟨S800000x128, .f32⟩
  | 34 => ⟨S800000x128, .f32⟩
  | 35 => ⟨S_, .f32⟩
  | 36 => ⟨S800000x128, .f32⟩
  | 37 => ⟨S800000x128, .f32⟩
  | 38 => ⟨S_, .f32⟩
  | 39 => ⟨S50000x128, .f32⟩
  | 40 => ⟨S800000x1, .i32⟩
  | 41 => ⟨S50000x128, .f32⟩
  | 42 => ⟨S50000x128, .f32⟩
  | 43 => ⟨S1x128x128, .f32⟩
  | 44 => ⟨S128x128, .f32⟩
  | 45 => ⟨S50000x128, .f32⟩
  | 46 => ⟨S1x128, .f32⟩
  | 47 => ⟨S128, .f32⟩
  | 48 => ⟨S1x128, .f32⟩
  | 49 => ⟨S50000x128, .f32⟩
  | 50 => ⟨S50000x128, .f32⟩
  | 51 => ⟨S_, .f32⟩
  | 52 => ⟨S50000x128, .f32⟩
  | 53 => ⟨S50000x128, .f32⟩
  | 54 => ⟨S1x128x128, .f32⟩
  | 55 => ⟨S128x128, .f32⟩
  | 56 => ⟨S50000x128, .f32⟩
  | 57 => ⟨S1x128, .f32⟩
  | 58 => ⟨S128, .f32⟩
  | 59 => ⟨S1x128, .f32⟩
  | 60 => ⟨S50000x128, .f32⟩
  | 61 => ⟨S50000x128, .f32⟩
  | 62 => ⟨S_, .f32⟩
  | 63 => ⟨S50000x128, .f32⟩
  | 64 => ⟨S50000x128, .f32⟩
  | 65 => ⟨S_, .i32⟩
  | 66 => ⟨S800000, .i32⟩
  | 67 => ⟨S800000, .i1⟩
  | 68 => ⟨S_, .i32⟩
  | 69 => ⟨S800000, .i32⟩
  | 70 => ⟨S800000, .i32⟩
  | 71 => ⟨S800000, .i32⟩
  | 72 => ⟨S800000x1, .i32⟩
  | 73 => ⟨S800000x128, .f32⟩
  | 74 => ⟨S1x1x128, .f32⟩
  | 75 => ⟨S1x128, .f32⟩
  | 76 => ⟨S800000x128, .f32⟩
  | 77 => ⟨S800000x128, .f32⟩
  | 78 => ⟨S1x128, .f32⟩
  | 79 => ⟨S128, .f32⟩
  | 80 => ⟨S1x128, .f32⟩
  | 81 => ⟨S800000x128, .f32⟩
  | 82 => ⟨S800000x128, .f32⟩
  | 83 => ⟨S_, .f32⟩
  | 84 => ⟨S800000x128, .f32⟩
  | 85 => ⟨S800000x128, .f32⟩
  | 86 => ⟨S_, .f32⟩
  | 87 => ⟨S50000x128, .f32⟩
  | 88 => ⟨S800000x1, .i32⟩
  | 89 => ⟨S50000x128, .f32⟩
  | 90 => ⟨S50000x128, .f32⟩
  | 91 => ⟨S1x128x128, .f32⟩
  | 92 => ⟨S128x128, .f32⟩
  | 93 => ⟨S50000x128, .f32⟩
  | 94 => ⟨S1x128, .f32⟩
  | 95 => ⟨S128, .f32⟩
  | 96 => ⟨S1x128, .f32⟩
  | 97 => ⟨S50000x128, .f32⟩
  | 98 => ⟨S50000x128, .f32⟩
  | 99 => ⟨S_, .f32⟩
  | 100 => ⟨S50000x128, .f32⟩
  | 101 => ⟨S50000x128, .f32⟩
  | 102 => ⟨S1x128x128, .f32⟩
  | 103 => ⟨S128x128, .f32⟩
  | 104 => ⟨S50000x128, .f32⟩
  | 105 => ⟨S1x128, .f32⟩
  | 106 => ⟨S128, .f32⟩
  | 107 => ⟨S1x128, .f32⟩
  | 108 => ⟨S50000x128, .f32⟩
  | 109 => ⟨S50000x128, .f32⟩
  | 110 => ⟨S_, .f32⟩
  | 111 => ⟨S50000x128, .f32⟩
  | 112 => ⟨S50000x128, .f32⟩
  | 113 => ⟨S_, .i32⟩
  | 114 => ⟨S800000, .i32⟩
  | 115 => ⟨S800000, .i1⟩
  | 116 => ⟨S_, .i32⟩
  | 117 => ⟨S800000, .i32⟩
  | 118 => ⟨S800000, .i32⟩
  | 119 => ⟨S800000, .i32⟩
  | 120 => ⟨S800000x1, .i32⟩
  | 121 => ⟨S800000x128, .f32⟩
  | 122 => ⟨S1x1x128, .f32⟩
  | 123 => ⟨S1x128, .f32⟩
  | 124 => ⟨S800000x128, .f32⟩
  | 125 => ⟨S800000x128, .f32⟩
  | 126 => ⟨S1x128, .f32⟩
  | 127 => ⟨S128, .f32⟩
  | _ => ⟨S50000x128, .f32⟩

abbrev hbmTy0_1 (i : Nat) : BufTy := match i % 128 with
  | 0 => ⟨S1x128, .f32⟩
  | 1 => ⟨S800000x128, .f32⟩
  | 2 => ⟨S800000x128, .f32⟩
  | 3 => ⟨S_, .f32⟩
  | 4 => ⟨S800000x128, .f32⟩
  | 5 => ⟨S800000x128, .f32⟩
  | 6 => ⟨S_, .f32⟩
  | 7 => ⟨S50000x128, .f32⟩
  | 8 => ⟨S800000x1, .i32⟩
  | 9 => ⟨S50000x128, .f32⟩
  | 10 => ⟨S50000x128, .f32⟩
  | 11 => ⟨S1x128x128, .f32⟩
  | 12 => ⟨S128x128, .f32⟩
  | 13 => ⟨S50000x128, .f32⟩
  | 14 => ⟨S1x128, .f32⟩
  | 15 => ⟨S128, .f32⟩
  | 16 => ⟨S1x128, .f32⟩
  | 17 => ⟨S50000x128, .f32⟩
  | 18 => ⟨S50000x128, .f32⟩
  | 19 => ⟨S_, .f32⟩
  | 20 => ⟨S50000x128, .f32⟩
  | 21 => ⟨S50000x128, .f32⟩
  | 22 => ⟨S1x128x128, .f32⟩
  | 23 => ⟨S128x128, .f32⟩
  | 24 => ⟨S50000x128, .f32⟩
  | 25 => ⟨S1x128, .f32⟩
  | 26 => ⟨S128, .f32⟩
  | 27 => ⟨S1x128, .f32⟩
  | 28 => ⟨S50000x128, .f32⟩
  | 29 => ⟨S50000x128, .f32⟩
  | 30 => ⟨S_, .f32⟩
  | 31 => ⟨S50000x128, .f32⟩
  | 32 => ⟨S50000x128, .f32⟩
  | 33 => ⟨S_, .i32⟩
  | 34 => ⟨S800000, .i32⟩
  | 35 => ⟨S800000, .i1⟩
  | 36 => ⟨S_, .i32⟩
  | 37 => ⟨S800000, .i32⟩
  | 38 => ⟨S800000, .i32⟩
  | 39 => ⟨S800000, .i32⟩
  | 40 => ⟨S800000x1, .i32⟩
  | 41 => ⟨S800000x128, .f32⟩
  | 42 => ⟨S_, .i32⟩
  | 43 => ⟨S800000, .i32⟩
  | 44 => ⟨S800000, .i1⟩
  | 45 => ⟨S_, .i32⟩
  | 46 => ⟨S800000, .i32⟩
  | 47 => ⟨S800000, .i32⟩
  | 48 => ⟨S800000, .i32⟩
  | 49 => ⟨S800000x1, .i32⟩
  | 50 => ⟨S800000x128, .f32⟩
  | 51 => ⟨S800000x256, .f32⟩
  | 52 => ⟨S800000x128, .f32⟩
  | 53 => ⟨S1x128, .f32⟩
  | 54 => ⟨S800000x128, .f32⟩
  | 55 => ⟨S800000x128, .f32⟩
  | 56 => ⟨S_, .f32⟩
  | 57 => ⟨S800000x128, .f32⟩
  | 58 => ⟨S800000x128, .f32⟩
  | 59 => ⟨S800000x1, .f32⟩
  | 60 => ⟨S1x1, .f32⟩
  | 61 => ⟨S800000x1, .f32⟩
  | 62 => ⟨S800000x1, .f32⟩
  | 63 => ⟨S800000, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_call0_cst : Ref sig .tc := ⟨.hbm, 35, rfl⟩
abbrev main_call0_v0 : Ref sig .tc := ⟨.hbm, 36, rfl⟩
abbrev main_v20 : Ref sig .tc := ⟨.hbm, 37, rfl⟩
abbrev main_cst : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_call1_cst : Ref sig .tc := ⟨.hbm, 51, rfl⟩
abbrev main_call1_v0 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_call2_cst : Ref sig .tc := ⟨.hbm, 62, rfl⟩
abbrev main_call2_v0 : Ref sig .tc := ⟨.hbm, 63, rfl⟩
abbrev main_v42 : Ref sig .tc := ⟨.hbm, 64, rfl⟩
abbrev main_c_1 : Ref sig .tc := ⟨.hbm, 65, rfl⟩
abbrev main_v43 : Ref sig .tc := ⟨.hbm, 66, rfl⟩
abbrev main_v44 : Ref sig .tc := ⟨.hbm, 67, rfl⟩
abbrev main_c_2 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_call3_cst : Ref sig .tc := ⟨.hbm, 83, rfl⟩
abbrev main_call3_v0 : Ref sig .tc := ⟨.hbm, 84, rfl⟩
abbrev main_v59 : Ref sig .tc := ⟨.hbm, 85, rfl⟩
abbrev main_cst_3 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_call4_cst : Ref sig .tc := ⟨.hbm, 99, rfl⟩
abbrev main_call4_v0 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_call5_cst : Ref sig .tc := ⟨.hbm, 110, rfl⟩
abbrev main_call5_v0 : Ref sig .tc := ⟨.hbm, 111, rfl⟩
abbrev main_v81 : Ref sig .tc := ⟨.hbm, 112, rfl⟩
abbrev main_c_4 : Ref sig .tc := ⟨.hbm, 113, rfl⟩
abbrev main_v82 : Ref sig .tc := ⟨.hbm, 114, rfl⟩
abbrev main_v83 : Ref sig .tc := ⟨.hbm, 115, rfl⟩
abbrev main_c_5 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_call6_cst : Ref sig .tc := ⟨.hbm, 131, rfl⟩
abbrev main_call6_v0 : Ref sig .tc := ⟨.hbm, 132, rfl⟩
abbrev main_v98 : Ref sig .tc := ⟨.hbm, 133, rfl⟩
abbrev main_cst_6 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_call7_cst : Ref sig .tc := ⟨.hbm, 147, rfl⟩
abbrev main_call7_v0 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_call8_cst : Ref sig .tc := ⟨.hbm, 158, rfl⟩
abbrev main_call8_v0 : Ref sig .tc := ⟨.hbm, 159, rfl⟩
abbrev main_v120 : Ref sig .tc := ⟨.hbm, 160, rfl⟩
abbrev main_c_7 : Ref sig .tc := ⟨.hbm, 161, rfl⟩
abbrev main_v121 : Ref sig .tc := ⟨.hbm, 162, rfl⟩
abbrev main_v122 : Ref sig .tc := ⟨.hbm, 163, rfl⟩
abbrev main_c_8 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_c_9 : Ref sig .tc := ⟨.hbm, 170, rfl⟩
abbrev main_v128 : Ref sig .tc := ⟨.hbm, 171, rfl⟩
abbrev main_v129 : Ref sig .tc := ⟨.hbm, 172, rfl⟩
abbrev main_c_10 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_call9_cst : Ref sig .tc := ⟨.hbm, 184, rfl⟩
abbrev main_call9_v0 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  slices_S3x1x128_S1x1x128_0_0_0 : S3x1x128.Slices ![0, 0, 0] S1x1x128
  shapeCasts_S1x1x128_S1x128 : S1x1x128.ShapeCasts S1x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  bcast_S1x128_S50000x128_0_1 : S1x128.BroadcastsInDim S50000x128 (![0, 1] : Fin 2 → Fin S50000x128.rank)
  slices_S3x1x128_S1x1x128_1_0_0 : S3x1x128.Slices ![1, 0, 0] S1x1x128
  slices_S3x128_S1x128_1_0 : S3x128.Slices ![1, 0] S1x128
  slices_S3x128x128_S1x128x128_1_0_0 : S3x128x128.Slices ![1, 0, 0] S1x128x128
  slices_S3x1x128_S1x1x128_2_0_0 : S3x1x128.Slices ![2, 0, 0] S1x1x128
  slices_S3x128_S1x128_2_0 : S3x128.Slices ![2, 0] S1x128
  slices_S3x128x128_S1x128x128_2_0_0 : S3x128x128.Slices ![2, 0, 0] S1x128x128
  concatenates_S800000x128_S800000x128_S800000x256_d1 : Shape.Concatenates [S800000x128, S800000x128] S800000x256 1
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  shapeCasts_S800000x1_S800000 : S800000x1.ShapeCasts S800000
  gather_S50000x128_S800000x1_S800000x128_1_0_n_n_0_1_1128_wf : GatherDims.WF S50000x128 S800000x1 S800000x128 [1] [0] [] [0] [] 1 ![1, 128]
  dot_S800000x1_S1x128_S800000x128_1_0_0_1_n_n_wf : DotDims.WF S800000x1 S1x128 S800000x128 [1] [0] [0] [1] [] []
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S800000x256_S256x128_S800000x128_1_0_0_1_n_n_wf : DotDims.WF S800000x256 S256x128 S800000x128 [1] [0] [0] [1] [] []
  dot_S800000x128_S128x1_S800000x1_1_0_0_1_n_n_wf : DotDims.WF S800000x128 S128x1 S800000x1 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x1_S1x128_S800000x128_1_0_0_1_n_n : DotDims S800000x1 S1x128 S800000x128 where
  lhsContracting := [1]
  rhsContracting := [0]
  lhsNonContracting := [0]
  rhsNonContracting := [1]
  lhsBatch := []
  rhsBatch := []
  wf := dot_S800000x1_S1x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S800000x256_S256x128_S800000x128_1_0_0_1_n_n : DotDims S800000x256 S256x128 S800000x128 where
  lhsContracting := [1]
  rhsContracting := [0]
  lhsNonContracting := [0]
  rhsNonContracting := [1]
  lhsBatch := []
  rhsBatch := []
  wf := dot_S800000x256_S256x128_S800000x128_1_0_0_1_n_n_wf
def dot_S800000x128_S128x1_S800000x1_1_0_0_1_n_n : DotDims S800000x128 S128x1 S800000x1 where
  lhsContracting := [1]
  rhsContracting := [0]
  lhsNonContracting := [0]
  rhsNonContracting := [1]
  lhsBatch := []
  rhsBatch := []
  wf := dot_S800000x128_S128x1_S800000x1_1_0_0_1_n_n_wf

class Facts : Prop extends Facts₀ where

variable [Facts]
-- ==== Proof.LibPlainDot.lean ====
/-
  A plain matrix product's contraction as a sum over one natural coordinate.

  For the dimension numbers of an M×K by K×N product with no batch axis (the left operand contracted on its columns,
  the right on its rows), the contraction index has one axis of extent K, the left operand is read at (row of the
  output, k) and the right at (k, column of the output). So the sum over the contraction index of the products is

      Σ over k < K of  l(r, k) · r(k, c)

  at output index (r, c): the form in which a kernel's block product and a whole-array product are compared.
-/
import Idealize.ShloMosaic.Lib.ValueIdx
import Idealize.ShloMosaic.PureOps.Ideal.Laws

noncomputable section

namespace Cert.LibPlainDot

open Idealize.ShloMosaic Idealize.ShloMosaic.ValueIdx

/-- The contraction of a plain M×K by K×N product at output index j, as a sum over the K positions. -/
theorem plain_contr_sum (M K N : Nat) (l : (⟨2, ![M, K]⟩ : Shape).Idx → EReal) (r : (⟨2, ![K, N]⟩ : Shape).Idx → EReal)
    (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  have hr : (DotDims.plain M K N).contr.rank = 1 := rfl
  have hs : (DotDims.plain M K N).contr.size ⟨0, by omega⟩ = K := rfl
  rw [← Equiv.sum_comp (contrEquiv1 (DotDims.plain M K N) K hr hs).symm]
  refine Finset.sum_congr rfl fun k _ => ?_
  have hk := contrEquiv1_symm_val (DotDims.plain M K N) K hr hs k
  have el : (DotDims.plain M K N).lhsIdx j ((contrEquiv1 (DotDims.plain M K N) K hr hs).symm k) = ix2 (j 0) k := by
    funext a; apply Fin.ext
    match a with
    | ⟨0, _⟩ => rfl
    | ⟨1, _⟩ => exact ((DotDims.plain M K N).lhsIdx_val_of_single rfl j _).trans hk
  have er : (DotDims.plain M K N).rhsIdx j ((contrEquiv1 (DotDims.plain M K N) K hr hs).symm k) = ix2 k (j 1) := by
    funext a; apply Fin.ext
    match a with
    | ⟨0, _⟩ => exact ((DotDims.plain M K N).rhsIdx_val_of_single rfl j _).trans hk
    | ⟨1, _⟩ => rfl
  exact congrArg₂ (· * ·) (congrArg l el) (congrArg r er)

/-- A tpu.matmul into the zero accumulator with plain dimension numbers, read at an output index. -/
theorem matmul_zero_plain {φ₁ φ₂ : FTy} (M K N : Nat) (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) :=
  (Ideal.matmul_constant_zero_apply _ prec l r j).trans (plain_contr_sum M K N l r j)

/-- The host's dot_general with plain dimension numbers, read at an output index. -/
theorem dotGeneral_plain {φ₁ φ₂ : FTy} (M K N : Nat) (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j = ∑ k : Fin K, l (ix2 (j 0) k) * r (ix2 k (j 1)) :=
  (Ideal.dotGeneral_apply _ prec sched l r j).trans (plain_contr_sum M K N l r j)

end Cert.LibPlainDot

end
-- ==== Proof.Layer.lean ====
/-
  One layer of the network, and its edge head, as functions of whole arrays — written with the host's operations, in the
  order the reference applies them — and each of them read at an entry.

  • `msg xg ea w b`      — the message of every edge: relu(xg + ea · w + b), with `ea` one column, `w` and `b` one row each;
  • `hid x a W b`        — relu((x + a) · W + b), the first half of a node update;
  • `node x a W₁ b₁ W₂ b₂` — relu(hid · W₂ + b₂), the node update;
  • `pred xs xd W b₁ w₂ b₂` — relu([xs | xd] · W + b₁) · w₂ + b₂, the edge head over the two gathered halves laid side by side.

  At an entry each is a maximum with zero of a finite sum of products plus a bias entry; the product of the edge column
  with the weight row is a sum of one term.
-/
import proofs.«105022_j75840532513189_1_alg».proof.Proof.Gen.ReferenceIdeal
import proofs.«105022_j75840532513189_1_alg».proof.Proof.LibPlainDot
import Idealize.ShloMosaic.Lib.Pipeline.Value
import Idealize.ShloMosaic.Lib.ValueIdx
import Idealize.ShloMosaic.Lib.ValueLayout
import Idealize.ShloMosaic.Lib.KernelVsHost
import Idealize.ShloMosaic.Lib.IdealHost
import Idealize.ShloMosaic.PureOps.Ideal.Laws

noncomputable section

namespace Cert.Layer

open Idealize.ShloMosaic Idealize.ShloMosaic.ValueIdx Cert.ReferenceIdeal Cert.ReferenceIdeal.Facts₀

/-- The float zero the relu compares with. -/
abbrev z : EReal := Ideal.ofBits .f32 0x00000000#32

/-- relu(xg + ea · w + b): every edge's message. -/
def msg (xg : FVec Ideal S800000x128 .f32) (ea : FVec Ideal S800000x1 .f32) (w b : FVec Ideal S1x128 .f32) :
    FVec Ideal S800000x128 .f32 :=
  maximumf (addf (addf xg (Host.dotGeneral dot_S800000x1_S1x128_S800000x128_1_0_0_1_n_n none ea w))
      (broadcastInDim S800000x128 ![0, 1] bcast_S1x128_S800000x128_0_1 b))
    (broadcastInDim S800000x128 ![] bcast_S_S800000x128 (constant S_ .f32 0x00000000#32))

/-- relu((x + a) · W + b). -/
def hid (x a : FVec Ideal S50000x128 .f32) (W : FVec Ideal S128x128 .f32) (b : FVec Ideal S1x128 .f32) :
    FVec Ideal S50000x128 .f32 :=
  maximumf (addf (Host.dotGeneral dot_S50000x128_S128x128_S50000x128_1_0_0_1_n_n none (addf x a) W)
      (broadcastInDim S50000x128 ![0, 1] bcast_S1x128_S50000x128_0_1 b))
    (broadcastInDim S50000x128 ![] bcast_S_S50000x128 (constant S_ .f32 0x00000000#32))

/-- relu(h · W + b) for an already computed h. -/
def out (h : FVec Ideal S50000x128 .f32) (W : FVec Ideal S128x128 .f32) (b : FVec Ideal S1x128 .f32) :
    FVec Ideal S50000x128 .f32 :=
  maximumf (addf (Host.dotGeneral dot_S50000x128_S128x128_S50000x128_1_0_0_1_n_n none h W)
      (broadcastInDim S50000x128 ![0, 1] bcast_S1x128_S50000x128_0_1 b))
    (broadcastInDim S50000x128 ![] bcast_S_S50000x128 (constant S_ .f32 0x00000000#32))

/-- The node update of one layer. -/
def node (x a : FVec Ideal S50000x128 .f32) (W₁ : FVec Ideal S128x128 .f32) (b₁ : FVec Ideal S1x128 .f32)
    (W₂ : FVec Ideal S128x128 .f32) (b₂ : FVec Ideal S1x128 .f32) : FVec Ideal S50000x128 .f32 :=
  out (hid x a W₁ b₁) W₂ b₂

/-- relu([xs | xd] · W + b): the head's hidden array. -/
def phid (xs xd : FVec Ideal S800000x128 .f32) (W : FVec Ideal S256x128 .f32) (b : FVec Ideal S1x128 .f32) :
    FVec Ideal S800000x128 .f32 :=
  maximumf (addf (Host.dotGeneral dot_S800000x256_S256x128_S800000x128_1_0_0_1_n_n none
        (concatenate S800000x256 1 [⟨S800000x128, xs⟩, ⟨S800000x128, xd⟩] concatenates_S800000x128_S800000x128_S800000x256_d1) W)
      (broadcastInDim S800000x128 ![0, 1] bcast_S1x128_S800000x128_0_1 b))
    (broadcastInDim S800000x128 ![] bcast_S_S800000x128 (constant S_ .f32 0x00000000#32))

/-- The edge head: hidden array times the output column, plus the output bias. -/
def pred (xs xd : FVec Ideal S800000x128 .f32) (W : FVec Ideal S256x128 .f32) (b₁ : FVec Ideal S1x128 .f32)
    (w₂ : FVec Ideal S128x1 .f32) (b₂ : FVec Ideal S1x1 .f32) : FVec Ideal S800000x1 .f32 :=
  addf (Host.dotGeneral dot_S800000x128_S128x1_S800000x1_1_0_0_1_n_n none (phid xs xd W b₁) w₂)
    (broadcastInDim S800000x1 ![0, 1] bcast_S1x1_S800000x1_0_1 b₂)

/-! ## Read at an entry -/

theorem zero_apply (T : Shape) (h : (⟨0, ![]⟩ : Shape).BroadcastsInDim T ![]) (j : T.Idx) :
    broadcastInDim T ![] h (constant (F := Ideal) S_ .f32 0x00000000#32) j = z :=
  (broadcastInDim_scalar_apply h _ j).trans (constant_apply _ _)

theorem msg_apply (xg : FVec Ideal S800000x128 .f32) (ea : FVec Ideal S800000x1 .f32) (w b : FVec Ideal S1x128 .f32)
    (e : Fin 800000) (d : Fin 128) :
    msg xg ea w b (ix2 e d) = max ((xg (ix2 e d) + ea (ix2 e (0 : Fin 1)) * w (ix2 (0 : Fin 1) d)) + b (ix2 (0 : Fin 1) d)) z := by
  unfold msg
  rw [maximumf_apply, addf_apply, addf_apply, zero_apply,
    broadcastInDim_oneRow_apply bcast_S1x128_S800000x128_0_1 b e d]
  rw [show Host.dotGeneral dot_S800000x1_S1x128_S800000x128_1_0_0_1_n_n none ea w (ix2 e d)
      = ∑ k : Fin 1, ea (ix2 e k) * w (ix2 k d) from
    Cert.LibPlainDot.dotGeneral_plain 800000 1 128 none _ ea w (ix2 e d)]
  rw [Fin.sum_univ_one]

theorem hid_apply (x a : FVec Ideal S50000x128 .f32) (W : FVec Ideal S128x128 .f32) (b : FVec Ideal S1x128 .f32)
    (r : Fin 50000) (d : Fin 128) :
    hid x a W b (ix2 r d) = max ((∑ k : Fin 128, (x (ix2 r k) + a (ix2 r k)) * W (ix2 k d)) + b (ix2 (0 : Fin 1) d)) z := by
  unfold hid
  rw [maximumf_apply, addf_apply, zero_apply,
    broadcastInDim_oneRow_apply bcast_S1x128_S50000x128_0_1 b r d]
  rw [show Host.dotGeneral dot_S50000x128_S128x128_S50000x128_1_0_0_1_n_n none (addf x a) W (ix2 r d)
      = ∑ k : Fin 128, (addf x a) (ix2 r k) * W (ix2 k d) from
    Cert.LibPlainDot.dotGeneral_plain 50000 128 128 none _ (addf x a) W (ix2 r d)]
  rfl

theorem out_apply (h : FVec Ideal S50000x128 .f32) (W : FVec Ideal S128x128 .f32) (b : FVec Ideal S1x128 .f32)
    (r : Fin 50000) (d : Fin 128) :
    out h W b (ix2 r d) = max ((∑ k : Fin 128, h (ix2 r k) * W (ix2 k d)) + b (ix2 (0 : Fin 1) d)) z := by
  unfold out
  rw [maximumf_apply, addf_apply, zero_apply,
    broadcastInDim_oneRow_apply bcast_S1x128_S50000x128_0_1 b r d]
  rw [show Host.dotGeneral dot_S50000x128_S128x128_S50000x128_1_0_0_1_n_n none h W (ix2 r d)
      = ∑ k : Fin 128, h (ix2 r k) * W (ix2 k d) from
    Cert.LibPlainDot.dotGeneral_plain 50000 128 128 none _ h W (ix2 r d)]

/-- The two halves laid side by side, read in the first half: the first array. -/
theorem cat_left (xs xd : FVec Ideal S800000x128 .f32) (e : Fin 800000) (k : Fin 128) :
    concatenate S800000x256 1 [⟨S800000x128, xs⟩, ⟨S800000x128, xd⟩] concatenates_S800000x128_S800000x128_S800000x256_d1
      (ix2 e (⟨k.val, by have := k.isLt; omega⟩ : Fin 256)) = xs (ix2 e k) :=
  concatenate_pair_apply_left (t := S800000x256) (s₁ := S800000x128) (s₂ := S800000x128) (1 : Fin 2) xs xd
    concatenates_S800000x128_S800000x128_S800000x256_d1 (ix2 e (⟨k.val, by have := k.isLt; omega⟩ : Fin 256)) rfl (ix2 e k)
    (fun b => by match b with | ⟨0, _⟩ => rfl | ⟨1, _⟩ => rfl)

/-- The two halves laid side by side, read in the second half: the second array, 128 columns back. -/
theorem cat_right (xs xd : FVec Ideal S800000x128 .f32) (e : Fin 800000) (k : Fin 128) :
    concatenate S800000x256 1 [⟨S800000x128, xs⟩, ⟨S800000x128, xd⟩] concatenates_S800000x128_S800000x128_S800000x256_d1
      (ix2 e (⟨128 + k.val, by have := k.isLt; omega⟩ : Fin 256)) = xd (ix2 e k) :=
  concatenate_pair_apply_right (t := S800000x256) (s₁ := S800000x128) (s₂ := S800000x128) (1 : Fin 2) xs xd
    concatenates_S800000x128_S800000x128_S800000x256_d1 (ix2 e (⟨128 + k.val, by have := k.isLt; omega⟩ : Fin 256)) rfl rfl (ix2 e k)
    (fun b hb => by match b with | ⟨0, _⟩ => rfl | ⟨1, _⟩ => exact absurd rfl hb)
    (by show k.val + 128 = 128 + k.val; omega)

theorem phid_apply (xs xd : FVec Ideal S800000x128 .f32) (W : FVec Ideal S256x128 .f32) (b : FVec Ideal S1x128 .f32)
    (e : Fin 800000) (k : Fin 128) :
    phid xs xd W b (ix2 e k)
      = max (((∑ k' : Fin 128, xs (ix2 e k') * W (ix2 (⟨k'.val, by have := k'.isLt; omega⟩ : Fin 256) k))
          + (∑ k' : Fin 128, xd (ix2 e k') * W (ix2 (⟨128 + k'.val, by have := k'.isLt; omega⟩ : Fin 256) k)))
        + b (ix2 (0 : Fin 1) k)) z := by
  unfold phid
  rw [maximumf_apply, addf_apply, zero_apply,
    broadcastInDim_oneRow_apply bcast_S1x128_S800000x128_0_1 b e k]
  rw [show Host.dotGeneral dot_S800000x256_S256x128_S800000x128_1_0_0_1_n_n none
        (concatenate S800000x256 1 [⟨S800000x128, xs⟩, ⟨S800000x128, xd⟩] concatenates_S800000x128_S800000x128_S800000x256_d1) W (ix2 e k)
      = ∑ m : Fin 256, (concatenate S800000x256 1 [⟨S800000x128, xs⟩, ⟨S800000x128, xd⟩] concatenates_S800000x128_S800000x128_S800000x256_d1) (ix2 e m) * W (ix2 m k) from
    Cert.LibPlainDot.dotGeneral_plain 800000 256 128 none _ _ W (ix2 e k)]
  refine congrArg₂ max (congrArg₂ (· + ·) ?_ rfl) rfl
  refine (Fin.sum_univ_add (a := 128) (b := 128) _).trans (congrArg₂ (· + ·) ?_ ?_)
  · refine Finset.sum_congr rfl fun k' _ => congrArg₂ (· * ·) ?_ rfl
    exact cat_left xs xd e k'
  · refine Finset.sum_congr rfl fun k' _ => congrArg₂ (· * ·) ?_ rfl
    exact cat_right xs xd e k'

theorem pred_apply (xs xd : FVec Ideal S800000x128 .f32) (W : FVec Ideal S256x128 .f32) (b₁ : FVec Ideal S1x128 .f32)
    (w₂ : FVec Ideal S128x1 .f32) (b₂ : FVec Ideal S1x1 .f32) (e : Fin 800000) (j : Fin 1) :
    pred xs xd W b₁ w₂ b₂ (ix2 e j) = (∑ k : Fin 128, phid xs xd W b₁ (ix2 e k) * w₂ (ix2 k j)) + b₂ (ix2 (0 : Fin 1) j) := by
  unfold pred
  rw [addf_apply, broadcastInDim_oneRow_apply bcast_S1x1_S800000x1_0_1 b₂ e j]
  rw [show Host.dotGeneral dot_S800000x128_S128x1_S800000x1_1_0_0_1_n_n none (phid xs xd W b₁) w₂ (ix2 e j)
      = ∑ k : Fin 128, phid xs xd W b₁ (ix2 e k) * w₂ (ix2 k j) from
    Cert.LibPlainDot.dotGeneral_plain 800000 128 1 none _ (phid xs xd W b₁) w₂ (ix2 e j)]

end Cert.Layer

end
-- ==== Proof.LibColBroadcast.lean ====
/-
  A column laid across the lanes of a matrix, read at an index: an [a, 1] array broadcast to [a, b] reads, at (p, c),
  the column's entry at row p, whatever the lane c. (The companion of the library's row form [1, b] → [a, b].)
  General in the extents and in the element type.
-/
import Idealize.ShloMosaic.Lib.ValueIdx
import Idealize.ShloMosaic.Lib.Pipeline.Value

namespace Cert.LibColBroadcast

open Idealize.ShloMosaic Idealize.ShloMosaic.ValueIdx

variable {α : Type}

/-- An [a, 1] array broadcast to [a, b] reads, at (p, c), the operand's one column at row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColBroadcast
-- ==== Proof.MsgBody.lean ====
/-
  The message kernel's stored value, read at an entry, and one block of it against the whole-array message.

  The body loads a 4000 × 128 block of gathered rows, the matching 4000 × 1 block of edge attributes and the two 1 × 128
  rows, and stores relu(x + ea · w + b), the column laid across the lanes and each row down the sublanes. So the entry
  (p, q) of what it stores depends on the entry (p, q) of the first block, the entry (p, 0) of the second and the
  entries (0, q) of the rows — and when those are the entries (e, q), (e, 0), (0, q) of whole arrays, it is the entry
  (e, q) of the whole-array message of those arrays.
-/
import proofs.«105022_j75840532513189_1_alg».proof.Proof.Gen.KernelIdeal.Skeleton
import proofs.«105022_j75840532513189_1_alg».proof.Proof.Layer
import proofs.«105022_j75840532513189_1_alg».proof.Proof.LibColBroadcast

noncomputable section

namespace Cert.MsgBody

open Idealize.ShloMosaic Idealize.ShloMosaic.ValueIdx Cert.KernelIdeal

/-- The stored value at (p, q). -/
theorem pay_apply (v0 : Vec Ideal S4000x128 .f32) (v2 : Vec Ideal S4000x1 .f32) (v3 v5 : Vec Ideal S1x128 .f32)
    (p : Fin 4000) (q : Fin 128) :
    Gen.k0_pay1 (F := Ideal) v0 v2 v3 v5 (ix2 p q)
      = max ((v0 (ix2 p q) + v2 (ix2 p (0 : Fin 1)) * v3 (ix2 (0 : Fin 1) q)) + v5 (ix2 (0 : Fin 1) q)) Cert.Layer.z := by
  unfold Gen.k0_pay1
  rw [maximumf_apply, addf_apply, addf_apply, mulf_apply, broadcast_apply]
  simp only [shapeCast_self]
  rw [Cert.LibColBroadcast.broadcastTo_a1_ab_apply v2 _ p q,
    broadcastTo_1b_ab_apply v3 _ p q, broadcastTo_1b_ab_apply v5 _ p q]
  rfl

/-- One entry of a block against the whole-array message: entry (p, q) of the stored block is entry (e, q) of
    `msg` when the loaded blocks hold the whole arrays' entries of row e. -/
theorem block_eq (xg : FVec Ideal Cert.ReferenceIdeal.S800000x128 .f32) (ea : FVec Ideal Cert.ReferenceIdeal.S800000x1 .f32)
    (w b : FVec Ideal Cert.ReferenceIdeal.S1x128 .f32)
    (x0 : Vec Ideal S4000x128 .f32) (x1 : Vec Ideal S4000x1 .f32) (x2 x3 : Vec Ideal S1x128 .f32)
    (e : Fin 800000) (p : Fin 4000) (q : Fin 128)
    (h0 : x0 (ix2 p q) = xg (ix2 e q)) (h1 : x1 (ix2 p (0 : Fin 1)) = ea (ix2 e (0 : Fin 1)))
    (h2 : x2 (ix2 (0 : Fin 1) q) = w (ix2 (0 : Fin 1) q)) (h3 : x3 (ix2 (0 : Fin 1) q) = b (ix2 (0 : Fin 1) q)) :
    Gen.k0_pay1 (F := Ideal) x0 x1 x2 x3 (ix2 p q) = Cert.Layer.msg xg ea w b (ix2 e q) := by
  rw [pay_apply, Cert.Layer.msg_apply, h0, h1, h2, h3]

/-- The second layer's message kernel stores the same function of its loads. -/
theorem pay2_eq (v0 : Vec Ideal S4000x128 .f32) (v2 : Vec Ideal S4000x1 .f32) (v3 v5 : Vec Ideal S1x128 .f32) :
    Gen.k2_pay1 (F := Ideal) v0 v2 v3 v5 = Gen.k0_pay1 (F := Ideal) v0 v2 v3 v5 := rfl

/-- The third layer's message kernel stores the same function of its loads. -/
theorem pay4_eq (v0 : Vec Ideal S4000x128 .f32) (v2 : Vec Ideal S4000x1 .f32) (v3 v5 : Vec Ideal S1x128 .f32) :
    Gen.k4_pay1 (F := Ideal) v0 v2 v3 v5 = Gen.k0_pay1 (F := Ideal) v0 v2 v3 v5 := rfl

end Cert.MsgBody

end
-- ==== Proof.Msg0.lean ====
/-
  Region 0 (the first layer's message kernel): from blocks to the array.

  The grid has 200 points; point t loads rows 4000 t … 4000 t + 3999 of the gathered rows and of the edge attributes
  and the two whole 1 × 128 rows, and writes back rows 4000 t … 4000 t + 3999 of the result. What it writes back is that
  block of the whole-array message of the four arrays as the region finds them; the 200 blocks tile the 800000 rows
  (row r lies in block r / 4000); so after the region the result array IS the whole-array message.
-/
import proofs.«105022_j75840532513189_1_alg».proof.Proof.Gen.KernelIdeal.Frame
import proofs.«105022_j75840532513189_1_alg».proof.Proof.MsgBody

set_option maxRecDepth 16384

noncomputable section

namespace Cert.Msg0

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block (t, 0), the two rows at block (0, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- What point t writes back is block t of the whole-array message of the region's four input arrays. -/
theorem flushed_eq (c : Dev nD) (t : Fin cfg0.N) :
    (dat0 V c).flushed 4 t = ((cfg0.win 4).blk t).view.read (Elt Ideal)
      (Cert.Layer.msg (V c main_v10) (V c main_arg1) (V c main_v15) (V c main_v16)) := by
  show (cfg0.win 4).cut (grid0.coords t) ((dat0 V c).after 4 t) = _
  rw [after0_4]
  unfold out0_4
  rw [View.canon_unit_zero hz]
  simp only [View.ld_unit_zero (S := S4000x128) hz, View.ld_unit_zero (S := S4000x1) hz, View.ld_unit_zero (S := S1x128) hz]
  obtain ⟨e00, e01, e10, e11, e20, e21, e30, e31, e40, e41⟩ := idx_facts t
  have ht : t.val < 200 := lt_of_lt_of_eq t.isLt N_0
  funext j
  obtain ⟨p, q, rfl⟩ : ∃ (p : Fin 4000) (q : Fin 128), j = ix2 p q := ⟨j 0, j 1, eq_ix2 j⟩
  have hp : p.val < 4000 := p.isLt
  have hq : q.val < 128 := q.isLt
  have hrow : 4000 * t.val + p.val < 800000 := by omega
  have he4 : ((cfg0.win 4).blk t).view.emb (ix2 p q) = ix2 (⟨4000 * t.val + p.val, hrow⟩ : Fin 800000) q := by
    funext a; apply Fin.ext
    match a with
    | ⟨0, _⟩ => show win0_4.index t (0 : Fin 2) * 4000 + 1 * p.val = 4000 * t.val + p.val; omega
    | ⟨1, _⟩ => show win0_4.index t (1 : Fin 2) * 128 + 1 * q.val = q.val; omega
  have he0 : ((cfg0.win 0).blk t).view.emb (ix2 p q) = ix2 (⟨4000 * t.val + p.val, hrow⟩ : Fin 800000) q := by
    funext a; apply Fin.ext
    match a with
    | ⟨0, _⟩ => show win0_0.index t (0 : Fin 2) * 4000 + 1 * p.val = 4000 * t.val + p.val; omega
    | ⟨1, _⟩ => show win0_0.index t (1 : Fin 2) * 128 + 1 * q.val = q.val; omega
  have he1 : ((cfg0.win 1).blk t).view.emb (ix2 p (0 : Fin 1)) = ix2 (⟨4000 * t.val + p.val, hrow⟩ : Fin 800000) (0 : Fin 1) := by
    funext a; apply Fin.ext
    match a with
    | ⟨0, _⟩ => show win0_1.index t (0 : Fin 2) * 4000 + 1 * p.val = 4000 * t.val + p.val; omega
    | ⟨1, _⟩ => show win0_1.index t (1 : Fin 2) * 1 + 1 * 0 = 0; omega
  have he2 : ((cfg0.win 2).blk t).view.emb (ix2 (0 : Fin 1) q) = ix2 (0 : Fin 1) q := by
    funext a; apply Fin.ext
    match a with
    | ⟨0, _⟩ => show win0_2.index t (0 : Fin 2) * 1 + 1 * 0 = 0; omega
    | ⟨1, _⟩ => show win0_2.index t (1 : Fin 2) * 128 + 1 * q.val = q.val; omega
  have he3 : ((cfg0.win 3).blk t).view.emb (ix2 (0 : Fin 1) q) = ix2 (0 : Fin 1) q := by
    funext a; apply Fin.ext
    match a with
    | ⟨0, _⟩ => show win0_3.index t (0 : Fin 2) * 1 + 1 * 0 = 0; omega
    | ⟨1, _⟩ => show win0_3.index t (1 : Fin 2) * 128 + 1 * q.val = q.val; omega
  show k0_pay1 (F := Ideal) (iblk0 V c 0 t) (iblk0 V c 1 t) (iblk0 V c 2 t) (iblk0 V c 3 t) (ix2 p q)
      = Cert.Layer.msg (V c main_v10) (V c main_arg1) (V c main_v15) (V c main_v16) (((cfg0.win 4).blk t).view.emb (ix2 p q))
  rw [he4]
  refine Cert.MsgBody.block_eq (V c main_v10) (V c main_arg1) (V c main_v15) (V c main_v16)
    (iblk0 V c 0 t) (iblk0 V c 1 t) (iblk0 V c 2 t) (iblk0 V c 3 t) ⟨4000 * t.val + p.val, hrow⟩ p q ?_ ?_ ?_ ?_
  · show V c main_v10 (((cfg0.win 0).blk t).view.emb (ix2 p q)) = _
    rw [he0]
  · show V c main_arg1 (((cfg0.win 1).blk t).view.emb (ix2 p (0 : Fin 1))) = _
    rw [he1]
  · show V c main_v15 (((cfg0.win 2).blk t).view.emb (ix2 (0 : Fin 1) q)) = _
    rw [he2]
  · show V c main_v16 (((cfg0.win 3).blk t).view.emb (ix2 (0 : Fin 1) q)) = _
    rw [he3]

/-- An entry of the result array is in point t's block iff each coordinate is in the block's range on its axis. -/
theorem mem_blk (t : Fin cfg0.N) (i : S800000x128.Idx) :
    i ∈ ((cfg0.win 4).blk t).view.set ↔ ∀ a : Fin 2, win0_4.index t a * S4000x128.size a ≤ (i a).val ∧ (i a).val < win0_4.index t a * S4000x128.size a + S4000x128.size a := by
  show i ∈ ((View.whole main_v17).slice (win0_4.rect t)).set ↔ _
  rw [View.set_slice_whole, Rect.mem_set_unit]
  exact Iff.rfl

/-- Every entry of the result array lies in some point's block: row r in block r / 4000. -/
theorem cover (i : S800000x128.Idx) :
    ∃ t : Fin cfg0.N, (cfg0.win 4).flush t = true ∧ i ∈ ((cfg0.win 4).blk t).view.set := by
  have hi0 : (i 0).val < 800000 := (i 0).isLt
  have hi1 : (i 1).val < 128 := (i 1).isLt
  have hN : (i 0).val / 4000 < cfg0.N := by rw [show cfg0.N = 200 from N_0]; omega
  obtain ⟨-, -, -, -, -, -, -, -, e40, e41⟩ := idx_facts ⟨(i 0).val / 4000, hN⟩
  refine ⟨⟨(i 0).val / 4000, hN⟩, flush0_4 _, ?_⟩
  rw [mem_blk]
  intro a
  match a with
  | ⟨0, _⟩ =>
    show win0_4.index ⟨(i 0).val / 4000, hN⟩ (0 : Fin 2) * 4000 ≤ (i 0).val ∧ (i 0).val < win0_4.index ⟨(i 0).val / 4000, hN⟩ (0 : Fin 2) * 4000 + 4000
    rw [e40]; show (i 0).val / 4000 * 4000 ≤ (i 0).val ∧ (i 0).val < (i 0).val / 4000 * 4000 + 4000; omega
  | ⟨1, _⟩ =>
    show win0_4.index ⟨(i 0).val / 4000, hN⟩ (1 : Fin 2) * 128 ≤ (i 1).val ∧ (i 1).val < win0_4.index ⟨(i 0).val / 4000, hN⟩ (1 : Fin 2) * 128 + 128
    rw [e41]; omega

/-- After the region the result array is the whole-array message of the region's input arrays. -/
theorem final (c : Dev nD) :
    (dat0 V c).arrAt 4 cfg0.N = Cert.Layer.msg (V c main_v10) (V c main_arg1) (V c main_v15) (V c main_v16) :=
  (dat0 V c).arrAt_eq_of_cover 4 _ (fun t _ => flushed_eq V c t) (cover)

end Cert.Msg0

end
-- ==== Proof.Msg2.lean ====
/-
  Region 2 (the second layer's message kernel): from blocks to the array.

  The grid has 200 points; point t loads rows 4000 t … 4000 t + 3999 of the gathered rows and of the edge attributes
  and the two whole 1 × 128 rows, and writes back rows 4000 t … 4000 t + 3999 of the result. What it writes back is that
  block of the whole-array message of the four arrays as the region finds them; the 200 blocks tile the 800000 rows
  (row r lies in block r / 4000); so after the region the result array IS the whole-array message.
-/
import proofs.«105022_j75840532513189_1_alg».proof.Proof.Gen.KernelIdeal.Frame
import proofs.«105022_j75840532513189_1_alg».proof.Proof.MsgBody

set_option maxRecDepth 16384

noncomputable section

namespace Cert.Msg2

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block (t, 0), the two rows at block (0, 0). -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- What point t writes back is block t of the whole-array message of the region's four input arrays. -/
theorem flushed_eq (c : Dev nD) (t : Fin cfg2.N) :
    (dat2 V c).flushed 4 t = ((cfg2.win 4).blk t).view.read (Elt Ideal)
      (Cert.Layer.msg (V c main_v38) (V c main_arg1) (V c main_v43) (V c main_v44)) := by
  show (cfg2.win 4).cut (grid2.coords t) ((dat2 V c).after 4 t) = _
  rw [after2_4]
  unfold out2_4
  rw [View.canon_unit_zero hz]
  simp only [View.ld_unit_zero (S := S4000x128) hz, View.ld_unit_zero (S := S4000x1) hz, View.ld_unit_zero (S := S1x128) hz]
  obtain ⟨e00, e01, e10, e11, e20, e21, e30, e31, e40, e41⟩ := idx_facts t
  have ht : t.val < 200 := lt_of_lt_of_eq t.isLt N_2
  funext j
  obtain ⟨p, q, rfl⟩ : ∃ (p : Fin 4000) (q : Fin 128), j = ix2 p q := ⟨j 0, j 1, eq_ix2 j⟩
  have hp : p.val < 4000 := p.isLt
  have hq : q.val < 128 := q.isLt
  have hrow : 4000 * t.val + p.val < 800000 := by omega
  have he4 : ((cfg2.win 4).blk t).view.emb (ix2 p q) = ix2 (⟨4000 * t.val + p.val, hrow⟩ : Fin 800000) q := by
    funext a; apply Fin.ext
    match a with
    | ⟨0, _⟩ => show win2_4.index t (0 : Fin 2) * 4000 + 1 * p.val = 4000 * t.val + p.val; omega
    | ⟨1, _⟩ => show win2_4.index t (1 : Fin 2) * 128 + 1 * q.val = q.val; omega
  have he0 : ((cfg2.win 0).blk t).view.emb (ix2 p q) = ix2 (⟨4000 * t.val + p.val, hrow⟩ : Fin 800000) q := by
    funext a; apply Fin.ext
    match a with
    | ⟨0, _⟩ => show win2_0.index t (0 : Fin 2) * 4000 + 1 * p.val = 4000 * t.val + p.val; omega
    | ⟨1, _⟩ => show win2_0.index t (1 : Fin 2) * 128 + 1 * q.val = q.val; omega
  have he1 : ((cfg2.win 1).blk t).view.emb (ix2 p (0 : Fin 1)) = ix2 (⟨4000 * t.val + p.val, hrow⟩ : Fin 800000) (0 : Fin 1) := by
    funext a; apply Fin.ext
    match a with
    | ⟨0, _⟩ => show win2_1.index t (0 : Fin 2) * 4000 + 1 * p.val = 4000 * t.val + p.val; omega
    | ⟨1, _⟩ => show win2_1.index t (1 : Fin 2) * 1 + 1 * 0 = 0; omega
  have he2 : ((cfg2.win 2).blk t).view.emb (ix2 (0 : Fin 1) q) = ix2 (0 : Fin 1) q := by
    funext a; apply Fin.ext
    match a with
    | ⟨0, _⟩ => show win2_2.index t (0 : Fin 2) * 1 + 1 * 0 = 0; omega
    | ⟨1, _⟩ => show win2_2.index t (1 : Fin 2) * 128 + 1 * q.val = q.val; omega
  have he3 : ((cfg2.win 3).blk t).view.emb (ix2 (0 : Fin 1) q) = ix2 (0 : Fin 1) q := by
    funext a; apply Fin.ext
    match a with
    | ⟨0, _⟩ => show win2_3.index t (0 : Fin 2) * 1 + 1 * 0 = 0; omega
    | ⟨1, _⟩ => show win2_3.index t (1 : Fin 2) * 128 + 1 * q.val = q.val; omega
  show k2_pay1 (F := Ideal) (iblk2 V c 0 t) (iblk2 V c 1 t) (iblk2 V c 2 t) (iblk2 V c 3 t) (ix2 p q)
      = Cert.Layer.msg (V c main_v38) (V c main_arg1) (V c main_v43) (V c main_v44) (((cfg2.win 4).blk t).view.emb (ix2 p q))
  rw [he4, Cert.MsgBody.pay2_eq]
  refine Cert.MsgBody.block_eq (V c main_v38) (V c main_arg1) (V c main_v43) (V c main_v44)
    (iblk2 V c 0 t) (iblk2 V c 1 t) (iblk2 V c 2 t) (iblk2 V c 3 t) ⟨4000 * t.val + p.val, hrow⟩ p q ?_ ?_ ?_ ?_
  · show V c main_v38 (((cfg2.win 0).blk t).view.emb (ix2 p q)) = _
    rw [he0]
  · show V c main_arg1 (((cfg2.win 1).blk t).view.emb (ix2 p (0 : Fin 1))) = _
    rw [he1]
  · show V c main_v43 (((cfg2.win 2).blk t).view.emb (ix2 (0 : Fin 1) q)) = _
    rw [he2]
  · show V c main_v44 (((cfg2.win 3).blk t).view.emb (ix2 (0 : Fin 1) q)) = _
    rw [he3]

/-- An entry of the result array is in point t's block iff each coordinate is in the block's range on its axis. -/
theorem mem_blk (t : Fin cfg2.N) (i : S800000x128.Idx) :
    i ∈ ((cfg2.win 4).blk t).view.set ↔ ∀ a : Fin 2, win2_4.index t a * S4000x128.size a ≤ (i a).val ∧ (i a).val < win2_4.index t a * S4000x128.size a + S4000x128.size a := by
  show i ∈ ((View.whole main_v45).slice (win2_4.rect t)).set ↔ _
  rw [View.set_slice_whole, Rect.mem_set_unit]
  exact Iff.rfl

/-- Every entry of the result array lies in some point's block: row r in block r / 4000. -/
theorem cover (i : S800000x128.Idx) :
    ∃ t : Fin cfg2.N, (cfg2.win 4).flush t = true ∧ i ∈ ((cfg2.win 4).blk t).view.set := by
  have hi0 : (i 0).val < 800000 := (i 0).isLt
  have hi1 : (i 1).val < 128 := (i 1).isLt
  have hN : (i 0).val / 4000 < cfg2.N := by rw [show cfg2.N = 200 from N_2]; omega
  obtain ⟨-, -, -, -, -, -, -, -, e40, e41⟩ := idx_facts ⟨(i 0).val / 4000, hN⟩
  refine ⟨⟨(i 0).val / 4000, hN⟩, flush2_4 _, ?_⟩
  rw [mem_blk]
  intro a
  match a with
  | ⟨0, _⟩ =>
    show win2_4.index ⟨(i 0).val / 4000, hN⟩ (0 : Fin 2) * 4000 ≤ (i 0).val ∧ (i 0).val < win2_4.index ⟨(i 0).val / 4000, hN⟩ (0 : Fin 2) * 4000 + 4000
    rw [e40]; show (i 0).val / 4000 * 4000 ≤ (i 0).val ∧ (i 0).val < (i 0).val / 4000 * 4000 + 4000; omega
  | ⟨1, _⟩ =>
    show win2_4.index ⟨(i 0).val / 4000, hN⟩ (1 : Fin 2) * 128 ≤ (i 1).val ∧ (i 1).val < win2_4.index ⟨(i 0).val / 4000, hN⟩ (1 : Fin 2) * 128 + 128
    rw [e41]; omega

/-- After the region the result array is the whole-array message of the region's input arrays. -/
theorem final (c : Dev nD) :
    (dat2 V c).arrAt 4 cfg2.N = Cert.Layer.msg (V c main_v38) (V c main_arg1) (V c main_v43) (V c main_v44) :=
  (dat2 V c).arrAt_eq_of_cover 4 _ (fun t _ => flushed_eq V c t) (cover)

end Cert.Msg2

end
-- ==== Proof.Msg4.lean ====
/-
  Region 4 (the third layer's message kernel): from blocks to the array.

  The grid has 200 points; point t loads rows 4000 t … 4000 t + 3999 of the gathered rows and of the edge attributes
  and the two whole 1 × 128 rows, and writes back rows 4000 t … 4000 t + 3999 of the result. What it writes back is that
  block of the whole-array message of the four arrays as the region finds them; the 200 blocks tile the 800000 rows
  (row r lies in block r / 4000); so after the region the result array IS the whole-array message.
-/
import proofs.«105022_j75840532513189_1_alg».proof.Proof.Gen.KernelIdeal.Frame
import proofs.«105022_j75840532513189_1_alg».proof.Proof.MsgBody

set_option maxRecDepth 16384

noncomputable section

namespace Cert.Msg4

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block (t, 0), the two rows at block (0, 0). -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

/-- What point t writes back is block t of the whole-array message of the region's four input arrays. -/
theorem flushed_eq (c : Dev nD) (t : Fin cfg4.N) :
    (dat4 V c).flushed 4 t = ((cfg4.win 4).blk t).view.read (Elt Ideal)
      (Cert.Layer.msg (V c main_v66) (V c main_arg1) (V c main_v71) (V c main_v72)) := by
  show (cfg4.win 4).cut (grid4.coords t) ((dat4 V c).after 4 t) = _
  rw [after4_4]
  unfold out4_4
  rw [View.canon_unit_zero hz]
  simp only [View.ld_unit_zero (S := S4000x128) hz, View.ld_unit_zero (S := S4000x1) hz, View.ld_unit_zero (S := S1x128) hz]
  obtain ⟨e00, e01, e10, e11, e20, e21, e30, e31, e40, e41⟩ := idx_facts t
  have ht : t.val < 200 := lt_of_lt_of_eq t.isLt N_4
  funext j
  obtain ⟨p, q, rfl⟩ : ∃ (p : Fin 4000) (q : Fin 128), j = ix2 p q := ⟨j 0, j 1, eq_ix2 j⟩
  have hp : p.val < 4000 := p.isLt
  have hq : q.val < 128 := q.isLt
  have hrow : 4000 * t.val + p.val < 800000 := by omega
  have he4 : ((cfg4.win 4).blk t).view.emb (ix2 p q) = ix2 (⟨4000 * t.val + p.val, hrow⟩ : Fin 800000) q := by
    funext a; apply Fin.ext
    match a with
    | ⟨0, _⟩ => show win4_4.index t (0 : Fin 2) * 4000 + 1 * p.val = 4000 * t.val + p.val; omega
    | ⟨1, _⟩ => show win4_4.index t (1 : Fin 2) * 128 + 1 * q.val = q.val; omega
  have he0 : ((cfg4.win 0).blk t).view.emb (ix2 p q) = ix2 (⟨4000 * t.val + p.val, hrow⟩ : Fin 800000) q := by
    funext a; apply Fin.ext
    match a with
    | ⟨0, _⟩ => show win4_0.index t (0 : Fin 2) * 4000 + 1 * p.val = 4000 * t.val + p.val; omega
    | ⟨1, _⟩ => show win4_0.index t (1 : Fin 2) * 128 + 1 * q.val = q.val; omega
  have he1 : ((cfg4.win 1).blk t).view.emb (ix2 p (0 : Fin 1)) = ix2 (⟨4000 * t.val + p.val, hrow⟩ : Fin 800000) (0 : Fin 1) := by
    funext a; apply Fin.ext
    match a with
    | ⟨0, _⟩ => show win4_1.index t (0 : Fin 2) * 4000 + 1 * p.val = 4000 * t.val + p.val; omega
    | ⟨1, _⟩ => show win4_1.index t (1 : Fin 2) * 1 + 1 * 0 = 0; omega
  have he2 : ((cfg4.win 2).blk t).view.emb (ix2 (0 : Fin 1) q) = ix2 (0 : Fin 1) q := by
    funext a; apply Fin.ext
    match a with
    | ⟨0, _⟩ => show win4_2.index t (0 : Fin 2) * 1 + 1 * 0 = 0; omega
    | ⟨1, _⟩ => show win4_2.index t (1 : Fin 2) * 128 + 1 * q.val = q.val; omega
  have he3 : ((cfg4.win 3).blk t).view.emb (ix2 (0 : Fin 1) q) = ix2 (0 : Fin 1) q := by
    funext a; apply Fin.ext
    match a with
    | ⟨0, _⟩ => show win4_3.index t (0 : Fin 2) * 1 + 1 * 0 = 0; omega
    | ⟨1, _⟩ => show win4_3.index t (1 : Fin 2) * 128 + 1 * q.val = q.val; omega
  show k4_pay1 (F := Ideal) (iblk4 V c 0 t) (iblk4 V c 1 t) (iblk4 V c 2 t) (iblk4 V c 3 t) (ix2 p q)
      = Cert.Layer.msg (V c main_v66) (V c main_arg1) (V c main_v71) (V c main_v72) (((cfg4.win 4).blk t).view.emb (ix2 p q))
  rw [he4, Cert.MsgBody.pay4_eq]
  refine Cert.MsgBody.block_eq (V c main_v66) (V c main_arg1) (V c main_v71) (V c main_v72)
    (iblk4 V c 0 t) (iblk4 V c 1 t) (iblk4 V c 2 t) (iblk4 V c 3 t) ⟨4000 * t.val + p.val, hrow⟩ p q ?_ ?_ ?_ ?_
  · show V c main_v66 (((cfg4.win 0).blk t).view.emb (ix2 p q)) = _
    rw [he0]
  · show V c main_arg1 (((cfg4.win 1).blk t).view.emb (ix2 p (0 : Fin 1))) = _
    rw [he1]
  · show V c main_v71 (((cfg4.win 2).blk t).view.emb (ix2 (0 : Fin 1) q)) = _
    rw [he2]
  · show V c main_v72 (((cfg4.win 3).blk t).view.emb (ix2 (0 : Fin 1) q)) = _
    rw [he3]

/-- An entry of the result array is in point t's block iff each coordinate is in the block's range on its axis. -/
theorem mem_blk (t : Fin cfg4.N) (i : S800000x128.Idx) :
    i ∈ ((cfg4.win 4).blk t).view.set ↔ ∀ a : Fin 2, win4_4.index t a * S4000x128.size a ≤ (i a).val ∧ (i a).val < win4_4.index t a * S4000x128.size a + S4000x128.size a := by
  show i ∈ ((View.whole main_v73).slice (win4_4.rect t)).set ↔ _
  rw [View.set_slice_whole, Rect.mem_set_unit]
  exact Iff.rfl

/-- Every entry of the result array lies in some point's block: row r in block r / 4000. -/
theorem cover (i : S800000x128.Idx) :
    ∃ t : Fin cfg4.N, (cfg4.win 4).flush t = true ∧ i ∈ ((cfg4.win 4).blk t).view.set := by
  have hi0 : (i 0).val < 800000 := (i 0).isLt
  have hi1 : (i 1).val < 128 := (i 1).isLt
  have hN : (i 0).val / 4000 < cfg4.N := by rw [show cfg4.N = 200 from N_4]; omega
  obtain ⟨-, -, -, -, -, -, -, -, e40, e41⟩ := idx_facts ⟨(i 0).val / 4000, hN⟩
  refine ⟨⟨(i 0).val / 4000, hN⟩, flush4_4 _, ?_⟩
  rw [mem_blk]
  intro a
  match a with
  | ⟨0, _⟩ =>
    show win4_4.index ⟨(i 0).val / 4000, hN⟩ (0 : Fin 2) * 4000 ≤ (i 0).val ∧ (i 0).val < win4_4.index ⟨(i 0).val / 4000, hN⟩ (0 : Fin 2) * 4000 + 4000
    rw [e40]; show (i 0).val / 4000 * 4000 ≤ (i 0).val ∧ (i 0).val < (i 0).val / 4000 * 4000 + 4000; omega
  | ⟨1, _⟩ =>
    show win4_4.index ⟨(i 0).val / 4000, hN⟩ (1 : Fin 2) * 128 ≤ (i 1).val ∧ (i 1).val < win4_4.index ⟨(i 0).val / 4000, hN⟩ (1 : Fin 2) * 128 + 128
    rw [e41]; omega

/-- After the region the result array is the whole-array message of the region's input arrays. -/
theorem final (c : Dev nD) :
    (dat4 V c).arrAt 4 cfg4.N = Cert.Layer.msg (V c main_v66) (V c main_arg1) (V c main_v71) (V c main_v72) :=
  (dat4 V c).arrAt_eq_of_cover 4 _ (fun t _ => flushed_eq V c t) (cover)

end Cert.Msg4

end
-- ==== Proof.NodeBody.lean ====
/-
  The node kernel's stored value, read at an entry, and one block of it against the whole-array node update.

  The body loads a 5000 × 128 block of the node features and of the aggregated messages, and the two whole weight
  matrices and bias rows, and stores relu(relu((x + a) · W₁ + b₁) · W₂ + b₂), each product accumulated from zero and
  its operands narrowed on the way in (which changes nothing at the exact values). Entry (p, q) of what it stores is a
  sum over the 128 hidden positions k of the hidden entry (p, k) times W₂(k, q), plus b₂(q), cut at zero; the hidden
  entry (p, k) is a sum over k' of (x(p, k') + a(p, k')) · W₁(k', k), plus b₁(k), cut at zero. It uses row p of the
  two blocks only: when that row is row e of whole arrays, the entry is entry (e, q) of the whole-array node update.
-/
import proofs.«105022_j75840532513189_1_alg».proof.Proof.Gen.KernelIdeal.Skeleton
import proofs.«105022_j75840532513189_1_alg».proof.Proof.Layer

noncomputable section

namespace Cert.NodeBody

open Idealize.ShloMosaic Idealize.ShloMosaic.ValueIdx Cert.KernelIdeal

/-- A 5000 × 128 by 128 × 128 block product accumulated from zero, at (p, q): the sum over the 128 positions. -/
theorem mm_apply (A : FVec Ideal S5000x128 .bf16) (B : FVec Ideal S128x128 .bf16) (p : Fin 5000) (q : Fin 128) :
    matmul dot_S5000x128_S128x128_S5000x128_1_0_0_1_n_n none A B (constant S5000x128 .f32 0x00000000#32) (ix2 p q)
      = ∑ k : Fin 128, A (ix2 p k) * B (ix2 k q) :=
  Cert.LibPlainDot.matmul_zero_plain 5000 128 128 none A B (ix2 p q)

/-- The hidden entry (p, k) of a block: relu(Σ_k' (x + a)(p, k') · W₁(k', k) + b₁(k)). -/
def hidB (v0 v1 : Vec Ideal S5000x128 .f32) (v5 : Vec Ideal S128x128 .f32) (v9 : Vec Ideal S1x128 .f32)
    (p : Fin 5000) (k : Fin 128) : EReal :=
  max ((∑ k' : Fin 128, (v0 (ix2 p k') + v1 (ix2 p k')) * v5 (ix2 k' k)) + v9 (ix2 (0 : Fin 1) k)) Cert.Layer.z

/-- The closed form of a stored entry. -/
def outB (v0 v1 : Vec Ideal S5000x128 .f32) (v5 : Vec Ideal S128x128 .f32) (v9 : Vec Ideal S1x128 .f32)
    (v16 : Vec Ideal S128x128 .f32) (v20 : Vec Ideal S1x128 .f32) (p : Fin 5000) (q : Fin 128) : EReal :=
  max ((∑ k : Fin 128, hidB v0 v1 v5 v9 p k * v16 (ix2 k q)) + v20 (ix2 (0 : Fin 1) q)) Cert.Layer.z

/-- The first layer's node kernel: the stored value at (p, q). -/
theorem pay1_apply (v0 v1 : Vec Ideal S5000x128 .f32) (v5 : Vec Ideal S128x128 .f32) (v9 : Vec Ideal S1x128 .f32)
    (v16 : Vec Ideal S128x128 .f32) (v20 : Vec Ideal S1x128 .f32) (p : Fin 5000) (q : Fin 128) :
    Gen.k1_pay1 (F := Ideal) v0 v1 v5 v9 v16 v20 (ix2 p q) = outB v0 v1 v5 v9 v16 v20 p q := by
  unfold outB
  unfold Gen.k1_pay1
  rw [maximumf_apply, addf_apply, broadcast_apply]
  simp only [shapeCast_self]
  rw [broadcastTo_1b_ab_apply _ _ p q, mm_apply]
  refine congrArg₂ max (congrArg₂ (· + ·) (Finset.sum_congr rfl fun k _ => ?_) rfl) rfl
  rw [truncf_apply, truncf_apply]
  refine congrArg₂ (· * ·) ?_ rfl
  rw [maximumf_apply, addf_apply, broadcast_apply, broadcastTo_1b_ab_apply _ _ p k, mm_apply]
  unfold hidB
  refine congrArg₂ max (congrArg₂ (· + ·) (Finset.sum_congr rfl fun k' _ => ?_) rfl) rfl
  rw [truncf_apply, truncf_apply, addf_apply]

/-- The second layer's node kernel: the stored value at (p, q). -/
theorem pay3_apply (v0 v1 : Vec Ideal S5000x128 .f32) (v5 : Vec Ideal S128x128 .f32) (v9 : Vec Ideal S1x128 .f32)
    (v16 : Vec Ideal S128x128 .f32) (v20 : Vec Ideal S1x128 .f32) (p : Fin 5000) (q : Fin 128) :
    Gen.k3_pay1 (F := Ideal) v0 v1 v5 v9 v16 v20 (ix2 p q) = outB v0 v1 v5 v9 v16 v20 p q := by
  unfold outB
  unfold Gen.k3_pay1
  rw [maximumf_apply, addf_apply, broadcast_apply]
  simp only [shapeCast_self]
  rw [broadcastTo_1b_ab_apply _ _ p q, mm_apply]
  refine congrArg₂ max (congrArg₂ (· + ·) (Finset.sum_congr rfl fun k _ => ?_) rfl) rfl
  rw [truncf_apply, truncf_apply]
  refine congrArg₂ (· * ·) ?_ rfl
  rw [maximumf_apply, addf_apply, broadcast_apply, broadcastTo_1b_ab_apply _ _ p k, mm_apply]
  unfold hidB
  refine congrArg₂ max (congrArg₂ (· + ·) (Finset.sum_congr rfl fun k' _ => ?_) rfl) rfl
  rw [truncf_apply, truncf_apply, addf_apply]

/-- The third layer's node kernel: the stored value at (p, q). -/
theorem pay5_apply (v0 v1 : Vec Ideal S5000x128 .f32) (v5 : Vec Ideal S128x128 .f32) (v9 : Vec Ideal S1x128 .f32)
    (v16 : Vec Ideal S128x128 .f32) (v20 : Vec Ideal S1x128 .f32) (p : Fin 5000) (q : Fin 128) :
    Gen.k5_pay1 (F := Ideal) v0 v1 v5 v9 v16 v20 (ix2 p q) = outB v0 v1 v5 v9 v16 v20 p q := by
  unfold outB
  unfold Gen.k5_pay1
  rw [maximumf_apply, addf_apply, broadcast_apply]
  simp only [shapeCast_self]
  rw [broadcastTo_1b_ab_apply _ _ p q, mm_apply]
  refine congrArg₂ max (congrArg₂ (· + ·) (Finset.sum_congr rfl fun k _ => ?_) rfl) rfl
  rw [truncf_apply, truncf_apply]
  refine congrArg₂ (· * ·) ?_ rfl
  rw [maximumf_apply, addf_apply, broadcast_apply, broadcastTo_1b_ab_apply _ _ p k, mm_apply]
  unfold hidB
  refine congrArg₂ max (congrArg₂ (· + ·) (Finset.sum_congr rfl fun k' _ => ?_) rfl) rfl
  rw [truncf_apply, truncf_apply, addf_apply]

/-- One stored entry against the whole-array node update: the closed form at (p, q) is entry (e, q) of `node` when
    row p of the two loaded blocks is row e of the whole arrays and the weights and biases are the whole ones. -/
theorem core_eq (x a : FVec Ideal Cert.ReferenceIdeal.S50000x128 .f32) (W₁ : FVec Ideal Cert.ReferenceIdeal.S128x128 .f32)
    (b₁ : FVec Ideal Cert.ReferenceIdeal.S1x128 .f32) (W₂ : FVec Ideal Cert.ReferenceIdeal.S128x128 .f32)
    (b₂ : FVec Ideal Cert.ReferenceIdeal.S1x128 .f32)
    (x0 x1 : Vec Ideal S5000x128 .f32) (x2 : Vec Ideal S128x128 .f32) (x3 : Vec Ideal S1x128 .f32)
    (x4 : Vec Ideal S128x128 .f32) (x5 : Vec Ideal S1x128 .f32)
    (e : Fin 50000) (p : Fin 5000) (q : Fin 128)
    (h0 : ∀ k : Fin 128, x0 (ix2 p k) = x (ix2 e k)) (h1 : ∀ k : Fin 128, x1 (ix2 p k) = a (ix2 e k))
    (h2 : ∀ k k' : Fin 128, x2 (ix2 k k') = W₁ (ix2 k k')) (h3 : ∀ k : Fin 128, x3 (ix2 (0 : Fin 1) k) = b₁ (ix2 (0 : Fin 1) k))
    (h4 : ∀ k k' : Fin 128, x4 (ix2 k k') = W₂ (ix2 k k')) (h5 : ∀ k : Fin 128, x5 (ix2 (0 : Fin 1) k) = b₂ (ix2 (0 : Fin 1) k)) :
    outB x0 x1 x2 x3 x4 x5 p q = Cert.Layer.node x a W₁ b₁ W₂ b₂ (ix2 e q) := by
  unfold outB Cert.Layer.node
  rw [Cert.Layer.out_apply, h5]
  refine congrArg₂ max (congrArg₂ (· + ·) (Finset.sum_congr rfl fun k _ => ?_) rfl) rfl
  rw [h4, Cert.Layer.hid_apply]
  unfold hidB
  rw [h3]
  refine congrArg₂ (· * ·) (congrArg₂ max (congrArg₂ (· + ·) (Finset.sum_congr rfl fun k' _ => ?_) rfl) rfl) rfl
  rw [h0, h1, h2]

end Cert.NodeBody

end
-- ==== Proof.Node1.lean ====
/-
  Region 1 (the first layer's node kernel): from blocks to the array.

  The grid has 10 points; point t loads rows 5000 t … 5000 t + 4999 of the node features and of the aggregated
  messages, and the whole weight matrices and bias rows, and writes back rows 5000 t … 5000 t + 4999 of the result.
  What it writes back is that block of the whole-array node update of the six arrays as the region finds them (an
  entry of the update uses one row of the features and of the aggregate, and that row is in the block); the 10 blocks
  tile the 50000 rows (row r lies in block r / 5000); so after the region the result array IS the node update.
-/
import proofs.«105022_j75840532513189_1_alg».proof.Proof.Gen.KernelIdeal.Frame
import proofs.«105022_j75840532513189_1_alg».proof.Proof.NodeBody

set_option maxRecDepth 16384

noncomputable section

namespace Cert.Node1

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block (t, 0), the whole-array windows at (0, 0). -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- What point t writes back is block t of the whole-array node update of the region's six input arrays. -/
theorem flushed_eq (c : Dev nD) (t : Fin cfg1.N) :
    (dat1 V c).flushed 6 t = ((cfg1.win 6).blk t).view.read (Elt Ideal)
      (Cert.Layer.node (V c main_arg0) (V c main_v20) (V c main_v22) (V c main_v29) (V c main_v26) (V c main_v30)) := by
  show (cfg1.win 6).cut (grid1.coords t) ((dat1 V c).after 6 t) = _
  rw [after1_6]
  unfold out1_6
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51, e60, e61⟩ := idx_facts t
  have ht : t.val < 10 := lt_of_lt_of_eq t.isLt N_1
  funext j
  obtain ⟨p, q, rfl⟩ : ∃ (p : Fin 5000) (q : Fin 128), j = ix2 p q := ⟨j 0, j 1, eq_ix2 j⟩
  have hp : p.val < 5000 := p.isLt
  have hq : q.val < 128 := q.isLt
  have hrow : 5000 * t.val + p.val < 50000 := by omega
  have he6 : ((cfg1.win 6).blk t).view.emb (ix2 p q) = ix2 (⟨5000 * t.val + p.val, hrow⟩ : Fin 50000) q := by
    funext a; apply Fin.ext
    match a with
    | ⟨0, _⟩ => show win1_6.index t (0 : Fin 2) * 5000 + 1 * p.val = 5000 * t.val + p.val; omega
    | ⟨1, _⟩ => show win1_6.index t (1 : Fin 2) * 128 + 1 * q.val = q.val; omega
  have he0 : ∀ k : Fin 128, ((cfg1.win 0).blk t).view.emb (ix2 p k) = ix2 (⟨5000 * t.val + p.val, hrow⟩ : Fin 50000) k := by
    intro k; funext a; apply Fin.ext
    match a with
    | ⟨0, _⟩ => show win1_0.index t (0 : Fin 2) * 5000 + 1 * p.val = 5000 * t.val + p.val; omega
    | ⟨1, _⟩ => show win1_0.index t (1 : Fin 2) * 128 + 1 * k.val = k.val; omega
  have he1 : ∀ k : Fin 128, ((cfg1.win 1).blk t).view.emb (ix2 p k) = ix2 (⟨5000 * t.val + p.val, hrow⟩ : Fin 50000) k := by
    intro k; funext a; apply Fin.ext
    match a with
    | ⟨0, _⟩ => show win1_1.index t (0 : Fin 2) * 5000 + 1 * p.val = 5000 * t.val + p.val; omega
    | ⟨1, _⟩ => show win1_1.index t (1 : Fin 2) * 128 + 1 * k.val = k.val; omega
  have he2 : ∀ k k' : Fin 128, ((cfg1.win 2).blk t).view.emb (ix2 k k') = ix2 k k' := by
    intro k k'; funext a; apply Fin.ext
    match a with
    | ⟨0, _⟩ => show win1_2.index t (0 : Fin 2) * 128 + 1 * k.val = k.val; omega
    | ⟨1, _⟩ => show win1_2.index t (1 : Fin 2) * 128 + 1 * k'.val = k'.val; omega
  have he3 : ∀ k : Fin 128, ((cfg1.win 3).blk t).view.emb (ix2 (0 : Fin 1) k) = ix2 (0 : Fin 1) k := by
    intro k; funext a; apply Fin.ext
    match a with
    | ⟨0, _⟩ => show win1_3.index t (0 : Fin 2) * 1 + 1 * 0 = 0; omega
    | ⟨1, _⟩ => show win1_3.index t (1 : Fin 2) * 128 + 1 * k.val = k.val; omega
  have he4 : ∀ k k' : Fin 128, ((cfg1.win 4).blk t).view.emb (ix2 k k') = ix2 k k' := by
    intro k k'; funext a; apply Fin.ext
    match a with
    | ⟨0, _⟩ => show win1_4.index t (0 : Fin 2) * 128 + 1 * k.val = k.val; omega
    | ⟨1, _⟩ => show win1_4.index t (1 : Fin 2) * 128 + 1 * k'.val = k'.val; omega
  have he5 : ∀ k : Fin 128, ((cfg1.win 5).blk t).view.emb (ix2 (0 : Fin 1) k) = ix2 (0 : Fin 1) k := by
    intro k; funext a; apply Fin.ext
    match a with
    | ⟨0, _⟩ => show win1_5.index t (0 : Fin 2) * 1 + 1 * 0 = 0; omega
    | ⟨1, _⟩ => show win1_5.index t (1 : Fin 2) * 128 + 1 * k.val = k.val; omega
  show k1_pay1 (F := Ideal) (iblk1 V c 0 t) (iblk1 V c 1 t) (iblk1 V c 2 t) (iblk1 V c 3 t) (iblk1 V c 4 t) (iblk1 V c 5 t) (ix2 p q)
      = Cert.Layer.node (V c main_arg0) (V c main_v20) (V c main_v22) (V c main_v29) (V c main_v26) (V c main_v30) (((cfg1.win 6).blk t).view.emb (ix2 p q))
  rw [he6]
  refine (Cert.NodeBody.pay1_apply (iblk1 V c 0 t) (iblk1 V c 1 t) (iblk1 V c 2 t) (iblk1 V c 3 t) (iblk1 V c 4 t) (iblk1 V c 5 t) p q).trans
    (Cert.NodeBody.core_eq (V c main_arg0) (V c main_v20) (V c main_v22) (V c main_v29) (V c main_v26) (V c main_v30)
      (iblk1 V c 0 t) (iblk1 V c 1 t) (iblk1 V c 2 t) (iblk1 V c 3 t) (iblk1 V c 4 t) (iblk1 V c 5 t)
      ⟨5000 * t.val + p.val, hrow⟩ p q ?_ ?_ ?_ ?_ ?_ ?_)
  · intro k
    show V c main_arg0 (((cfg1.win 0).blk t).view.emb (ix2 p k)) = _
    rw [he0 k]
  · intro k
    show V c main_v20 (((cfg1.win 1).blk t).view.emb (ix2 p k)) = _
    rw [he1 k]
  · intro k k'
    show V c main_v22 (((cfg1.win 2).blk t).view.emb (ix2 k k')) = _
    rw [he2 k k']
  · intro k
    show V c main_v29 (((cfg1.win 3).blk t).view.emb (ix2 (0 : Fin 1) k)) = _
    rw [he3 k]
  · intro k k'
    show V c main_v26 (((cfg1.win 4).blk t).view.emb (ix2 k k')) = _
    rw [he4 k k']
  · intro k
    show V c main_v30 (((cfg1.win 5).blk t).view.emb (ix2 (0 : Fin 1) k)) = _
    rw [he5 k]

/-- An entry of the result array is in point t's block iff each coordinate is in the block's range on its axis. -/
theorem mem_blk (t : Fin cfg1.N) (i : S50000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v31).slice (win1_6.rect t)).set ↔ _
  rw [View.set_slice_whole, Rect.mem_set_unit]
  exact Iff.rfl

/-- Every entry of the result array lies in some point's block: row r in block r / 5000. -/
theorem cover (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  have hN : (i 0).val / 5000 < cfg1.N := by rw [show cfg1.N = 10 from N_1]; omega
  obtain ⟨-, -, -, -, -, -, -, -, -, -, -, -, e60, e61⟩ := idx_facts ⟨(i 0).val / 5000, hN⟩
  refine ⟨⟨(i 0).val / 5000, hN⟩, flush1_6 _, ?_⟩
  rw [mem_blk]
  intro a
  match a with
  | ⟨0, _⟩ =>
    show win1_6.index ⟨(i 0).val / 5000, hN⟩ (0 : Fin 2) * 5000 ≤ (i 0).val ∧ (i 0).val < win1_6.index ⟨(i 0).val / 5000, hN⟩ (0 : Fin 2) * 5000 + 5000
    rw [e60]; show (i 0).val / 5000 * 5000 ≤ (i 0).val ∧ (i 0).val < (i 0).val / 5000 * 5000 + 5000; omega
  | ⟨1, _⟩ =>
    show win1_6.index ⟨(i 0).val / 5000, hN⟩ (1 : Fin 2) * 128 ≤ (i 1).val ∧ (i 1).val < win1_6.index ⟨(i 0).val / 5000, hN⟩ (1 : Fin 2) * 128 + 128
    rw [e61]; omega

/-- After the region the result array is the whole-array node update of the region's input arrays. -/
theorem final (c : Dev nD) :
    (dat1 V c).arrAt 6 cfg1.N = Cert.Layer.node (V c main_arg0) (V c main_v20) (V c main_v22) (V c main_v29) (V c main_v26) (V c main_v30) :=
  (dat1 V c).arrAt_eq_of_cover 6 _ (fun t _ => flushed_eq V c t) (cover)

end Cert.Node1

end
-- ==== Proof.Node3.lean ====
/-
  Region 3 (the second layer's node kernel): from blocks to the array.

  The grid has 10 points; point t loads rows 5000 t … 5000 t + 4999 of the node features and of the aggregated
  messages, and the whole weight matrices and bias rows, and writes back rows 5000 t … 5000 t + 4999 of the result.
  What it writes back is that block of the whole-array node update of the six arrays as the region finds them (an
  entry of the update uses one row of the features and of the aggregate, and that row is in the block); the 10 blocks
  tile the 50000 rows (row r lies in block r / 5000); so after the region the result array IS the node update.
-/
import proofs.«105022_j75840532513189_1_alg».proof.Proof.Gen.KernelIdeal.Frame
import proofs.«105022_j75840532513189_1_alg».proof.Proof.NodeBody

set_option maxRecDepth 16384

noncomputable section

namespace Cert.Node3

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block (t, 0), the whole-array windows at (0, 0). -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- What point t writes back is block t of the whole-array node update of the region's six input arrays. -/
theorem flushed_eq (c : Dev nD) (t : Fin cfg3.N) :
    (dat3 V c).flushed 6 t = ((cfg3.win 6).blk t).view.read (Elt Ideal)
      (Cert.Layer.node (V c main_v31) (V c main_v48) (V c main_v50) (V c main_v57) (V c main_v54) (V c main_v58)) := by
  show (cfg3.win 6).cut (grid3.coords t) ((dat3 V c).after 6 t) = _
  rw [after3_6]
  unfold out3_6
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51, e60, e61⟩ := idx_facts t
  have ht : t.val < 10 := lt_of_lt_of_eq t.isLt N_3
  funext j
  obtain ⟨p, q, rfl⟩ : ∃ (p : Fin 5000) (q : Fin 128), j = ix2 p q := ⟨j 0, j 1, eq_ix2 j⟩
  have hp : p.val < 5000 := p.isLt
  have hq : q.val < 128 := q.isLt
  have hrow : 5000 * t.val + p.val < 50000 := by omega
  have he6 : ((cfg3.win 6).blk t).view.emb (ix2 p q) = ix2 (⟨5000 * t.val + p.val, hrow⟩ : Fin 50000) q := by
    funext a; apply Fin.ext
    match a with
    | ⟨0, _⟩ => show win3_6.index t (0 : Fin 2) * 5000 + 1 * p.val = 5000 * t.val + p.val; omega
    | ⟨1, _⟩ => show win3_6.index t (1 : Fin 2) * 128 + 1 * q.val = q.val; omega
  have he0 : ∀ k : Fin 128, ((cfg3.win 0).blk t).view.emb (ix2 p k) = ix2 (⟨5000 * t.val + p.val, hrow⟩ : Fin 50000) k := by
    intro k; funext a; apply Fin.ext
    match a with
    | ⟨0, _⟩ => show win3_0.index t (0 : Fin 2) * 5000 + 1 * p.val = 5000 * t.val + p.val; omega
    | ⟨1, _⟩ => show win3_0.index t (1 : Fin 2) * 128 + 1 * k.val = k.val; omega
  have he1 : ∀ k : Fin 128, ((cfg3.win 1).blk t).view.emb (ix2 p k) = ix2 (⟨5000 * t.val + p.val, hrow⟩ : Fin 50000) k := by
    intro k; funext a; apply Fin.ext
    match a with
    | ⟨0, _⟩ => show win3_1.index t (0 : Fin 2) * 5000 + 1 * p.val = 5000 * t.val + p.val; omega
    | ⟨1, _⟩ => show win3_1.index t (1 : Fin 2) * 128 + 1 * k.val = k.val; omega
  have he2 : ∀ k k' : Fin 128, ((cfg3.win 2).blk t).view.emb (ix2 k k') = ix2 k k' := by
    intro k k'; funext a; apply Fin.ext
    match a with
    | ⟨0, _⟩ => show win3_2.index t (0 : Fin 2) * 128 + 1 * k.val = k.val; omega
    | ⟨1, _⟩ => show win3_2.index t (1 : Fin 2) * 128 + 1 * k'.val = k'.val; omega
  have he3 : ∀ k : Fin 128, ((cfg3.win 3).blk t).view.emb (ix2 (0 : Fin 1) k) = ix2 (0 : Fin 1) k := by
    intro k; funext a; apply Fin.ext
    match a with
    | ⟨0, _⟩ => show win3_3.index t (0 : Fin 2) * 1 + 1 * 0 = 0; omega
    | ⟨1, _⟩ => show win3_3.index t (1 : Fin 2) * 128 + 1 * k.val = k.val; omega
  have he4 : ∀ k k' : Fin 128, ((cfg3.win 4).blk t).view.emb (ix2 k k') = ix2 k k' := by
    intro k k'; funext a; apply Fin.ext
    match a with
    | ⟨0, _⟩ => show win3_4.index t (0 : Fin 2) * 128 + 1 * k.val = k.val; omega
    | ⟨1, _⟩ => show win3_4.index t (1 : Fin 2) * 128 + 1 * k'.val = k'.val; omega
  have he5 : ∀ k : Fin 128, ((cfg3.win 5).blk t).view.emb (ix2 (0 : Fin 1) k) = ix2 (0 : Fin 1) k := by
    intro k; funext a; apply Fin.ext
    match a with
    | ⟨0, _⟩ => show win3_5.index t (0 : Fin 2) * 1 + 1 * 0 = 0; omega
    | ⟨1, _⟩ => show win3_5.index t (1 : Fin 2) * 128 + 1 * k.val = k.val; omega
  show k3_pay1 (F := Ideal) (iblk3 V c 0 t) (iblk3 V c 1 t) (iblk3 V c 2 t) (iblk3 V c 3 t) (iblk3 V c 4 t) (iblk3 V c 5 t) (ix2 p q)
      = Cert.Layer.node (V c main_v31) (V c main_v48) (V c main_v50) (V c main_v57) (V c main_v54) (V c main_v58) (((cfg3.win 6).blk t).view.emb (ix2 p q))
  rw [he6]
  refine (Cert.NodeBody.pay3_apply (iblk3 V c 0 t) (iblk3 V c 1 t) (iblk3 V c 2 t) (iblk3 V c 3 t) (iblk3 V c 4 t) (iblk3 V c 5 t) p q).trans
    (Cert.NodeBody.core_eq (V c main_v31) (V c main_v48) (V c main_v50) (V c main_v57) (V c main_v54) (V c main_v58)
      (iblk3 V c 0 t) (iblk3 V c 1 t) (iblk3 V c 2 t) (iblk3 V c 3 t) (iblk3 V c 4 t) (iblk3 V c 5 t)
      ⟨5000 * t.val + p.val, hrow⟩ p q ?_ ?_ ?_ ?_ ?_ ?_)
  · intro k
    show V c main_v31 (((cfg3.win 0).blk t).view.emb (ix2 p k)) = _
    rw [he0 k]
  · intro k
    show V c main_v48 (((cfg3.win 1).blk t).view.emb (ix2 p k)) = _
    rw [he1 k]
  · intro k k'
    show V c main_v50 (((cfg3.win 2).blk t).view.emb (ix2 k k')) = _
    rw [he2 k k']
  · intro k
    show V c main_v57 (((cfg3.win 3).blk t).view.emb (ix2 (0 : Fin 1) k)) = _
    rw [he3 k]
  · intro k k'
    show V c main_v54 (((cfg3.win 4).blk t).view.emb (ix2 k k')) = _
    rw [he4 k k']
  · intro k
    show V c main_v58 (((cfg3.win 5).blk t).view.emb (ix2 (0 : Fin 1) k)) = _
    rw [he5 k]

/-- An entry of the result array is in point t's block iff each coordinate is in the block's range on its axis. -/
theorem mem_blk (t : Fin cfg3.N) (i : S50000x128.Idx) :
    i ∈ ((cfg3.win 6).blk t).view.set ↔ ∀ a : Fin 2, win3_6.index t a * S5000x128.size a ≤ (i a).val ∧ (i a).val < win3_6.index t a * S5000x128.size a + S5000x128.size a := by
  show i ∈ ((View.whole main_v59).slice (win3_6.rect t)).set ↔ _
  rw [View.set_slice_whole, Rect.mem_set_unit]
  exact Iff.rfl

/-- Every entry of the result array lies in some point's block: row r in block r / 5000. -/
theorem cover (i : S50000x128.Idx) :
    ∃ t : Fin cfg3.N, (cfg3.win 6).flush t = true ∧ i ∈ ((cfg3.win 6).blk t).view.set := by
  have hi0 : (i 0).val < 50000 := (i 0).isLt
  have hi1 : (i 1).val < 128 := (i 1).isLt
  have hN : (i 0).val / 5000 < cfg3.N := by rw [show cfg3.N = 10 from N_3]; omega
  obtain ⟨-, -, -, -, -, -, -, -, -, -, -, -, e60, e61⟩ := idx_facts ⟨(i 0).val / 5000, hN⟩
  refine ⟨⟨(i 0).val / 5000, hN⟩, flush3_6 _, ?_⟩
  rw [mem_blk]
  intro a
  match a with
  | ⟨0, _⟩ =>
    show win3_6.index ⟨(i 0).val / 5000, hN⟩ (0 : Fin 2) * 5000 ≤ (i 0).val ∧ (i 0).val < win3_6.index ⟨(i 0).val / 5000, hN⟩ (0 : Fin 2) * 5000 + 5000
    rw [e60]; show (i 0).val / 5000 * 5000 ≤ (i 0).val ∧ (i 0).val < (i 0).val / 5000 * 5000 + 5000; omega
  | ⟨1, _⟩ =>
    show win3_6.index ⟨(i 0).val / 5000, hN⟩ (1 : Fin 2) * 128 ≤ (i 1).val ∧ (i 1).val < win3_6.index ⟨(i 0).val / 5000, hN⟩ (1 : Fin 2) * 128 + 128
    rw [e61]; omega

/-- After the region the result array is the whole-array node update of the region's input arrays. -/
theorem final (c : Dev nD) :
    (dat3 V c).arrAt 6 cfg3.N = Cert.Layer.node (V c main_v31) (V c main_v48) (V c main_v50) (V c main_v57) (V c main_v54) (V c main_v58) :=
  (dat3 V c).arrAt_eq_of_cover 6 _ (fun t _ => flushed_eq V c t) (cover)

end Cert.Node3

end
-- ==== Proof.Node5.lean ====
/-
  Region 5 (the third layer's node kernel): from blocks to the array.

  The grid has 10 points; point t loads rows 5000 t … 5000 t + 4999 of the node features and of the aggregated
  messages, and the whole weight matrices and bias rows, and writes back rows 5000 t … 5000 t + 4999 of the result.
  What it writes back is that block of the whole-array node update of the six arrays as the region finds them (an
  entry of the update uses one row of the features and of the aggregate, and that row is in the block); the 10 blocks
  tile the 50000 rows (row r lies in block r / 5000); so after the region the result array IS the node update.
-/
import proofs.«105022_j75840532513189_1_alg».proof.Proof.Gen.KernelIdeal.Frame
import proofs.«105022_j75840532513189_1_alg».proof.Proof.NodeBody

set_option maxRecDepth 16384

noncomputable section

namespace Cert.Node5

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block (t, 0), the whole-array windows at (0, 0). -/
theorem idx_facts : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = t.val ∧ win5_6.index t (1 : Fin 2) = 0 :=
  (by decide +kernel : ∀ t : Fin grid5.N, _)

/-- What point t writes back is block t of the whole-array node update of the region's six input arrays. -/
theorem flushed_eq (c : Dev nD) (t : Fin cfg5.N) :
    (dat5 V c).flushed 6 t = ((cfg5.win 6).blk t).view.read (Elt Ideal)
      (Cert.Layer.node (V c main_v59) (V c main_v76) (V c main_v78) (V c main_v85) (V c main_v82) (V c main_v86)) := by
  show (cfg5.win 6).cut (grid5.coords t) ((dat5 V c).after 6 t) = _
  rw [after5_6]
  unfold out5_6
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51, e60, e61⟩ := idx_facts t
  have ht : t.val < 10 := lt_of_lt_of_eq t.isLt N_5
  funext j
  obtain ⟨p, q, rfl⟩ : ∃ (p : Fin 5000) (q : Fin 128), j = ix2 p q := ⟨j 0, j 1, eq_ix2 j⟩
  have hp : p.val < 5000 := p.isLt
  have hq : q.val < 128 := q.isLt
  have hrow : 5000 * t.val + p.val < 50000 := by omega
  have he6 : ((cfg5.win 6).blk t).view.emb (ix2 p q) = ix2 (⟨5000 * t.val + p.val, hrow⟩ : Fin 50000) q := by
    funext a; apply Fin.ext
    match a with
    | ⟨0, _⟩ => show win5_6.index t (0 : Fin 2) * 5000 + 1 * p.val = 5000 * t.val + p.val; omega
    | ⟨1, _⟩ => show win5_6.index t (1 : Fin 2) * 128 + 1 * q.val = q.val; omega
  have he0 : ∀ k : Fin 128, ((cfg5.win 0).blk t).view.emb (ix2 p k) = ix2 (⟨5000 * t.val + p.val, hrow⟩ : Fin 50000) k := by
    intro k; funext a; apply Fin.ext
    match a with
    | ⟨0, _⟩ => show win5_0.index t (0 : Fin 2) * 5000 + 1 * p.val = 5000 * t.val + p.val; omega
    | ⟨1, _⟩ => show win5_0.index t (1 : Fin 2) * 128 + 1 * k.val = k.val; omega
  have he1 : ∀ k : Fin 128, ((cfg5.win 1).blk t).view.emb (ix2 p k) = ix2 (⟨5000 * t.val + p.val, hrow⟩ : Fin 50000) k := by
    intro k; funext a; apply Fin.ext
    match a with
    | ⟨0, _⟩ => show win5_1.index t (0 : Fin 2) * 5000 + 1 * p.val = 5000 * t.val + p.val; omega
    | ⟨1, _⟩ => show win5_1.index t (1 : Fin 2) * 128 + 1 * k.val = k.val; omega
  have he2 : ∀ k k' : Fin 128, ((cfg5.win 2).blk t).view.emb (ix2 k k') = ix2 k k' := by
    intro k k'; funext a; apply Fin.ext
    match a with
    | ⟨0, _⟩ => show win5_2.index t (0 : Fin 2) * 128 + 1 * k.val = k.val; omega
    | ⟨1, _⟩ => show win5_2.index t (1 : Fin 2) * 128 + 1 * k'.val = k'.val; omega
  have he3 : ∀ k : Fin 128, ((cfg5.win 3).blk t).view.emb (ix2 (0 : Fin 1) k) = ix2 (0 : Fin 1) k := by
    intro k; funext a; apply Fin.ext
    match a with
    | ⟨0, _⟩ => show win5_3.index t (0 : Fin 2) * 1 + 1 * 0 = 0; omega
    | ⟨1, _⟩ => show win5_3.index t (1 : Fin 2) * 128 + 1 * k.val = k.val; omega
  have he4 : ∀ k k' : Fin 128, ((cfg5.win 4).blk t).view.emb (ix2 k k') = ix2 k k' := by
    intro k k'; funext a; apply Fin.ext
    match a with
    | ⟨0, _⟩ => show win5_4.index t (0 : Fin 2) * 128 + 1 * k.val = k.val; omega
    | ⟨1, _⟩ => show win5_4.index t (1 : Fin 2) * 128 + 1 * k'.val = k'.val; omega
  have he5 : ∀ k : Fin 128, ((cfg5.win 5).blk t).view.emb (ix2 (0 : Fin 1) k) = ix2 (0 : Fin 1) k := by
    intro k; funext a; apply Fin.ext
    match a with
    | ⟨0, _⟩ => show win5_5.index t (0 : Fin 2) * 1 + 1 * 0 = 0; omega
    | ⟨1, _⟩ => show win5_5.index t (1 : Fin 2) * 128 + 1 * k.val = k.val; omega
  show k5_pay1 (F := Ideal) (iblk5 V c 0 t) (iblk5 V c 1 t) (iblk5 V c 2 t) (iblk5 V c 3 t) (iblk5 V c 4 t) (iblk5 V c 5 t) (ix2 p q)
      = Cert.Layer.node (V c main_v59) (V c main_v76) (V c main_v78) (V c main_v85) (V c main_v82) (V c main_v86) (((cfg5.win 6).blk t).view.emb (ix2 p q))
  rw [he6]
  refine (Cert.NodeBody.pay5_apply (iblk5 V c 0 t) (iblk5 V c 1 t) (iblk5 V c 2 t) (iblk5 V c 3 t) (iblk5 V c 4 t) (iblk5 V c 5 t) p q).trans
    (Cert.NodeBody.core_eq (V c main_v59) (V c main_v76) (V c main_v78) (V c main_v85) (V c main_v82) (V c main_v86)
      (iblk5 V c 0 t) (iblk5 V c 1 t) (iblk5 V c 2 t) (iblk5 V c 3 t) (iblk5 V c 4 t) (iblk5 V c 5 t)
      ⟨5000 * t.val + p.val, hrow⟩ p q ?_ ?_ ?_ ?_ ?_ ?_)
  · intro k
    show V c main_v59 (((cfg5.win 0).blk t).view.emb (ix2 p k)) = _
    rw [he0 k]
  · intro k
    show V c main_v76 (((cfg5.win 1).blk t).view.emb (ix2 p k)) = _
    rw [he1 k]
  · intro k k'
    show V c main_v78 (((cfg5.win 2).blk t).view.emb (ix2 k k')) = _
    rw [he2 k k']
  · intro k
    show V c main_v85 (((cfg5.win 3).blk t).view.emb (ix2 (0 : Fin 1) k)) = _
    rw [he3 k]
  · intro k k'
    show V c main_v82 (((cfg5.win 4).blk t).view.emb (ix2 k k')) = _
    rw [he4 k k']
  · intro k
    show V c main_v86 (((cfg5.win 5).blk t).view.emb (ix2 (0 : Fin 1) k)) = _
    rw [he5 k]

/-- An entry of the result array is in point t's block iff each coordinate is in the block's range on its axis. -/
theorem mem_blk (t : Fin cfg5.N) (i : S50000x128.Idx) :
    i ∈ ((cfg5.win 6).blk t).view.set ↔ ∀ a : Fin 2, win5_6.index t a * S5000x128.size a ≤ (i a).val ∧ (i a).val < win5_6.index t a * S5000x128.size a + S5000x128.size a := by
  show i ∈ ((View.whole main_v87).slice (win5_6.rect t)).set ↔ _
  rw [View.set_slice_whole, Rect.mem_set_unit]
  exact Iff.rfl

/-- Every entry of the result array lies in some point's block: row r in block r / 5000. -/
theorem cover (i : S50000x128.Idx) :
    ∃ t : Fin cfg5.N, (cfg5.win 6).flush t = true ∧ i ∈ ((cfg5.win 6).blk t).view.set := by
  have hi0 : (i 0).val < 50000 := (i 0).isLt
  have hi1 : (i 1).val < 128 := (i 1).isLt
  have hN : (i 0).val / 5000 < cfg5.N := by rw [show cfg5.N = 10 from N_5]; omega
  obtain ⟨-, -, -, -, -, -, -, -, -, -, -, -, e60, e61⟩ := idx_facts ⟨(i 0).val / 5000, hN⟩
  refine ⟨⟨(i 0).val / 5000, hN⟩, flush5_6 _, ?_⟩
  rw [mem_blk]
  intro a
  match a with
  | ⟨0, _⟩ =>
    show win5_6.index ⟨(i 0).val / 5000, hN⟩ (0 : Fin 2) * 5000 ≤ (i 0).val ∧ (i 0).val < win5_6.index ⟨(i 0).val / 5000, hN⟩ (0 : Fin 2) * 5000 + 5000
    rw [e60]; show (i 0).val / 5000 * 5000 ≤ (i 0).val ∧ (i 0).val < (i 0).val / 5000 * 5000 + 5000; omega
  | ⟨1, _⟩ =>
    show win5_6.index ⟨(i 0).val / 5000, hN⟩ (1 : Fin 2) * 128 ≤ (i 1).val ∧ (i 1).val < win5_6.index ⟨(i 0).val / 5000, hN⟩ (1 : Fin 2) * 128 + 128
    rw [e61]; omega

/-- After the region the result array is the whole-array node update of the region's input arrays. -/
theorem final (c : Dev nD) :
    (dat5 V c).arrAt 6 cfg5.N = Cert.Layer.node (V c main_v59) (V c main_v76) (V c main_v78) (V c main_v85) (V c main_v82) (V c main_v86) :=
  (dat5 V c).arrAt_eq_of_cover 6 _ (fun t _ => flushed_eq V c t) (cover)

end Cert.Node5

end
-- ==== Proof.PredBody.lean ====
/-
  The edge head's stored value, read at an entry, and one block of it against the whole-array head.

  The body loads a 4000 × 128 block of the rows gathered at the edges' sources and another at their targets, the two
  128 × 128 halves of the first weight, its bias row, the 128 × 1 output column and the 1 × 1 output bias, and stores
  relu(xs · Wₛ + xd · W_d + b₁) · w₂ + b₂. Entry (p, 0) is a sum over the 128 hidden positions; the hidden entry
  (p, k) is the sum of two 128-term sums. Against the reference's one 256-term product of the two halves laid side by
  side with the whole first weight: the 256 terms are those two 128-term sums, the first 128 rows of the weight
  meeting the source half and the last 128 the target half.
-/
import proofs.«105022_j75840532513189_1_alg».proof.Proof.Gen.KernelIdeal.Skeleton
import proofs.«105022_j75840532513189_1_alg».proof.Proof.Layer

noncomputable section

namespace Cert.PredBody

open Idealize.ShloMosaic Idealize.ShloMosaic.ValueIdx Cert.KernelIdeal

/-- A 4000 × 128 by 128 × 128 block product accumulated from zero, at (p, q). -/
theorem mm_apply (A : FVec Ideal S4000x128 .bf16) (B : FVec Ideal S128x128 .bf16) (p : Fin 4000) (q : Fin 128) :
    matmul dot_S4000x128_S128x128_S4000x128_1_0_0_1_n_n none A B (constant S4000x128 .f32 0x00000000#32) (ix2 p q)
      = ∑ k : Fin 128, A (ix2 p k) * B (ix2 k q) :=
  Cert.LibPlainDot.matmul_zero_plain 4000 128 128 none A B (ix2 p q)

/-- A 4000 × 128 by 128 × 1 block product accumulated from zero, at (p, j). -/
theorem mm1_apply (A : FVec Ideal S4000x128 .bf16) (B : FVec Ideal S128x1 .bf16) (p : Fin 4000) (j : Fin 1) :
    matmul dot_S4000x128_S128x1_S4000x1_1_0_0_1_n_n none A B (constant S4000x1 .f32 0x00000000#32) (ix2 p j)
      = ∑ k : Fin 128, A (ix2 p k) * B (ix2 k j) :=
  Cert.LibPlainDot.matmul_zero_plain 4000 128 1 none A B (ix2 p j)

/-- The hidden entry (p, k) of a block. -/
def hidB (v0 v3 : Vec Ideal S4000x128 .f32) (v6 v9 : Vec Ideal S128x128 .f32) (v15 : Vec Ideal S1x128 .f32)
    (p : Fin 4000) (k : Fin 128) : EReal :=
  max (((∑ k' : Fin 128, v0 (ix2 p k') * v6 (ix2 k' k)) + (∑ k' : Fin 128, v3 (ix2 p k') * v9 (ix2 k' k)))
    + v15 (ix2 (0 : Fin 1) k)) Cert.Layer.z

/-- The closed form of a stored entry. -/
def outB (v0 v3 : Vec Ideal S4000x128 .f32) (v6 v9 : Vec Ideal S128x128 .f32) (v15 : Vec Ideal S1x128 .f32)
    (v22 : Vec Ideal S128x1 .f32) (v25 : Vec Ideal S1x1 .f32) (p : Fin 4000) (j : Fin 1) : EReal :=
  (∑ k : Fin 128, hidB v0 v3 v6 v9 v15 p k * v22 (ix2 k j)) + v25 (ix2 (0 : Fin 1) j)

/-- The stored value at (p, j). -/
theorem pay_apply (v0 v3 : Vec Ideal S4000x128 .f32) (v6 v9 : Vec Ideal S128x128 .f32) (v15 : Vec Ideal S1x128 .f32)
    (v22 : Vec Ideal S128x1 .f32) (v25 : Vec Ideal S1x1 .f32) (p : Fin 4000) (j : Fin 1) :
    Gen.k6_pay1 (F := Ideal) v0 v3 v6 v9 v15 v22 v25 (ix2 p j) = outB v0 v3 v6 v9 v15 v22 v25 p j := by
  unfold outB Gen.k6_pay1
  rw [addf_apply]
  simp only [shapeCast_self]
  rw [broadcastTo_1b_ab_apply _ _ p j, mm1_apply]
  refine congrArg₂ (· + ·) (Finset.sum_congr rfl fun k _ => ?_) rfl
  rw [truncf_apply, truncf_apply]
  refine congrArg₂ (· * ·) ?_ rfl
  rw [maximumf_apply, addf_apply, addf_apply, broadcast_apply, broadcastTo_1b_ab_apply _ _ p k, mm_apply, mm_apply]
  unfold hidB
  refine congrArg₂ max (congrArg₂ (· + ·) (congrArg₂ (· + ·) (Finset.sum_congr rfl fun k' _ => ?_)
    (Finset.sum_congr rfl fun k' _ => ?_)) rfl) rfl
  · rw [truncf_apply, truncf_apply]
  · rw [truncf_apply, truncf_apply]

/-- One stored entry against the whole-array head: the closed form at (p, j) is entry (e, j) of `pred` when row p of
    the two loaded blocks is row e of the whole gathered arrays, the two loaded weight halves are rows 0 … 127 and
    128 … 255 of the whole first weight, and the rest are the whole arrays. -/
theorem core_eq (xs xd : FVec Ideal Cert.ReferenceIdeal.S800000x128 .f32) (W : FVec Ideal Cert.ReferenceIdeal.S256x128 .f32)
    (b₁ : FVec Ideal Cert.ReferenceIdeal.S1x128 .f32) (w₂ : FVec Ideal Cert.ReferenceIdeal.S128x1 .f32)
    (b₂ : FVec Ideal Cert.ReferenceIdeal.S1x1 .f32)
    (x0 x1 : Vec Ideal S4000x128 .f32) (x2 x3 : Vec Ideal S128x128 .f32) (x4 : Vec Ideal S1x128 .f32)
    (x5 : Vec Ideal S128x1 .f32) (x6 : Vec Ideal S1x1 .f32)
    (e : Fin 800000) (p : Fin 4000) (j : Fin 1)
    (h0 : ∀ k : Fin 128, x0 (ix2 p k) = xs (ix2 e k)) (h1 : ∀ k : Fin 128, x1 (ix2 p k) = xd (ix2 e k))
    (h2 : ∀ k' k : Fin 128, x2 (ix2 k' k) = W (ix2 (⟨k'.val, by have := k'.isLt; omega⟩ : Fin 256) k))
    (h3 : ∀ k' k : Fin 128, x3 (ix2 k' k) = W (ix2 (⟨128 + k'.val, by have := k'.isLt; omega⟩ : Fin 256) k))
    (h4 : ∀ k : Fin 128, x4 (ix2 (0 : Fin 1) k) = b₁ (ix2 (0 : Fin 1) k))
    (h5 : ∀ k : Fin 128, x5 (ix2 k j) = w₂ (ix2 k j)) (h6 : x6 (ix2 (0 : Fin 1) j) = b₂ (ix2 (0 : Fin 1) j)) :
    outB x0 x1 x2 x3 x4 x5 x6 p j = Cert.Layer.pred xs xd W b₁ w₂ b₂ (ix2 e j) := by
  unfold outB
  rw [Cert.Layer.pred_apply, h6]
  refine congrArg₂ (· + ·) (Finset.sum_congr rfl fun k _ => ?_) rfl
  rw [h5, Cert.Layer.phid_apply]
  unfold hidB
  rw [h4]
  refine congrArg₂ (· * ·) (congrArg₂ max (congrArg₂ (· + ·) (congrArg₂ (· + ·) (Finset.sum_congr rfl fun k' _ => ?_)
    (Finset.sum_congr rfl fun k' _ => ?_)) rfl) rfl) rfl
  · rw [h0, h2]
  · rw [h1, h3]

end Cert.PredBody

end
-- ==== Proof.Pred6.lean ====
/-
  Region 6 (the edge head): from blocks to the array.

  The grid has 200 points; point t loads rows 4000 t … 4000 t + 3999 of the two gathered arrays and the five whole
  parameter arrays, and writes back rows 4000 t … 4000 t + 3999 of the 800000 × 1 result. What it writes back is that
  block of the whole-array head, for any 256 × 128 weight whose first and last 128 rows are the two weight arrays the
  region finds; the 200 blocks tile the rows; so after the region the result array IS the whole-array head.
-/
import proofs.«105022_j75840532513189_1_alg».proof.Proof.Gen.KernelIdeal.Frame
import proofs.«105022_j75840532513189_1_alg».proof.Proof.PredBody

set_option maxRecDepth 16384

noncomputable section

namespace Cert.Pred6

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block (t, 0), the whole-array windows at (0, 0). -/
theorem idx_facts : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0
    ∧ win6_7.index t (0 : Fin 2) = t.val ∧ win6_7.index t (1 : Fin 2) = 0 :=
  (by decide +kernel : ∀ t : Fin grid6.N, _)

variable (W : FVec Ideal Cert.ReferenceIdeal.S256x128 .f32)

/-- What point t writes back is block t of the whole-array head. -/
theorem flushed_eq (c : Dev nD)
    (hs : ∀ k' k : Fin 128, V c main_v102 (ix2 k' k) = W (ix2 (⟨k'.val, by have := k'.isLt; omega⟩ : Fin 256) k))
    (hd : ∀ k' k : Fin 128, V c main_v103 (ix2 k' k) = W (ix2 (⟨128 + k'.val, by have := k'.isLt; omega⟩ : Fin 256) k))
    (t : Fin cfg6.N) :
    (dat6 V c).flushed 7 t = ((cfg6.win 7).blk t).view.read (Elt Ideal)
      (Cert.Layer.pred (V c main_v94) (V c main_v101) W (V c main_v104) (V c main_arg11) (V c main_v105)) := by
  show (cfg6.win 7).cut (grid6.coords t) ((dat6 V c).after 7 t) = _
  rw [after6_7]
  unfold out6_7
  rw [View.canon_unit_zero hz]
  simp only [View.ld_unit_zero (S := S4000x128) hz, View.ld_unit_zero (S := S128x128) hz, View.ld_unit_zero (S := S1x128) hz,
    View.ld_unit_zero (S := S128x1) hz, View.ld_unit_zero (S := S1x1) hz]
  obtain ⟨e00, e01, e10, e11, e20, e21, e30, e31, e40, e41, e50, e51, e60, e61, e70, e71⟩ := idx_facts t
  have ht : t.val < 200 := lt_of_lt_of_eq t.isLt N_6
  funext i
  obtain ⟨p, j, rfl⟩ : ∃ (p : Fin 4000) (j : Fin 1), i = ix2 p j := ⟨i 0, i 1, eq_ix2 i⟩
  have hp : p.val < 4000 := p.isLt
  have hj : j.val = 0 := by have := j.isLt; omega
  have hrow : 4000 * t.val + p.val < 800000 := by omega
  have he7 : ((cfg6.win 7).blk t).view.emb (ix2 p j) = ix2 (⟨4000 * t.val + p.val, hrow⟩ : Fin 800000) j := by
    funext a; apply Fin.ext
    match a with
    | ⟨0, _⟩ => show win6_7.index t (0 : Fin 2) * 4000 + 1 * p.val = 4000 * t.val + p.val; omega
    | ⟨1, _⟩ => show win6_7.index t (1 : Fin 2) * 1 + 1 * j.val = j.val; omega
  have he0 : ∀ k : Fin 128, ((cfg6.win 0).blk t).view.emb (ix2 p k) = ix2 (⟨4000 * t.val + p.val, hrow⟩ : Fin 800000) k := by
    intro k; funext a; apply Fin.ext
    match a with
    | ⟨0, _⟩ => show win6_0.index t (0 : Fin 2) * 4000 + 1 * p.val = 4000 * t.val + p.val; omega
    | ⟨1, _⟩ => show win6_0.index t (1 : Fin 2) * 128 + 1 * k.val = k.val; omega
  have he1 : ∀ k : Fin 128, ((cfg6.win 1).blk t).view.emb (ix2 p k) = ix2 (⟨4000 * t.val + p.val, hrow⟩ : Fin 800000) k := by
    intro k; funext a; apply Fin.ext
    match a with
    | ⟨0, _⟩ => show win6_1.index t (0 : Fin 2) * 4000 + 1 * p.val = 4000 * t.val + p.val; omega
    | ⟨1, _⟩ => show win6_1.index t (1 : Fin 2) * 128 + 1 * k.val = k.val; omega
  have he2 : ∀ k k' : Fin 128, ((cfg6.win 2).blk t).view.emb (ix2 k k') = ix2 k k' := by
    intro k k'; funext a; apply Fin.ext
    match a with
    | ⟨0, _⟩ => show win6_2.index t (0 : Fin 2) * 128 + 1 * k.val = k.val; omega
    | ⟨1, _⟩ => show win6_2.index t (1 : Fin 2) * 128 + 1 * k'.val = k'.val; omega
  have he3 : ∀ k k' : Fin 128, ((cfg6.win 3).blk t).view.emb (ix2 k k') = ix2 k k' := by
    intro k k'; funext a; apply Fin.ext
    match a with
    | ⟨0, _⟩ => show win6_3.index t (0 : Fin 2) * 128 + 1 * k.val = k.val; omega
    | ⟨1, _⟩ => show win6_3.index t (1 : Fin 2) * 128 + 1 * k'.val = k'.val; omega
  have he4 : ∀ k : Fin 128, ((cfg6.win 4).blk t).view.emb (ix2 (0 : Fin 1) k) = ix2 (0 : Fin 1) k := by
    intro k; funext a; apply Fin.ext
    match a with
    | ⟨0, _⟩ => show win6_4.index t (0 : Fin 2) * 1 + 1 * 0 = 0; omega
    | ⟨1, _⟩ => show win6_4.index t (1 : Fin 2) * 128 + 1 * k.val = k.val; omega
  have he5 : ∀ k : Fin 128, ((cfg6.win 5).blk t).view.emb (ix2 k j) = ix2 k j := by
    intro k; funext a; apply Fin.ext
    match a with
    | ⟨0, _⟩ => show win6_5.index t (0 : Fin 2) * 128 + 1 * k.val = k.val; omega
    | ⟨1, _⟩ => show win6_5.index t (1 : Fin 2) * 1 + 1 * j.val = j.val; omega
  have he6 : ((cfg6.win 6).blk t).view.emb (ix2 (0 : Fin 1) j) = ix2 (0 : Fin 1) j := by
    funext a; apply Fin.ext
    match a with
    | ⟨0, _⟩ => show win6_6.index t (0 : Fin 2) * 1 + 1 * 0 = 0; omega
    | ⟨1, _⟩ => show win6_6.index t (1 : Fin 2) * 1 + 1 * j.val = j.val; omega
  show k6_pay1 (F := Ideal) (iblk6 V c 0 t) (iblk6 V c 1 t) (iblk6 V c 2 t) (iblk6 V c 3 t) (iblk6 V c 4 t) (iblk6 V c 5 t) (iblk6 V c 6 t) (ix2 p j)
      = Cert.Layer.pred (V c main_v94) (V c main_v101) W (V c main_v104) (V c main_arg11) (V c main_v105) (((cfg6.win 7).blk t).view.emb (ix2 p j))
  rw [he7]
  refine (Cert.PredBody.pay_apply (iblk6 V c 0 t) (iblk6 V c 1 t) (iblk6 V c 2 t) (iblk6 V c 3 t) (iblk6 V c 4 t) (iblk6 V c 5 t) (iblk6 V c 6 t) p j).trans
    (Cert.PredBody.core_eq (V c main_v94) (V c main_v101) W (V c main_v104) (V c main_arg11) (V c main_v105)
      (iblk6 V c 0 t) (iblk6 V c 1 t) (iblk6 V c 2 t) (iblk6 V c 3 t) (iblk6 V c 4 t) (iblk6 V c 5 t) (iblk6 V c 6 t)
      ⟨4000 * t.val + p.val, hrow⟩ p j ?_ ?_ ?_ ?_ ?_ ?_ ?_)
  · intro k
    show V c main_v94 (((cfg6.win 0).blk t).view.emb (ix2 p k)) = _
    rw [he0 k]
  · intro k
    show V c main_v101 (((cfg6.win 1).blk t).view.emb (ix2 p k)) = _
    rw [he1 k]
  · intro k' k
    show V c main_v102 (((cfg6.win 2).blk t).view.emb (ix2 k' k)) = _
    rw [he2 k' k]; exact hs k' k
  · intro k' k
    show V c main_v103 (((cfg6.win 3).blk t).view.emb (ix2 k' k)) = _
    rw [he3 k' k]; exact hd k' k
  · intro k
    show V c main_v104 (((cfg6.win 4).blk t).view.emb (ix2 (0 : Fin 1) k)) = _
    rw [he4 k]
  · intro k
    show V c main_arg11 (((cfg6.win 5).blk t).view.emb (ix2 k j)) = _
    rw [he5 k]
  · show V c main_v105 (((cfg6.win 6).blk t).view.emb (ix2 (0 : Fin 1) j)) = _
    rw [he6]

/-- An entry of the result array is in point t's block iff each coordinate is in the block's range on its axis. -/
theorem mem_blk (t : Fin cfg6.N) (i : S800000x1.Idx) :
    i ∈ ((cfg6.win 7).blk t).view.set ↔ ∀ a : Fin 2, win6_7.index t a * S4000x1.size a ≤ (i a).val ∧ (i a).val < win6_7.index t a * S4000x1.size a + S4000x1.size a := by
  show i ∈ ((View.whole main_v106).slice (win6_7.rect t)).set ↔ _
  rw [View.set_slice_whole, Rect.mem_set_unit]
  exact Iff.rfl

/-- Every entry of the result array lies in some point's block: row r in block r / 4000. -/
theorem cover (i : S800000x1.Idx) :
    ∃ t : Fin cfg6.N, (cfg6.win 7).flush t = true ∧ i ∈ ((cfg6.win 7).blk t).view.set := by
  have hi0 : (i 0).val < 800000 := (i 0).isLt
  have hi1 : (i 1).val < 1 := (i 1).isLt
  have hN : (i 0).val / 4000 < cfg6.N := by rw [show cfg6.N = 200 from N_6]; omega
  obtain ⟨-, -, -, -, -, -, -, -, -, -, -, -, -, -, e70, e71⟩ := idx_facts ⟨(i 0).val / 4000, hN⟩
  refine ⟨⟨(i 0).val / 4000, hN⟩, flush6_7 _, ?_⟩
  rw [mem_blk]
  intro a
  match a with
  | ⟨0, _⟩ =>
    show win6_7.index ⟨(i 0).val / 4000, hN⟩ (0 : Fin 2) * 4000 ≤ (i 0).val ∧ (i 0).val < win6_7.index ⟨(i 0).val / 4000, hN⟩ (0 : Fin 2) * 4000 + 4000
    rw [e70]; show (i 0).val / 4000 * 4000 ≤ (i 0).val ∧ (i 0).val < (i 0).val / 4000 * 4000 + 4000; omega
  | ⟨1, _⟩ =>
    show win6_7.index ⟨(i 0).val / 4000, hN⟩ (1 : Fin 2) * 1 ≤ (i 1).val ∧ (i 1).val < win6_7.index ⟨(i 0).val / 4000, hN⟩ (1 : Fin 2) * 1 + 1
    rw [e71]; omega

/-- After the region the result array is the whole-array head of the region's input arrays. -/
theorem final (c : Dev nD)
    (hs : ∀ k' k : Fin 128, V c main_v102 (ix2 k' k) = W (ix2 (⟨k'.val, by have := k'.isLt; omega⟩ : Fin 256) k))
    (hd : ∀ k' k : Fin 128, V c main_v103 (ix2 k' k) = W (ix2 (⟨128 + k'.val, by have := k'.isLt; omega⟩ : Fin 256) k)) :
    (dat6 V c).arrAt 7 cfg6.N
      = Cert.Layer.pred (V c main_v94) (V c main_v101) W (V c main_v104) (V c main_arg11) (V c main_v105) :=
  (dat6 V c).arrAt_eq_of_cover 7 _ (fun t _ => flushed_eq V W c hs hd t) (cover)

end Cert.Pred6

end
-- ==== Proof.Exits.lean ====
/-
  What each region leaves, in terms of what it found.

  Between two stretches of host operations the buffer contents change only at the region's own arrays: its result array
  ends at the layer function of its input arrays (the seven block-to-array theorems), its input arrays end as they were,
  and every other buffer is untouched. These are restated here at the boundary contents of the run: the contents before
  region k are the host stretch before it applied to the contents after region k − 1.
-/
import proofs.«105022_j75840532513189_1_alg».proof.Proof.Gen.KernelIdeal.Frame
import proofs.«105022_j75840532513189_1_alg».proof.Proof.Msg0
import proofs.«105022_j75840532513189_1_alg».proof.Proof.Msg2
import proofs.«105022_j75840532513189_1_alg».proof.Proof.Msg4
import proofs.«105022_j75840532513189_1_alg».proof.Proof.Node1
import proofs.«105022_j75840532513189_1_alg».proof.Proof.Node3
import proofs.«105022_j75840532513189_1_alg».proof.Proof.Node5
import proofs.«105022_j75840532513189_1_alg».proof.Proof.Pred6

set_option maxRecDepth 16384

noncomputable section

namespace Cert.Exits

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg) (c : Dev nD)

/-! ## The result arrays -/

theorem exit0 : W2 m ρ c (Proc.devRef .tc main_v17)
    = Cert.Layer.msg (W1 m ρ c (Proc.devRef .tc main_v10)) (W1 m ρ c (Proc.devRef .tc main_arg1))
        (W1 m ρ c (Proc.devRef .tc main_v15)) (W1 m ρ c (Proc.devRef .tc main_v16)) :=
  (W2_arr m ρ c 4).trans (Cert.Msg0.final (V1 m ρ) c)

theorem exit1 : W4 m ρ c (Proc.devRef .tc main_v31)
    = Cert.Layer.node (W3 m ρ c (Proc.devRef .tc main_arg0)) (W3 m ρ c (Proc.devRef .tc main_v20))
        (W3 m ρ c (Proc.devRef .tc main_v22)) (W3 m ρ c (Proc.devRef .tc main_v29))
        (W3 m ρ c (Proc.devRef .tc main_v26)) (W3 m ρ c (Proc.devRef .tc main_v30)) :=
  (W4_arr m ρ c 6).trans (Cert.Node1.final (V3 m ρ) c)

theorem exit2 : W6 m ρ c (Proc.devRef .tc main_v45)
    = Cert.Layer.msg (W5 m ρ c (Proc.devRef .tc main_v38)) (W5 m ρ c (Proc.devRef .tc main_arg1))
        (W5 m ρ c (Proc.devRef .tc main_v43)) (W5 m ρ c (Proc.devRef .tc main_v44)) :=
  (W6_arr m ρ c 4).trans (Cert.Msg2.final (V5 m ρ) c)

theorem exit3 : W8 m ρ c (Proc.devRef .tc main_v59)
    = Cert.Layer.node (W7 m ρ c (Proc.devRef .tc main_v31)) (W7 m ρ c (Proc.devRef .tc main_v48))
        (W7 m ρ c (Proc.devRef .tc main_v50)) (W7 m ρ c (Proc.devRef .tc main_v57))
        (W7 m ρ c (Proc.devRef .tc main_v54)) (W7 m ρ c (Proc.devRef .tc main_v58)) :=
  (W8_arr m ρ c 6).trans (Cert.Node3.final (V7 m ρ) c)

theorem exit4 : W10 m ρ c (Proc.devRef .tc main_v73)
    = Cert.Layer.msg (W9 m ρ c (Proc.devRef .tc main_v66)) (W9 m ρ c (Proc.devRef .tc main_arg1))
        (W9 m ρ c (Proc.devRef .tc main_v71)) (W9 m ρ c (Proc.devRef .tc main_v72)) :=
  (W10_arr m ρ c 4).trans (Cert.Msg4.final (V9 m ρ) c)

theorem exit5 : W12 m ρ c (Proc.devRef .tc main_v87)
    = Cert.Layer.node (W11 m ρ c (Proc.devRef .tc main_v59)) (W11 m ρ c (Proc.devRef .tc main_v76))
        (W11 m ρ c (Proc.devRef .tc main_v78)) (W11 m ρ c (Proc.devRef .tc main_v85))
        (W11 m ρ c (Proc.devRef .tc main_v82)) (W11 m ρ c (Proc.devRef .tc main_v86)) :=
  (W12_arr m ρ c 6).trans (Cert.Node5.final (V11 m ρ) c)

theorem exit6 (W : FVec Ideal Cert.ReferenceIdeal.S256x128 .f32)
    (hs : ∀ k' k : Fin 128, W13 m ρ c (Proc.devRef .tc main_v102) (ix2 k' k) = W (ix2 (⟨k'.val, by have := k'.isLt; omega⟩ : Fin 256) k))
    (hd : ∀ k' k : Fin 128, W13 m ρ c (Proc.devRef .tc main_v103) (ix2 k' k) = W (ix2 (⟨128 + k'.val, by have := k'.isLt; omega⟩ : Fin 256) k)) :
    W14 m ρ c (Proc.devRef .tc main_v106)
    = Cert.Layer.pred (W13 m ρ c (Proc.devRef .tc main_v94)) (W13 m ρ c (Proc.devRef .tc main_v101)) W
        (W13 m ρ c (Proc.devRef .tc main_v104)) (W13 m ρ c (Proc.devRef .tc main_arg11))
        (W13 m ρ c (Proc.devRef .tc main_v105)) :=
  (W14_arr m ρ c 7).trans (Cert.Pred6.final (V13 m ρ) W c hs hd)

/-! ## Every other buffer: as the region found it -/

theorem thru0 (b : Ref sig .tc) (hb : ∀ w, Pipeline.arrRef spec0 w ≠ b) :
    W2 m ρ c (Proc.devRef .tc b) = W1 m ρ c (Proc.devRef .tc b) := W2_of_ne m ρ c b hb
theorem thru1 (b : Ref sig .tc) (hb : ∀ w, Pipeline.arrRef spec1 w ≠ b) :
    W4 m ρ c (Proc.devRef .tc b) = W3 m ρ c (Proc.devRef .tc b) := W4_of_ne m ρ c b hb
theorem thru2 (b : Ref sig .tc) (hb : ∀ w, Pipeline.arrRef spec2 w ≠ b) :
    W6 m ρ c (Proc.devRef .tc b) = W5 m ρ c (Proc.devRef .tc b) := W6_of_ne m ρ c b hb
theorem thru3 (b : Ref sig .tc) (hb : ∀ w, Pipeline.arrRef spec3 w ≠ b) :
    W8 m ρ c (Proc.devRef .tc b) = W7 m ρ c (Proc.devRef .tc b) := W8_of_ne m ρ c b hb
theorem thru4 (b : Ref sig .tc) (hb : ∀ w, Pipeline.arrRef spec4 w ≠ b) :
    W10 m ρ c (Proc.devRef .tc b) = W9 m ρ c (Proc.devRef .tc b) := W10_of_ne m ρ c b hb
theorem thru5 (b : Ref sig .tc) (hb : ∀ w, Pipeline.arrRef spec5 w ≠ b) :
    W12 m ρ c (Proc.devRef .tc b) = W11 m ρ c (Proc.devRef .tc b) := W12_of_ne m ρ c b hb

/-- The edge attributes are an input of the message regions: read, not written. -/
theorem keep0_arg1 : W2 m ρ c (Proc.devRef .tc main_arg1) = W1 m ρ c (Proc.devRef .tc main_arg1) :=
  (W2_arr m ρ c 1).trans (((dat0 (V1 m ρ) c).arrAt_in 1 rfl _).trans (A_eq0 (V1 m ρ) c 1))
theorem keep2_arg1 : W6 m ρ c (Proc.devRef .tc main_arg1) = W5 m ρ c (Proc.devRef .tc main_arg1) :=
  (W6_arr m ρ c 1).trans (((dat2 (V5 m ρ) c).arrAt_in 1 rfl _).trans (A_eq2 (V5 m ρ) c 1))

end Cert.Exits

end
-- ==== Proof.Net.lean ====
/-
  The whole network as one function of the thirteen argument arrays, in the reference's own operations.

  • `src ei`, `dst ei` — the two rows of the edge index, as vectors;  `wrap v` — an index vector with negative entries
    moved up by the node count, as a column (the gather's index);  `col v` — an index vector as a column (the scatter's);
  • `wRow`, `bRow`, `mat` — layer l's slice of a stacked parameter: the edge weight as a row, a bias as a row, a matrix;
  • `step` — one layer: gather the sources' rows, form every edge's message, add the messages up at the targets,
    update every node;
  • `head` — gather the final features at sources and targets and apply the edge head; the result as a vector.
-/
import proofs.«105022_j75840532513189_1_alg».proof.Proof.Layer

noncomputable section

namespace Cert.Net

open Idealize.ShloMosaic Cert.ReferenceIdeal Cert.ReferenceIdeal.Facts₀

def src (ei : IVec S2x800000 32) : IVec S800000 32 :=
  shapeCast _ (extractStridedSlice S1x800000 ![0, 0] ei slices_S2x800000_S1x800000_0_0) shapeCasts_S1x800000_S800000

def dst (ei : IVec S2x800000 32) : IVec S800000 32 :=
  shapeCast _ (extractStridedSlice S1x800000 ![1, 0] ei slices_S2x800000_S1x800000_1_0) shapeCasts_S1x800000_S800000

def wrap (v : IVec S800000 32) : IVec S800000x1 32 :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)

def col (v : IVec S800000 32) : IVec S800000x1 32 :=
  broadcastInDim S800000x1 ![0] bcast_S800000_S800000x1_0 v

def wRow (We : FVec Ideal S3x1x128 .f32) (l : Nat) (h : S3x1x128.Slices ![l, 0, 0] S1x1x128) : FVec Ideal S1x128 .f32 :=
  shapeCast _ (extractStridedSlice S1x1x128 ![l, 0, 0] We h) shapeCasts_S1x1x128_S1x128

def bVec (B : FVec Ideal S3x128 .f32) (l : Nat) (h : S3x128.Slices ![l, 0] S1x128) : FVec Ideal S128 .f32 :=
  shapeCast _ (extractStridedSlice S1x128 ![l, 0] B h) shapeCasts_S1x128_S128

def bRow (B : FVec Ideal S3x128 .f32) (l : Nat) (h : S3x128.Slices ![l, 0] S1x128) : FVec Ideal S1x128 .f32 :=
  broadcastInDim S1x128 ![1] bcast_S128_S1x128_1 (bVec B l h)

def mat (Wl : FVec Ideal S3x128x128 .f32) (l : Nat) (h : S3x128x128.Slices ![l, 0, 0] S1x128x128) : FVec Ideal S128x128 .f32 :=
  shapeCast _ (extractStridedSlice S1x128x128 ![l, 0, 0] Wl h) shapeCasts_S1x128x128_S128x128

def zeros : FVec Ideal S50000x128 .f32 :=
  broadcastInDim S50000x128 ![] bcast_S_S50000x128 (constant S_ .f32 0x00000000#32)

def gat (x : FVec Ideal S50000x128 .f32) (i : IVec S800000x1 32) : FVec Ideal S800000x128 .f32 :=
  Host.gather gather_S50000x128_S800000x1_S800000x128_1_0_n_n_0_1_1128 x i

def sca (i : IVec S800000x1 32) (u : FVec Ideal S800000x128 .f32) : FVec Ideal S50000x128 .f32 :=
  Host.scatterAdd scatter_S50000x128_S800000x1_S800000x128_1_0_0_1 zeros i u

/-- One layer. -/
def step (x : FVec Ideal S50000x128 .f32) (ea : FVec Ideal S800000x1 .f32) (ei : IVec S2x800000 32)
    (w b : FVec Ideal S1x128 .f32) (W₁ : FVec Ideal S128x128 .f32) (b₁ : FVec Ideal S1x128 .f32)
    (W₂ : FVec Ideal S128x128 .f32) (b₂ : FVec Ideal S1x128 .f32) : FVec Ideal S50000x128 .f32 :=
  Cert.Layer.node x (sca (col (dst ei)) (Cert.Layer.msg (gat x (wrap (src ei))) ea w b)) W₁ b₁ W₂ b₂

/-- The edge head over the final features, as a vector. -/
def head (x : FVec Ideal S50000x128 .f32) (ei : IVec S2x800000 32) (Wp1 : FVec Ideal S256x128 .f32)
    (bp1 : FVec Ideal S128 .f32) (Wp2 : FVec Ideal S128x1 .f32) (bp2 : FVec Ideal S1 .f32) : FVec Ideal S800000 .f32 :=
  shapeCast _ (Cert.Layer.pred (gat x (wrap (src ei))) (gat x (wrap (dst ei))) Wp1
      (broadcastInDim S1x128 ![1] bcast_S128_S1x128_1 bp1) Wp2 (broadcastInDim S1x1 ![1] bcast_S1_S1x1_1 bp2))
    shapeCasts_S800000x1_S800000

variable (x0 : FVec Ideal S50000x128 .f32) (ea : FVec Ideal S800000x1 .f32) (ei : IVec S2x800000 32)
  (Wl1 : FVec Ideal S3x128x128 .f32) (bl1 : FVec Ideal S3x128 .f32) (Wl2 : FVec Ideal S3x128x128 .f32)
  (bl2 : FVec Ideal S3x128 .f32) (We : FVec Ideal S3x1x128 .f32) (be : FVec Ideal S3x128 .f32)

/-- The node features after the first, second and third layer. -/
def x1 : FVec Ideal S50000x128 .f32 :=
  step x0 ea ei (wRow We 0 slices_S3x1x128_S1x1x128_0_0_0) (bRow be 0 slices_S3x128_S1x128_0_0)
    (mat Wl1 0 slices_S3x128x128_S1x128x128_0_0_0) (bRow bl1 0 slices_S3x128_S1x128_0_0)
    (mat Wl2 0 slices_S3x128x128_S1x128x128_0_0_0) (bRow bl2 0 slices_S3x128_S1x128_0_0)

def x2 : FVec Ideal S50000x128 .f32 :=
  step (x1 x0 ea ei Wl1 bl1 Wl2 bl2 We be) ea ei (wRow We 1 slices_S3x1x128_S1x1x128_1_0_0) (bRow be 1 slices_S3x128_S1x128_1_0)
    (mat Wl1 1 slices_S3x128x128_S1x128x128_1_0_0) (bRow bl1 1 slices_S3x128_S1x128_1_0)
    (mat Wl2 1 slices_S3x128x128_S1x128x128_1_0_0) (bRow bl2 1 slices_S3x128_S1x128_1_0)

def x3 : FVec Ideal S50000x128 .f32 :=
  step (x2 x0 ea ei Wl1 bl1 Wl2 bl2 We be) ea ei (wRow We 2 slices_S3x1x128_S1x1x128_2_0_0) (bRow be 2 slices_S3x128_S1x128_2_0)
    (mat Wl1 2 slices_S3x128x128_S1x128x128_2_0_0) (bRow bl1 2 slices_S3x128_S1x128_2_0)
    (mat Wl2 2 slices_S3x128x128_S1x128x128_2_0_0) (bRow bl2 2 slices_S3x128_S1x128_2_0)

end Cert.Net

end
-- ==== Proof.LibRowCast.lean ====
/-
  Two facts about recasts, general in the shapes and the element type.
  • `shapeCast_comp`: a recast of a recast is the direct recast (row-major positions compose).
  • `row_eq`: a vector recast as a one-row matrix, `[n] → [1, n]`, is the vector broadcast along axis 1 into `[1, n]`:
    both read, at (u, j), the vector's entry j.
-/
import Idealize.ShloMosaic.Lib.Pipeline.Value
import Idealize.ShloMosaic.Lib.ValueIdx
import Idealize.ShloMosaic.Lib.ValueLayout

namespace Cert.LibRowCast

open Idealize.ShloMosaic Idealize.ShloMosaic.ValueIdx

variable {α : Type}

/-- A recast of a recast is the direct recast. -/
theorem shapeCast_comp {s t u : Shape} (x : s.Idx → α) (h : s.ShapeCasts t) (h' : t.ShapeCasts u) (h'' : s.ShapeCasts u) :
    shapeCast u (shapeCast t x h) h' = shapeCast u x h'' :=
  funext fun i => congrArg x (by
    show Shape.reshapeEquiv _ (Shape.reshapeEquiv _ i) = Shape.reshapeEquiv _ i
    rw [Shape.reshapeEquiv_reshapeEquiv])

/-- A vector recast as a row is the vector broadcast along axis 1 into the one-row shape. -/
theorem row_eq {n : Nat} (x : (⟨1, ![n]⟩ : Shape).Idx → α) (h : (⟨1, ![n]⟩ : Shape).ShapeCasts ⟨2, ![1, n]⟩)
    (hd : (⟨1, ![n]⟩ : Shape).BroadcastsInDim ⟨2, ![1, n]⟩ ![1]) :
    shapeCast ⟨2, ![1, n]⟩ x h = broadcastInDim ⟨2, ![1, n]⟩ ![1] hd x := by
  funext i
  obtain ⟨u, j, rfl⟩ : ∃ (u : Fin 1) (j : Fin n), i = ix2 u j := ⟨i 0, i 1, eq_ix2 i⟩
  rw [shapeCast_a_1a_apply x h u j]
  exact (broadcastInDim_apply ![1] hd x (ix2 u j) (ix1 j) (fun a => by
    match a with
    | ⟨0, _⟩ =>
      show j.val = if n = 1 then 0 else j.val
      split
      · have := j.isLt; omega
      · rfl)).symm

end Cert.LibRowCast
-- ==== Proof.Stages.lean ====
/-
  The buffer contents at every boundary of the kernel program's run, as network values of the launch arguments.

  The run alternates stretches of host operations and regions. Walking it boundary by boundary: a host stretch computes
  the gathers, the scatter-adds and the slices of the stacked parameters from what the previous boundary holds, and leaves
  every other buffer alone; a region replaces its result array by the layer function of its inputs (the exits) and leaves
  every other buffer alone. So each buffer that a later step reads holds, at each boundary, a fixed function of the launch
  arguments: the edge index rows, a layer's parameter slices (the kernel recasts a bias vector as a row where the host
  broadcasts it, and recasts the edge weight twice where the host recasts once — the same arrays), the messages, the
  aggregates, the node features after each layer, and at the end the edge head's output as a vector.
-/
import proofs.«105022_j75840532513189_1_alg».proof.Proof.Exits
import proofs.«105022_j75840532513189_1_alg».proof.Proof.Net
import proofs.«105022_j75840532513189_1_alg».proof.Proof.LibRowCast
import Idealize.ShloMosaic.Lib.StableHlo.Run
import Idealize.ShloMosaic.Lib.ValueLayout

set_option maxRecDepth 16384

noncomputable section

namespace Cert.Stages

open Idealize.ShloMosaic Idealize.ShloMosaic.TcCoe Idealize.ShloMosaic.ValueIdx Idealize.SL.Sem
open Idealize.ShloMosaic.StableHlo
open Cert.KernelIdeal Cert.KernelIdeal.Gen

variable (m : (ℓ : Loc nD τ sig) → Buf (Elt Ideal) ℓ) (ρ : Dev nD → PrngReg) (c : Dev nD)

theorem at1_arg0 : W1 m ρ c (Proc.devRef .tc main_arg0) = (m ((c : Thread nD τ).loc main_arg0)) :=
  (show StableHlo.after hostOps0 (W0 m ρ c) (Proc.devRef .tc main_arg0) = W0 m ρ c (Proc.devRef .tc main_arg0) from
    (StableHlo.after_of_forall_not_mem _ _ (List.forall_iff_forall_mem.mp (by
      simp only [hostOps0, hostOps1, hostOps2, hostOps3, hostOps4, hostOps5, hostOps6, hostOps7, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))))

theorem at1_arg1 : W1 m ρ c (Proc.devRef .tc main_arg1) = (m ((c : Thread nD τ).loc main_arg1)) :=
  (show StableHlo.after hostOps0 (W0 m ρ c) (Proc.devRef .tc main_arg1) = W0 m ρ c (Proc.devRef .tc main_arg1) from
    (StableHlo.after_of_forall_not_mem _ _ (List.forall_iff_forall_mem.mp (by
      simp only [hostOps0, hostOps1, hostOps2, hostOps3, hostOps4, hostOps5, hostOps6, hostOps7, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))))

theorem at1_arg3 : W1 m ρ c (Proc.devRef .tc main_arg3) = (m ((c : Thread nD τ).loc main_arg3)) :=
  (show StableHlo.after hostOps0 (W0 m ρ c) (Proc.devRef .tc main_arg3) = W0 m ρ c (Proc.devRef .tc main_arg3) from
    (StableHlo.after_of_forall_not_mem _ _ (List.forall_iff_forall_mem.mp (by
      simp only [hostOps0, hostOps1, hostOps2, hostOps3, hostOps4, hostOps5, hostOps6, hostOps7, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))))

theorem at1_arg4 : W1 m ρ c (Proc.devRef .tc main_arg4) = (m ((c : Thread nD τ).loc main_arg4)) :=
  (show StableHlo.after hostOps0 (W0 m ρ c) (Proc.devRef .tc main_arg4) = W0 m ρ c (Proc.devRef .tc main_arg4) from
    (StableHlo.after_of_forall_not_mem _ _ (List.forall_iff_forall_mem.mp (by
      simp only [hostOps0, hostOps1, hostOps2, hostOps3, hostOps4, hostOps5, hostOps6, hostOps7, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))))

theorem at1_arg5 : W1 m ρ c (Proc.devRef .tc main_arg5) = (m ((c : Thread nD τ).loc main_arg5)) :=
  (show StableHlo.after hostOps0 (W0 m ρ c) (Proc.devRef .tc main_arg5) = W0 m ρ c (Proc.devRef .tc main_arg5) from
    (StableHlo.after_of_forall_not_mem _ _ (List.forall_iff_forall_mem.mp (by
      simp only [hostOps0, hostOps1, hostOps2, hostOps3, hostOps4, hostOps5, hostOps6, hostOps7, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))))

theorem at1_arg6 : W1 m ρ c (Proc.devRef .tc main_arg6) = (m ((c : Thread nD τ).loc main_arg6)) :=
  (show StableHlo.after hostOps0 (W0 m ρ c) (Proc.devRef .tc main_arg6) = W0 m ρ c (Proc.devRef .tc main_arg6) from
    (StableHlo.after_of_forall_not_mem _ _ (List.forall_iff_forall_mem.mp (by
      simp only [hostOps0, hostOps1, hostOps2, hostOps3, hostOps4, hostOps5, hostOps6, hostOps7, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))))

theorem at1_arg7 : W1 m ρ c (Proc.devRef .tc main_arg7) = (m ((c : Thread nD τ).loc main_arg7)) :=
  (show StableHlo.after hostOps0 (W0 m ρ c) (Proc.devRef .tc main_arg7) = W0 m ρ c (Proc.devRef .tc main_arg7) from
    (StableHlo.after_of_forall_not_mem _ _ (List.forall_iff_forall_mem.mp (by
      simp only [hostOps0, hostOps1, hostOps2, hostOps3, hostOps4, hostOps5, hostOps6, hostOps7, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))))

theorem at1_arg8 : W1 m ρ c (Proc.devRef .tc main_arg8) = (m ((c : Thread nD τ).loc main_arg8)) :=
  (show StableHlo.after hostOps0 (W0 m ρ c) (Proc.devRef .tc main_arg8) = W0 m ρ c (Proc.devRef .tc main_arg8) from
    (StableHlo.after_of_forall_not_mem _ _ (List.forall_iff_forall_mem.mp (by
      simp only [hostOps0, hostOps1, hostOps2, hostOps3, hostOps4, hostOps5, hostOps6, hostOps7, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))))

theorem at1_arg9 : W1 m ρ c (Proc.devRef .tc main_arg9) = (m ((c : Thread nD τ).loc main_arg9)) :=
  (show StableHlo.after hostOps0 (W0 m ρ c) (Proc.devRef .tc main_arg9) = W0 m ρ c (Proc.devRef .tc main_arg9) from
    (StableHlo.after_of_forall_not_mem _ _ (List.forall_iff_forall_mem.mp (by
      simp only [hostOps0, hostOps1, hostOps2, hostOps3, hostOps4, hostOps5, hostOps6, hostOps7, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))))

theorem at1_arg10 : W1 m ρ c (Proc.devRef .tc main_arg10) = (m ((c : Thread nD τ).loc main_arg10)) :=
  (show StableHlo.after hostOps0 (W0 m ρ c) (Proc.devRef .tc main_arg10) = W0 m ρ c (Proc.devRef .tc main_arg10) from
    (StableHlo.after_of_forall_not_mem _ _ (List.forall_iff_forall_mem.mp (by
      simp only [hostOps0, hostOps1, hostOps2, hostOps3, hostOps4, hostOps5, hostOps6, hostOps7, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))))

theorem at1_arg11 : W1 m ρ c (Proc.devRef .tc main_arg11) = (m ((c : Thread nD τ).loc main_arg11)) :=
  (show StableHlo.after hostOps0 (W0 m ρ c) (Proc.devRef .tc main_arg11) = W0 m ρ c (Proc.devRef .tc main_arg11) from
    (StableHlo.after_of_forall_not_mem _ _ (List.forall_iff_forall_mem.mp (by
      simp only [hostOps0, hostOps1, hostOps2, hostOps3, hostOps4, hostOps5, hostOps6, hostOps7, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))))

theorem at1_arg12 : W1 m ρ c (Proc.devRef .tc main_arg12) = (m ((c : Thread nD τ).loc main_arg12)) :=
  (show StableHlo.after hostOps0 (W0 m ρ c) (Proc.devRef .tc main_arg12) = W0 m ρ c (Proc.devRef .tc main_arg12) from
    (StableHlo.after_of_forall_not_mem _ _ (List.forall_iff_forall_mem.mp (by
      simp only [hostOps0, hostOps1, hostOps2, hostOps3, hostOps4, hostOps5, hostOps6, hostOps7, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))))

theorem at1_v1 : W1 m ρ c (Proc.devRef .tc main_v1) = (Cert.Net.src (m ((c : Thread nD τ).loc main_arg2))) :=
  by
    show StableHlo.after hostOps0 (W0 m ρ c) (Proc.devRef .tc main_v1) = _
    dsimp only [hostOps0]
    after_results
    rfl

theorem at1_v3 : W1 m ρ c (Proc.devRef .tc main_v3) = (Cert.Net.dst (m ((c : Thread nD τ).loc main_arg2))) :=
  by
    show StableHlo.after hostOps0 (W0 m ρ c) (Proc.devRef .tc main_v3) = _
    dsimp only [hostOps0]
    after_results
    rfl

theorem at1_v10 : W1 m ρ c (Proc.devRef .tc main_v10) = (Cert.Net.gat (m ((c : Thread nD τ).loc main_arg0)) (Cert.Net.wrap (Cert.Net.src (m ((c : Thread nD τ).loc main_arg2))))) :=
  by
    show StableHlo.after hostOps0 (W0 m ρ c) (Proc.devRef .tc main_v10) = _
    dsimp only [hostOps0]
    after_results
    rfl

theorem at1_v15 : W1 m ρ c (Proc.devRef .tc main_v15) = (Cert.Net.wRow (m ((c : Thread nD τ).loc main_arg7)) 0 Cert.ReferenceIdeal.Facts₀.slices_S3x1x128_S1x1x128_0_0_0) :=
  by
    show StableHlo.after hostOps0 (W0 m ρ c) (Proc.devRef .tc main_v15) = _
    dsimp only [hostOps0]
    after_results
    exact Cert.LibRowCast.shapeCast_comp (extractStridedSlice Cert.KernelIdeal.S1x1x128 ![0, 0, 0] (m ((c : Thread nD τ).loc main_arg7)) Cert.KernelIdeal.Facts₀.slices_S3x1x128_S1x1x128_0_0_0) Cert.KernelIdeal.Facts₀.shapeCasts_S1x1x128_S128 Cert.KernelIdeal.Facts₀.shapeCasts_S128_S1x128 Cert.ReferenceIdeal.Facts₀.shapeCasts_S1x1x128_S1x128

theorem at1_v16 : W1 m ρ c (Proc.devRef .tc main_v16) = (Cert.Net.bRow (m ((c : Thread nD τ).loc main_arg8)) 0 Cert.ReferenceIdeal.Facts₀.slices_S3x128_S1x128_0_0) :=
  by
    show StableHlo.after hostOps0 (W0 m ρ c) (Proc.devRef .tc main_v16) = _
    dsimp only [hostOps0]
    after_results
    exact Cert.LibRowCast.row_eq (shapeCast Cert.KernelIdeal.S128 (extractStridedSlice Cert.KernelIdeal.S1x128 ![0, 0] (m ((c : Thread nD τ).loc main_arg8)) Cert.KernelIdeal.Facts₀.slices_S3x128_S1x128_0_0) Cert.KernelIdeal.Facts₀.shapeCasts_S1x128_S128) Cert.KernelIdeal.Facts₀.shapeCasts_S128_S1x128 Cert.ReferenceIdeal.Facts₀.bcast_S128_S1x128_1

theorem at2_v1 : W2 m ρ c (Proc.devRef .tc main_v1) = (Cert.Net.src (m ((c : Thread nD τ).loc main_arg2))) :=
  (Cert.Exits.thru0 m ρ c main_v1 (by decide)).trans (at1_v1 m ρ c)

theorem at2_v3 : W2 m ρ c (Proc.devRef .tc main_v3) = (Cert.Net.dst (m ((c : Thread nD τ).loc main_arg2))) :=
  (Cert.Exits.thru0 m ρ c main_v3 (by decide)).trans (at1_v3 m ρ c)

theorem at2_arg0 : W2 m ρ c (Proc.devRef .tc main_arg0) = (m ((c : Thread nD τ).loc main_arg0)) :=
  (Cert.Exits.thru0 m ρ c main_arg0 (by decide)).trans (at1_arg0 m ρ c)

theorem at2_arg1 : W2 m ρ c (Proc.devRef .tc main_arg1) = (m ((c : Thread nD τ).loc main_arg1)) :=
  (Cert.Exits.keep0_arg1 m ρ c).trans (at1_arg1 m ρ c)

theorem at2_arg3 : W2 m ρ c (Proc.devRef .tc main_arg3) = (m ((c : Thread nD τ).loc main_arg3)) :=
  (Cert.Exits.thru0 m ρ c main_arg3 (by decide)).trans (at1_arg3 m ρ c)

theorem at2_arg4 : W2 m ρ c (Proc.devRef .tc main_arg4) = (m ((c : Thread nD τ).loc main_arg4)) :=
  (Cert.Exits.thru0 m ρ c main_arg4 (by decide)).trans (at1_arg4 m ρ c)

theorem at2_arg5 : W2 m ρ c (Proc.devRef .tc main_arg5) = (m ((c : Thread nD τ).loc main_arg5)) :=
  (Cert.Exits.thru0 m ρ c main_arg5 (by decide)).trans (at1_arg5 m ρ c)

theorem at2_arg6 : W2 m ρ c (Proc.devRef .tc main_arg6) = (m ((c : Thread nD τ).loc main_arg6)) :=
  (Cert.Exits.thru0 m ρ c main_arg6 (by decide)).trans (at1_arg6 m ρ c)

theorem at2_arg7 : W2 m ρ c (Proc.devRef .tc main_arg7) = (m ((c : Thread nD τ).loc main_arg7)) :=
  (Cert.Exits.thru0 m ρ c main_arg7 (by decide)).trans (at1_arg7 m ρ c)

theorem at2_arg8 : W2 m ρ c (Proc.devRef .tc main_arg8) = (m ((c : Thread nD τ).loc main_arg8)) :=
  (Cert.Exits.thru0 m ρ c main_arg8 (by decide)).trans (at1_arg8 m ρ c)

theorem at2_arg9 : W2 m ρ c (Proc.devRef .tc main_arg9) = (m ((c : Thread nD τ).loc main_arg9)) :=
  (Cert.Exits.thru0 m ρ c main_arg9 (by decide)).trans (at1_arg9 m ρ c)

theorem at2_arg10 : W2 m ρ c (Proc.devRef .tc main_arg10) = (m ((c : Thread nD τ).loc main_arg10)) :=
  (Cert.Exits.thru0 m ρ c main_arg10 (by decide)).trans (at1_arg10 m ρ c)

theorem at2_arg11 : W2 m ρ c (Proc.devRef .tc main_arg11) = (m ((c : Thread nD τ).loc main_arg11)) :=
  (Cert.Exits.thru0 m ρ c main_arg11 (by decide)).trans (at1_arg11 m ρ c)

theorem at2_arg12 : W2 m ρ c (Proc.devRef .tc main_arg12) = (m ((c : Thread nD τ).loc main_arg12)) :=
  (Cert.Exits.thru0 m ρ c main_arg12 (by decide)).trans (at1_arg12 m ρ c)

theorem at2_v17 : W2 m ρ c (Proc.devRef .tc main_v17) = (Cert.Layer.msg (Cert.Net.gat (m ((c : Thread nD τ).loc main_arg0)) (Cert.Net.wrap (Cert.Net.src (m ((c : Thread nD τ).loc main_arg2))))) (m ((c : Thread nD τ).loc main_arg1)) (Cert.Net.wRow (m ((c : Thread nD τ).loc main_arg7)) 0 Cert.ReferenceIdeal.Facts₀.slices_S3x1x128_S1x1x128_0_0_0) (Cert.Net.bRow (m ((c : Thread nD τ).loc main_arg8)) 0 Cert.ReferenceIdeal.Facts₀.slices_S3x128_S1x128_0_0)) :=
  (Cert.Exits.exit0 m ρ c).trans (by
    rw [at1_v10 m ρ c, at1_arg1 m ρ c, at1_v15 m ρ c, at1_v16 m ρ c])

theorem at3_v1 : W3 m ρ c (Proc.devRef .tc main_v1) = (Cert.Net.src (m ((c : Thread nD τ).loc main_arg2))) :=
  (show StableHlo.after hostOps1 (W2 m ρ c) (Proc.devRef .tc main_v1) = W2 m ρ c (Proc.devRef .tc main_v1) from
    (StableHlo.after_of_forall_not_mem _ _ (List.forall_iff_forall_mem.mp (by
      simp only [hostOps0, hostOps1, hostOps2, hostOps3, hostOps4, hostOps5, hostOps6, hostOps7, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans (at2_v1 m ρ c)

theorem at3_v3 : W3 m ρ c (Proc.devRef .tc main_v3) = (Cert.Net.dst (m ((c : Thread nD τ).loc main_arg2))) :=
  (show StableHlo.after hostOps1 (W2 m ρ c) (Proc.devRef .tc main_v3) = W2 m ρ c (Proc.devRef .tc main_v3) from
    (StableHlo.after_of_forall_not_mem _ _ (List.forall_iff_forall_mem.mp (by
      simp only [hostOps0, hostOps1, hostOps2, hostOps3, hostOps4, hostOps5, hostOps6, hostOps7, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans (at2_v3 m ρ c)

theorem at3_arg0 : W3 m ρ c (Proc.devRef .tc main_arg0) = (m ((c : Thread nD τ).loc main_arg0)) :=
  (show StableHlo.after hostOps1 (W2 m ρ c) (Proc.devRef .tc main_arg0) = W2 m ρ c (Proc.devRef .tc main_arg0) from
    (StableHlo.after_of_forall_not_mem _ _ (List.forall_iff_forall_mem.mp (by
      simp only [hostOps0, hostOps1, hostOps2, hostOps3, hostOps4, hostOps5, hostOps6, hostOps7, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans (at2_arg0 m ρ c)

theorem at3_arg1 : W3 m ρ c (Proc.devRef .tc main_arg1) = (m ((c : Thread nD τ).loc main_arg1)) :=
  (show StableHlo.after hostOps1 (W2 m ρ c) (Proc.devRef .tc main_arg1) = W2 m ρ c (Proc.devRef .tc main_arg1) from
    (StableHlo.after_of_forall_not_mem _ _ (List.forall_iff_forall_mem.mp (by
      simp only [hostOps0, hostOps1, hostOps2, hostOps3, hostOps4, hostOps5, hostOps6, hostOps7, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans (at2_arg1 m ρ c)

theorem at3_arg3 : W3 m ρ c (Proc.devRef .tc main_arg3) = (m ((c : Thread nD τ).loc main_arg3)) :=
  (show StableHlo.after hostOps1 (W2 m ρ c) (Proc.devRef .tc main_arg3) = W2 m ρ c (Proc.devRef .tc main_arg3) from
    (StableHlo.after_of_forall_not_mem _ _ (List.forall_iff_forall_mem.mp (by
      simp only [hostOps0, hostOps1, hostOps2, hostOps3, hostOps4, hostOps5, hostOps6, hostOps7, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans (at2_arg3 m ρ c)

theorem at3_arg4 : W3 m ρ c (Proc.devRef .tc main_arg4) = (m ((c : Thread nD τ).loc main_arg4)) :=
  (show StableHlo.after hostOps1 (W2 m ρ c) (Proc.devRef .tc main_arg4) = W2 m ρ c (Proc.devRef .tc main_arg4) from
    (StableHlo.after_of_forall_not_mem _ _ (List.forall_iff_forall_mem.mp (by
      simp only [hostOps0, hostOps1, hostOps2, hostOps3, hostOps4, hostOps5, hostOps6, hostOps7, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans (at2_arg4 m ρ c)

theorem at3_arg5 : W3 m ρ c (Proc.devRef .tc main_arg5) = (m ((c : Thread nD τ).loc main_arg5)) :=
  (show StableHlo.after hostOps1 (W2 m ρ c) (Proc.devRef .tc main_arg5) = W2 m ρ c (Proc.devRef .tc main_arg5) from
    (StableHlo.after_of_forall_not_mem _ _ (List.forall_iff_forall_mem.mp (by
      simp only [hostOps0, hostOps1, hostOps2, hostOps3, hostOps4, hostOps5, hostOps6, hostOps7, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans (at2_arg5 m ρ c)

theorem at3_arg6 : W3 m ρ c (Proc.devRef .tc main_arg6) = (m ((c : Thread nD τ).loc main_arg6)) :=
  (show StableHlo.after hostOps1 (W2 m ρ c) (Proc.devRef .tc main_arg6) = W2 m ρ c (Proc.devRef .tc main_arg6) from
    (StableHlo.after_of_forall_not_mem _ _ (List.forall_iff_forall_mem.mp (by
      simp only [hostOps0, hostOps1, hostOps2, hostOps3, hostOps4, hostOps5, hostOps6, hostOps7, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans (at2_arg6 m ρ c)

theorem at3_arg7 : W3 m ρ c (Proc.devRef .tc main_arg7) = (m ((c : Thread nD τ).loc main_arg7)) :=
  (show StableHlo.after hostOps1 (W2 m ρ c) (Proc.devRef .tc main_arg7) = W2 m ρ c (Proc.devRef .tc main_arg7) from
    (StableHlo.after_of_forall_not_mem _ _ (List.forall_iff_forall_mem.mp (by
      simp only [hostOps0, hostOps1, hostOps2, hostOps3, hostOps4, hostOps5, hostOps6, hostOps7, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans (at2_arg7 m ρ c)

theorem at3_arg8 : W3 m ρ c (Proc.devRef .tc main_arg8) = (m ((c : Thread nD τ).loc main_arg8)) :=
  (show StableHlo.after hostOps1 (W2 m ρ c) (Proc.devRef .tc main_arg8) = W2 m ρ c (Proc.devRef .tc main_arg8) from
    (StableHlo.after_of_forall_not_mem _ _ (List.forall_iff_forall_mem.mp (by
      simp only [hostOps0, hostOps1, hostOps2, hostOps3, hostOps4, hostOps5, hostOps6, hostOps7, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans (at2_arg8 m ρ c)

theorem at3_arg9 : W3 m ρ c (Proc.devRef .tc main_arg9) = (m ((c : Thread nD τ).loc main_arg9)) :=
  (show StableHlo.after hostOps1 (W2 m ρ c) (Proc.devRef .tc main_arg9) = W2 m ρ c (Proc.devRef .tc main_arg9) from
    (StableHlo.after_of_forall_not_mem _ _ (List.forall_iff_forall_mem.mp (by
      simp only [hostOps0, hostOps1, hostOps2, hostOps3, hostOps4, hostOps5, hostOps6, hostOps7, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans (at2_arg9 m ρ c)

theorem at3_arg10 : W3 m ρ c (Proc.devRef .tc main_arg10) = (m ((c : Thread nD τ).loc main_arg10)) :=
  (show StableHlo.after hostOps1 (W2 m ρ c) (Proc.devRef .tc main_arg10) = W2 m ρ c (Proc.devRef .tc main_arg10) from
    (StableHlo.after_of_forall_not_mem _ _ (List.forall_iff_forall_mem.mp (by
      simp only [hostOps0, hostOps1, hostOps2, hostOps3, hostOps4, hostOps5, hostOps6, hostOps7, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans (at2_arg10 m ρ c)

theorem at3_arg11 : W3 m ρ c (Proc.devRef .tc main_arg11) = (m ((c : Thread nD τ).loc main_arg11)) :=
  (show StableHlo.after hostOps1 (W2 m ρ c) (Proc.devRef .tc main_arg11) = W2 m ρ c (Proc.devRef .tc main_arg11) from
    (StableHlo.after_of_forall_not_mem _ _ (List.forall_iff_forall_mem.mp (by
      simp only [hostOps0, hostOps1, hostOps2, hostOps3, hostOps4, hostOps5, hostOps6, hostOps7, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans (at2_arg11 m ρ c)

theorem at3_arg12 : W3 m ρ c (Proc.devRef .tc main_arg12) = (m ((c : Thread nD τ).loc main_arg12)) :=
  (show StableHlo.after hostOps1 (W2 m ρ c) (Proc.devRef .tc main_arg12) = W2 m ρ c (Proc.devRef .tc main_arg12) from
    (StableHlo.after_of_forall_not_mem _ _ (List.forall_iff_forall_mem.mp (by
      simp only [hostOps0, hostOps1, hostOps2, hostOps3, hostOps4, hostOps5, hostOps6, hostOps7, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans (at2_arg12 m ρ c)

theorem at3_v20 : W3 m ρ c (Proc.devRef .tc main_v20) = (Cert.Net.sca (Cert.Net.col (Cert.Net.dst (m ((c : Thread nD τ).loc main_arg2)))) (Cert.Layer.msg (Cert.Net.gat (m ((c : Thread nD τ).loc main_arg0)) (Cert.Net.wrap (Cert.Net.src (m ((c : Thread nD τ).loc main_arg2))))) (m ((c : Thread nD τ).loc main_arg1)) (Cert.Net.wRow (m ((c : Thread nD τ).loc main_arg7)) 0 Cert.ReferenceIdeal.Facts₀.slices_S3x1x128_S1x1x128_0_0_0) (Cert.Net.bRow (m ((c : Thread nD τ).loc main_arg8)) 0 Cert.ReferenceIdeal.Facts₀.slices_S3x128_S1x128_0_0))) :=
  by
    show StableHlo.after hostOps1 (W2 m ρ c) (Proc.devRef .tc main_v20) = _
    dsimp only [hostOps1]
    after_results
    rw [at2_v3 m ρ c, at2_v17 m ρ c]
    rfl

theorem at3_v22 : W3 m ρ c (Proc.devRef .tc main_v22) = (Cert.Net.mat (m ((c : Thread nD τ).loc main_arg3)) 0 Cert.ReferenceIdeal.Facts₀.slices_S3x128x128_S1x128x128_0_0_0) :=
  by
    show StableHlo.after hostOps1 (W2 m ρ c) (Proc.devRef .tc main_v22) = _
    dsimp only [hostOps1]
    after_results
    rw [at2_arg3 m ρ c]
    rfl

theorem at3_v29 : W3 m ρ c (Proc.devRef .tc main_v29) = (Cert.Net.bRow (m ((c : Thread nD τ).loc main_arg4)) 0 Cert.ReferenceIdeal.Facts₀.slices_S3x128_S1x128_0_0) :=
  by
    show StableHlo.after hostOps1 (W2 m ρ c) (Proc.devRef .tc main_v29) = _
    dsimp only [hostOps1]
    after_results
    rw [at2_arg4 m ρ c]
    exact Cert.LibRowCast.row_eq (shapeCast Cert.KernelIdeal.S128 (extractStridedSlice Cert.KernelIdeal.S1x128 ![0, 0] (m ((c : Thread nD τ).loc main_arg4)) Cert.KernelIdeal.Facts₀.slices_S3x128_S1x128_0_0) Cert.KernelIdeal.Facts₀.shapeCasts_S1x128_S128) Cert.KernelIdeal.Facts₀.shapeCasts_S128_S1x128 Cert.ReferenceIdeal.Facts₀.bcast_S128_S1x128_1

theorem at3_v26 : W3 m ρ c (Proc.devRef .tc main_v26) = (Cert.Net.mat (m ((c : Thread nD τ).loc main_arg5)) 0 Cert.ReferenceIdeal.Facts₀.slices_S3x128x128_S1x128x128_0_0_0) :=
  by
    show StableHlo.after hostOps1 (W2 m ρ c) (Proc.devRef .tc main_v26) = _
    dsimp only [hostOps1]
    after_results
    rw [at2_arg5 m ρ c]
    rfl

theorem at3_v30 : W3 m ρ c (Proc.devRef .tc main_v30) = (Cert.Net.bRow (m ((c : Thread nD τ).loc main_arg6)) 0 Cert.ReferenceIdeal.Facts₀.slices_S3x128_S1x128_0_0) :=
  by
    show StableHlo.after hostOps1 (W2 m ρ c) (Proc.devRef .tc main_v30) = _
    dsimp only [hostOps1]
    after_results
    rw [at2_arg6 m ρ c]
    exact Cert.LibRowCast.row_eq (shapeCast Cert.KernelIdeal.S128 (extractStridedSlice Cert.KernelIdeal.S1x128 ![0, 0] (m ((c : Thread nD τ).loc main_arg6)) Cert.KernelIdeal.Facts₀.slices_S3x128_S1x128_0_0) Cert.KernelIdeal.Facts₀.shapeCasts_S1x128_S128) Cert.KernelIdeal.Facts₀.shapeCasts_S128_S1x128 Cert.ReferenceIdeal.Facts₀.bcast_S128_S1x128_1

theorem at4_v1 : W4 m ρ c (Proc.devRef .tc main_v1) = (Cert.Net.src (m ((c : Thread nD τ).loc main_arg2))) :=
  (Cert.Exits.thru1 m ρ c main_v1 (by decide)).trans (at3_v1 m ρ c)

theorem at4_v3 : W4 m ρ c (Proc.devRef .tc main_v3) = (Cert.Net.dst (m ((c : Thread nD τ).loc main_arg2))) :=
  (Cert.Exits.thru1 m ρ c main_v3 (by decide)).trans (at3_v3 m ρ c)

theorem at4_arg1 : W4 m ρ c (Proc.devRef .tc main_arg1) = (m ((c : Thread nD τ).loc main_arg1)) :=
  (Cert.Exits.thru1 m ρ c main_arg1 (by decide)).trans (at3_arg1 m ρ c)

theorem at4_arg3 : W4 m ρ c (Proc.devRef .tc main_arg3) = (m ((c : Thread nD τ).loc main_arg3)) :=
  (Cert.Exits.thru1 m ρ c main_arg3 (by decide)).trans (at3_arg3 m ρ c)

theorem at4_arg4 : W4 m ρ c (Proc.devRef .tc main_arg4) = (m ((c : Thread nD τ).loc main_arg4)) :=
  (Cert.Exits.thru1 m ρ c main_arg4 (by decide)).trans (at3_arg4 m ρ c)

theorem at4_arg5 : W4 m ρ c (Proc.devRef .tc main_arg5) = (m ((c : Thread nD τ).loc main_arg5)) :=
  (Cert.Exits.thru1 m ρ c main_arg5 (by decide)).trans (at3_arg5 m ρ c)

theorem at4_arg6 : W4 m ρ c (Proc.devRef .tc main_arg6) = (m ((c : Thread nD τ).loc main_arg6)) :=
  (Cert.Exits.thru1 m ρ c main_arg6 (by decide)).trans (at3_arg6 m ρ c)

theorem at4_arg7 : W4 m ρ c (Proc.devRef .tc main_arg7) = (m ((c : Thread nD τ).loc main_arg7)) :=
  (Cert.Exits.thru1 m ρ c main_arg7 (by decide)).trans (at3_arg7 m ρ c)

theorem at4_arg8 : W4 m ρ c (Proc.devRef .tc main_arg8) = (m ((c : Thread nD τ).loc main_arg8)) :=
  (Cert.Exits.thru1 m ρ c main_arg8 (by decide)).trans (at3_arg8 m ρ c)

theorem at4_arg9 : W4 m ρ c (Proc.devRef .tc main_arg9) = (m ((c : Thread nD τ).loc main_arg9)) :=
  (Cert.Exits.thru1 m ρ c main_arg9 (by decide)).trans (at3_arg9 m ρ c)

theorem at4_arg10 : W4 m ρ c (Proc.devRef .tc main_arg10) = (m ((c : Thread nD τ).loc main_arg10)) :=
  (Cert.Exits.thru1 m ρ c main_arg10 (by decide)).trans (at3_arg10 m ρ c)

theorem at4_arg11 : W4 m ρ c (Proc.devRef .tc main_arg11) = (m ((c : Thread nD τ).loc main_arg11)) :=
  (Cert.Exits.thru1 m ρ c main_arg11 (by decide)).trans (at3_arg11 m ρ c)

theorem at4_arg12 : W4 m ρ c (Proc.devRef .tc main_arg12) = (m ((c : Thread nD τ).loc main_arg12)) :=
  (Cert.Exits.thru1 m ρ c main_arg12 (by decide)).trans (at3_arg12 m ρ c)

theorem at4_v31 : W4 m ρ c (Proc.devRef .tc main_v31) = (Cert.Net.x1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :=
  (Cert.Exits.exit1 m ρ c).trans (by
    rw [at3_arg0 m ρ c, at3_v20 m ρ c, at3_v22 m ρ c, at3_v29 m ρ c, at3_v26 m ρ c, at3_v30 m ρ c]
    rfl)

theorem at5_v1 : W5 m ρ c (Proc.devRef .tc main_v1) = (Cert.Net.src (m ((c : Thread nD τ).loc main_arg2))) :=
  (show StableHlo.after hostOps2 (W4 m ρ c) (Proc.devRef .tc main_v1) = W4 m ρ c (Proc.devRef .tc main_v1) from
    (StableHlo.after_of_forall_not_mem _ _ (List.forall_iff_forall_mem.mp (by
      simp only [hostOps0, hostOps1, hostOps2, hostOps3, hostOps4, hostOps5, hostOps6, hostOps7, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans (at4_v1 m ρ c)

theorem at5_v3 : W5 m ρ c (Proc.devRef .tc main_v3) = (Cert.Net.dst (m ((c : Thread nD τ).loc main_arg2))) :=
  (show StableHlo.after hostOps2 (W4 m ρ c) (Proc.devRef .tc main_v3) = W4 m ρ c (Proc.devRef .tc main_v3) from
    (StableHlo.after_of_forall_not_mem _ _ (List.forall_iff_forall_mem.mp (by
      simp only [hostOps0, hostOps1, hostOps2, hostOps3, hostOps4, hostOps5, hostOps6, hostOps7, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans (at4_v3 m ρ c)

theorem at5_v31 : W5 m ρ c (Proc.devRef .tc main_v31) = (Cert.Net.x1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :=
  (show StableHlo.after hostOps2 (W4 m ρ c) (Proc.devRef .tc main_v31) = W4 m ρ c (Proc.devRef .tc main_v31) from
    (StableHlo.after_of_forall_not_mem _ _ (List.forall_iff_forall_mem.mp (by
      simp only [hostOps0, hostOps1, hostOps2, hostOps3, hostOps4, hostOps5, hostOps6, hostOps7, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans (at4_v31 m ρ c)

theorem at5_arg1 : W5 m ρ c (Proc.devRef .tc main_arg1) = (m ((c : Thread nD τ).loc main_arg1)) :=
  (show StableHlo.after hostOps2 (W4 m ρ c) (Proc.devRef .tc main_arg1) = W4 m ρ c (Proc.devRef .tc main_arg1) from
    (StableHlo.after_of_forall_not_mem _ _ (List.forall_iff_forall_mem.mp (by
      simp only [hostOps0, hostOps1, hostOps2, hostOps3, hostOps4, hostOps5, hostOps6, hostOps7, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans (at4_arg1 m ρ c)

theorem at5_arg3 : W5 m ρ c (Proc.devRef .tc main_arg3) = (m ((c : Thread nD τ).loc main_arg3)) :=
  (show StableHlo.after hostOps2 (W4 m ρ c) (Proc.devRef .tc main_arg3) = W4 m ρ c (Proc.devRef .tc main_arg3) from
    (StableHlo.after_of_forall_not_mem _ _ (List.forall_iff_forall_mem.mp (by
      simp only [hostOps0, hostOps1, hostOps2, hostOps3, hostOps4, hostOps5, hostOps6, hostOps7, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans (at4_arg3 m ρ c)

theorem at5_arg4 : W5 m ρ c (Proc.devRef .tc main_arg4) = (m ((c : Thread nD τ).loc main_arg4)) :=
  (show StableHlo.after hostOps2 (W4 m ρ c) (Proc.devRef .tc main_arg4) = W4 m ρ c (Proc.devRef .tc main_arg4) from
    (StableHlo.after_of_forall_not_mem _ _ (List.forall_iff_forall_mem.mp (by
      simp only [hostOps0, hostOps1, hostOps2, hostOps3, hostOps4, hostOps5, hostOps6, hostOps7, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans (at4_arg4 m ρ c)

theorem at5_arg5 : W5 m ρ c (Proc.devRef .tc main_arg5) = (m ((c : Thread nD τ).loc main_arg5)) :=
  (show StableHlo.after hostOps2 (W4 m ρ c) (Proc.devRef .tc main_arg5) = W4 m ρ c (Proc.devRef .tc main_arg5) from
    (StableHlo.after_of_forall_not_mem _ _ (List.forall_iff_forall_mem.mp (by
      simp only [hostOps0, hostOps1, hostOps2, hostOps3, hostOps4, hostOps5, hostOps6, hostOps7, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans (at4_arg5 m ρ c)

theorem at5_arg6 : W5 m ρ c (Proc.devRef .tc main_arg6) = (m ((c : Thread nD τ).loc main_arg6)) :=
  (show StableHlo.after hostOps2 (W4 m ρ c) (Proc.devRef .tc main_arg6) = W4 m ρ c (Proc.devRef .tc main_arg6) from
    (StableHlo.after_of_forall_not_mem _ _ (List.forall_iff_forall_mem.mp (by
      simp only [hostOps0, hostOps1, hostOps2, hostOps3, hostOps4, hostOps5, hostOps6, hostOps7, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans (at4_arg6 m ρ c)

theorem at5_arg7 : W5 m ρ c (Proc.devRef .tc main_arg7) = (m ((c : Thread nD τ).loc main_arg7)) :=
  (show StableHlo.after hostOps2 (W4 m ρ c) (Proc.devRef .tc main_arg7) = W4 m ρ c (Proc.devRef .tc main_arg7) from
    (StableHlo.after_of_forall_not_mem _ _ (List.forall_iff_forall_mem.mp (by
      simp only [hostOps0, hostOps1, hostOps2, hostOps3, hostOps4, hostOps5, hostOps6, hostOps7, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans (at4_arg7 m ρ c)

theorem at5_arg8 : W5 m ρ c (Proc.devRef .tc main_arg8) = (m ((c : Thread nD τ).loc main_arg8)) :=
  (show StableHlo.after hostOps2 (W4 m ρ c) (Proc.devRef .tc main_arg8) = W4 m ρ c (Proc.devRef .tc main_arg8) from
    (StableHlo.after_of_forall_not_mem _ _ (List.forall_iff_forall_mem.mp (by
      simp only [hostOps0, hostOps1, hostOps2, hostOps3, hostOps4, hostOps5, hostOps6, hostOps7, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans (at4_arg8 m ρ c)

theorem at5_arg9 : W5 m ρ c (Proc.devRef .tc main_arg9) = (m ((c : Thread nD τ).loc main_arg9)) :=
  (show StableHlo.after hostOps2 (W4 m ρ c) (Proc.devRef .tc main_arg9) = W4 m ρ c (Proc.devRef .tc main_arg9) from
    (StableHlo.after_of_forall_not_mem _ _ (List.forall_iff_forall_mem.mp (by
      simp only [hostOps0, hostOps1, hostOps2, hostOps3, hostOps4, hostOps5, hostOps6, hostOps7, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans (at4_arg9 m ρ c)

theorem at5_arg10 : W5 m ρ c (Proc.devRef .tc main_arg10) = (m ((c : Thread nD τ).loc main_arg10)) :=
  (show StableHlo.after hostOps2 (W4 m ρ c) (Proc.devRef .tc main_arg10) = W4 m ρ c (Proc.devRef .tc main_arg10) from
    (StableHlo.after_of_forall_not_mem _ _ (List.forall_iff_forall_mem.mp (by
      simp only [hostOps0, hostOps1, hostOps2, hostOps3, hostOps4, hostOps5, hostOps6, hostOps7, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans (at4_arg10 m ρ c)

theorem at5_arg11 : W5 m ρ c (Proc.devRef .tc main_arg11) = (m ((c : Thread nD τ).loc main_arg11)) :=
  (show StableHlo.after hostOps2 (W4 m ρ c) (Proc.devRef .tc main_arg11) = W4 m ρ c (Proc.devRef .tc main_arg11) from
    (StableHlo.after_of_forall_not_mem _ _ (List.forall_iff_forall_mem.mp (by
      simp only [hostOps0, hostOps1, hostOps2, hostOps3, hostOps4, hostOps5, hostOps6, hostOps7, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans (at4_arg11 m ρ c)

theorem at5_arg12 : W5 m ρ c (Proc.devRef .tc main_arg12) = (m ((c : Thread nD τ).loc main_arg12)) :=
  (show StableHlo.after hostOps2 (W4 m ρ c) (Proc.devRef .tc main_arg12) = W4 m ρ c (Proc.devRef .tc main_arg12) from
    (StableHlo.after_of_forall_not_mem _ _ (List.forall_iff_forall_mem.mp (by
      simp only [hostOps0, hostOps1, hostOps2, hostOps3, hostOps4, hostOps5, hostOps6, hostOps7, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans (at4_arg12 m ρ c)

theorem at5_v38 : W5 m ρ c (Proc.devRef .tc main_v38) = (Cert.Net.gat (Cert.Net.x1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (Cert.Net.wrap (Cert.Net.src (m ((c : Thread nD τ).loc main_arg2))))) :=
  by
    show StableHlo.after hostOps2 (W4 m ρ c) (Proc.devRef .tc main_v38) = _
    dsimp only [hostOps2]
    after_results
    rw [at4_v31 m ρ c, at4_v1 m ρ c]
    rfl

theorem at5_v43 : W5 m ρ c (Proc.devRef .tc main_v43) = (Cert.Net.wRow (m ((c : Thread nD τ).loc main_arg7)) 1 Cert.ReferenceIdeal.Facts₀.slices_S3x1x128_S1x1x128_1_0_0) :=
  by
    show StableHlo.after hostOps2 (W4 m ρ c) (Proc.devRef .tc main_v43) = _
    dsimp only [hostOps2]
    after_results
    rw [at4_arg7 m ρ c]
    exact Cert.LibRowCast.shapeCast_comp (extractStridedSlice Cert.KernelIdeal.S1x1x128 ![1, 0, 0] (m ((c : Thread nD τ).loc main_arg7)) Cert.KernelIdeal.Facts₀.slices_S3x1x128_S1x1x128_1_0_0) Cert.KernelIdeal.Facts₀.shapeCasts_S1x1x128_S128 Cert.KernelIdeal.Facts₀.shapeCasts_S128_S1x128 Cert.ReferenceIdeal.Facts₀.shapeCasts_S1x1x128_S1x128

theorem at5_v44 : W5 m ρ c (Proc.devRef .tc main_v44) = (Cert.Net.bRow (m ((c : Thread nD τ).loc main_arg8)) 1 Cert.ReferenceIdeal.Facts₀.slices_S3x128_S1x128_1_0) :=
  by
    show StableHlo.after hostOps2 (W4 m ρ c) (Proc.devRef .tc main_v44) = _
    dsimp only [hostOps2]
    after_results
    rw [at4_arg8 m ρ c]
    exact Cert.LibRowCast.row_eq (shapeCast Cert.KernelIdeal.S128 (extractStridedSlice Cert.KernelIdeal.S1x128 ![1, 0] (m ((c : Thread nD τ).loc main_arg8)) Cert.KernelIdeal.Facts₀.slices_S3x128_S1x128_1_0) Cert.KernelIdeal.Facts₀.shapeCasts_S1x128_S128) Cert.KernelIdeal.Facts₀.shapeCasts_S128_S1x128 Cert.ReferenceIdeal.Facts₀.bcast_S128_S1x128_1

theorem at6_v1 : W6 m ρ c (Proc.devRef .tc main_v1) = (Cert.Net.src (m ((c : Thread nD τ).loc main_arg2))) :=
  (Cert.Exits.thru2 m ρ c main_v1 (by decide)).trans (at5_v1 m ρ c)

theorem at6_v3 : W6 m ρ c (Proc.devRef .tc main_v3) = (Cert.Net.dst (m ((c : Thread nD τ).loc main_arg2))) :=
  (Cert.Exits.thru2 m ρ c main_v3 (by decide)).trans (at5_v3 m ρ c)

theorem at6_v31 : W6 m ρ c (Proc.devRef .tc main_v31) = (Cert.Net.x1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :=
  (Cert.Exits.thru2 m ρ c main_v31 (by decide)).trans (at5_v31 m ρ c)

theorem at6_arg1 : W6 m ρ c (Proc.devRef .tc main_arg1) = (m ((c : Thread nD τ).loc main_arg1)) :=
  (Cert.Exits.keep2_arg1 m ρ c).trans (at5_arg1 m ρ c)

theorem at6_arg3 : W6 m ρ c (Proc.devRef .tc main_arg3) = (m ((c : Thread nD τ).loc main_arg3)) :=
  (Cert.Exits.thru2 m ρ c main_arg3 (by decide)).trans (at5_arg3 m ρ c)

theorem at6_arg4 : W6 m ρ c (Proc.devRef .tc main_arg4) = (m ((c : Thread nD τ).loc main_arg4)) :=
  (Cert.Exits.thru2 m ρ c main_arg4 (by decide)).trans (at5_arg4 m ρ c)

theorem at6_arg5 : W6 m ρ c (Proc.devRef .tc main_arg5) = (m ((c : Thread nD τ).loc main_arg5)) :=
  (Cert.Exits.thru2 m ρ c main_arg5 (by decide)).trans (at5_arg5 m ρ c)

theorem at6_arg6 : W6 m ρ c (Proc.devRef .tc main_arg6) = (m ((c : Thread nD τ).loc main_arg6)) :=
  (Cert.Exits.thru2 m ρ c main_arg6 (by decide)).trans (at5_arg6 m ρ c)

theorem at6_arg7 : W6 m ρ c (Proc.devRef .tc main_arg7) = (m ((c : Thread nD τ).loc main_arg7)) :=
  (Cert.Exits.thru2 m ρ c main_arg7 (by decide)).trans (at5_arg7 m ρ c)

theorem at6_arg8 : W6 m ρ c (Proc.devRef .tc main_arg8) = (m ((c : Thread nD τ).loc main_arg8)) :=
  (Cert.Exits.thru2 m ρ c main_arg8 (by decide)).trans (at5_arg8 m ρ c)

theorem at6_arg9 : W6 m ρ c (Proc.devRef .tc main_arg9) = (m ((c : Thread nD τ).loc main_arg9)) :=
  (Cert.Exits.thru2 m ρ c main_arg9 (by decide)).trans (at5_arg9 m ρ c)

theorem at6_arg10 : W6 m ρ c (Proc.devRef .tc main_arg10) = (m ((c : Thread nD τ).loc main_arg10)) :=
  (Cert.Exits.thru2 m ρ c main_arg10 (by decide)).trans (at5_arg10 m ρ c)

theorem at6_arg11 : W6 m ρ c (Proc.devRef .tc main_arg11) = (m ((c : Thread nD τ).loc main_arg11)) :=
  (Cert.Exits.thru2 m ρ c main_arg11 (by decide)).trans (at5_arg11 m ρ c)

theorem at6_arg12 : W6 m ρ c (Proc.devRef .tc main_arg12) = (m ((c : Thread nD τ).loc main_arg12)) :=
  (Cert.Exits.thru2 m ρ c main_arg12 (by decide)).trans (at5_arg12 m ρ c)

theorem at6_v45 : W6 m ρ c (Proc.devRef .tc main_v45) = (Cert.Layer.msg (Cert.Net.gat (Cert.Net.x1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (Cert.Net.wrap (Cert.Net.src (m ((c : Thread nD τ).loc main_arg2))))) (m ((c : Thread nD τ).loc main_arg1)) (Cert.Net.wRow (m ((c : Thread nD τ).loc main_arg7)) 1 Cert.ReferenceIdeal.Facts₀.slices_S3x1x128_S1x1x128_1_0_0) (Cert.Net.bRow (m ((c : Thread nD τ).loc main_arg8)) 1 Cert.ReferenceIdeal.Facts₀.slices_S3x128_S1x128_1_0)) :=
  (Cert.Exits.exit2 m ρ c).trans (by
    rw [at5_v38 m ρ c, at5_arg1 m ρ c, at5_v43 m ρ c, at5_v44 m ρ c])

theorem at7_v1 : W7 m ρ c (Proc.devRef .tc main_v1) = (Cert.Net.src (m ((c : Thread nD τ).loc main_arg2))) :=
  (show StableHlo.after hostOps3 (W6 m ρ c) (Proc.devRef .tc main_v1) = W6 m ρ c (Proc.devRef .tc main_v1) from
    (StableHlo.after_of_forall_not_mem _ _ (List.forall_iff_forall_mem.mp (by
      simp only [hostOps0, hostOps1, hostOps2, hostOps3, hostOps4, hostOps5, hostOps6, hostOps7, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans (at6_v1 m ρ c)

theorem at7_v3 : W7 m ρ c (Proc.devRef .tc main_v3) = (Cert.Net.dst (m ((c : Thread nD τ).loc main_arg2))) :=
  (show StableHlo.after hostOps3 (W6 m ρ c) (Proc.devRef .tc main_v3) = W6 m ρ c (Proc.devRef .tc main_v3) from
    (StableHlo.after_of_forall_not_mem _ _ (List.forall_iff_forall_mem.mp (by
      simp only [hostOps0, hostOps1, hostOps2, hostOps3, hostOps4, hostOps5, hostOps6, hostOps7, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans (at6_v3 m ρ c)

theorem at7_v31 : W7 m ρ c (Proc.devRef .tc main_v31) = (Cert.Net.x1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :=
  (show StableHlo.after hostOps3 (W6 m ρ c) (Proc.devRef .tc main_v31) = W6 m ρ c (Proc.devRef .tc main_v31) from
    (StableHlo.after_of_forall_not_mem _ _ (List.forall_iff_forall_mem.mp (by
      simp only [hostOps0, hostOps1, hostOps2, hostOps3, hostOps4, hostOps5, hostOps6, hostOps7, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans (at6_v31 m ρ c)

theorem at7_arg1 : W7 m ρ c (Proc.devRef .tc main_arg1) = (m ((c : Thread nD τ).loc main_arg1)) :=
  (show StableHlo.after hostOps3 (W6 m ρ c) (Proc.devRef .tc main_arg1) = W6 m ρ c (Proc.devRef .tc main_arg1) from
    (StableHlo.after_of_forall_not_mem _ _ (List.forall_iff_forall_mem.mp (by
      simp only [hostOps0, hostOps1, hostOps2, hostOps3, hostOps4, hostOps5, hostOps6, hostOps7, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans (at6_arg1 m ρ c)

theorem at7_arg3 : W7 m ρ c (Proc.devRef .tc main_arg3) = (m ((c : Thread nD τ).loc main_arg3)) :=
  (show StableHlo.after hostOps3 (W6 m ρ c) (Proc.devRef .tc main_arg3) = W6 m ρ c (Proc.devRef .tc main_arg3) from
    (StableHlo.after_of_forall_not_mem _ _ (List.forall_iff_forall_mem.mp (by
      simp only [hostOps0, hostOps1, hostOps2, hostOps3, hostOps4, hostOps5, hostOps6, hostOps7, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans (at6_arg3 m ρ c)

theorem at7_arg4 : W7 m ρ c (Proc.devRef .tc main_arg4) = (m ((c : Thread nD τ).loc main_arg4)) :=
  (show StableHlo.after hostOps3 (W6 m ρ c) (Proc.devRef .tc main_arg4) = W6 m ρ c (Proc.devRef .tc main_arg4) from
    (StableHlo.after_of_forall_not_mem _ _ (List.forall_iff_forall_mem.mp (by
      simp only [hostOps0, hostOps1, hostOps2, hostOps3, hostOps4, hostOps5, hostOps6, hostOps7, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans (at6_arg4 m ρ c)

theorem at7_arg5 : W7 m ρ c (Proc.devRef .tc main_arg5) = (m ((c : Thread nD τ).loc main_arg5)) :=
  (show StableHlo.after hostOps3 (W6 m ρ c) (Proc.devRef .tc main_arg5) = W6 m ρ c (Proc.devRef .tc main_arg5) from
    (StableHlo.after_of_forall_not_mem _ _ (List.forall_iff_forall_mem.mp (by
      simp only [hostOps0, hostOps1, hostOps2, hostOps3, hostOps4, hostOps5, hostOps6, hostOps7, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans (at6_arg5 m ρ c)

theorem at7_arg6 : W7 m ρ c (Proc.devRef .tc main_arg6) = (m ((c : Thread nD τ).loc main_arg6)) :=
  (show StableHlo.after hostOps3 (W6 m ρ c) (Proc.devRef .tc main_arg6) = W6 m ρ c (Proc.devRef .tc main_arg6) from
    (StableHlo.after_of_forall_not_mem _ _ (List.forall_iff_forall_mem.mp (by
      simp only [hostOps0, hostOps1, hostOps2, hostOps3, hostOps4, hostOps5, hostOps6, hostOps7, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans (at6_arg6 m ρ c)

theorem at7_arg7 : W7 m ρ c (Proc.devRef .tc main_arg7) = (m ((c : Thread nD τ).loc main_arg7)) :=
  (show StableHlo.after hostOps3 (W6 m ρ c) (Proc.devRef .tc main_arg7) = W6 m ρ c (Proc.devRef .tc main_arg7) from
    (StableHlo.after_of_forall_not_mem _ _ (List.forall_iff_forall_mem.mp (by
      simp only [hostOps0, hostOps1, hostOps2, hostOps3, hostOps4, hostOps5, hostOps6, hostOps7, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans (at6_arg7 m ρ c)

theorem at7_arg8 : W7 m ρ c (Proc.devRef .tc main_arg8) = (m ((c : Thread nD τ).loc main_arg8)) :=
  (show StableHlo.after hostOps3 (W6 m ρ c) (Proc.devRef .tc main_arg8) = W6 m ρ c (Proc.devRef .tc main_arg8) from
    (StableHlo.after_of_forall_not_mem _ _ (List.forall_iff_forall_mem.mp (by
      simp only [hostOps0, hostOps1, hostOps2, hostOps3, hostOps4, hostOps5, hostOps6, hostOps7, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans (at6_arg8 m ρ c)

theorem at7_arg9 : W7 m ρ c (Proc.devRef .tc main_arg9) = (m ((c : Thread nD τ).loc main_arg9)) :=
  (show StableHlo.after hostOps3 (W6 m ρ c) (Proc.devRef .tc main_arg9) = W6 m ρ c (Proc.devRef .tc main_arg9) from
    (StableHlo.after_of_forall_not_mem _ _ (List.forall_iff_forall_mem.mp (by
      simp only [hostOps0, hostOps1, hostOps2, hostOps3, hostOps4, hostOps5, hostOps6, hostOps7, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans (at6_arg9 m ρ c)

theorem at7_arg10 : W7 m ρ c (Proc.devRef .tc main_arg10) = (m ((c : Thread nD τ).loc main_arg10)) :=
  (show StableHlo.after hostOps3 (W6 m ρ c) (Proc.devRef .tc main_arg10) = W6 m ρ c (Proc.devRef .tc main_arg10) from
    (StableHlo.after_of_forall_not_mem _ _ (List.forall_iff_forall_mem.mp (by
      simp only [hostOps0, hostOps1, hostOps2, hostOps3, hostOps4, hostOps5, hostOps6, hostOps7, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans (at6_arg10 m ρ c)

theorem at7_arg11 : W7 m ρ c (Proc.devRef .tc main_arg11) = (m ((c : Thread nD τ).loc main_arg11)) :=
  (show StableHlo.after hostOps3 (W6 m ρ c) (Proc.devRef .tc main_arg11) = W6 m ρ c (Proc.devRef .tc main_arg11) from
    (StableHlo.after_of_forall_not_mem _ _ (List.forall_iff_forall_mem.mp (by
      simp only [hostOps0, hostOps1, hostOps2, hostOps3, hostOps4, hostOps5, hostOps6, hostOps7, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans (at6_arg11 m ρ c)

theorem at7_arg12 : W7 m ρ c (Proc.devRef .tc main_arg12) = (m ((c : Thread nD τ).loc main_arg12)) :=
  (show StableHlo.after hostOps3 (W6 m ρ c) (Proc.devRef .tc main_arg12) = W6 m ρ c (Proc.devRef .tc main_arg12) from
    (StableHlo.after_of_forall_not_mem _ _ (List.forall_iff_forall_mem.mp (by
      simp only [hostOps0, hostOps1, hostOps2, hostOps3, hostOps4, hostOps5, hostOps6, hostOps7, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans (at6_arg12 m ρ c)

theorem at7_v48 : W7 m ρ c (Proc.devRef .tc main_v48) = (Cert.Net.sca (Cert.Net.col (Cert.Net.dst (m ((c : Thread nD τ).loc main_arg2)))) (Cert.Layer.msg (Cert.Net.gat (Cert.Net.x1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (Cert.Net.wrap (Cert.Net.src (m ((c : Thread nD τ).loc main_arg2))))) (m ((c : Thread nD τ).loc main_arg1)) (Cert.Net.wRow (m ((c : Thread nD τ).loc main_arg7)) 1 Cert.ReferenceIdeal.Facts₀.slices_S3x1x128_S1x1x128_1_0_0) (Cert.Net.bRow (m ((c : Thread nD τ).loc main_arg8)) 1 Cert.ReferenceIdeal.Facts₀.slices_S3x128_S1x128_1_0))) :=
  by
    show StableHlo.after hostOps3 (W6 m ρ c) (Proc.devRef .tc main_v48) = _
    dsimp only [hostOps3]
    after_results
    rw [at6_v3 m ρ c, at6_v45 m ρ c]
    rfl

theorem at7_v50 : W7 m ρ c (Proc.devRef .tc main_v50) = (Cert.Net.mat (m ((c : Thread nD τ).loc main_arg3)) 1 Cert.ReferenceIdeal.Facts₀.slices_S3x128x128_S1x128x128_1_0_0) :=
  by
    show StableHlo.after hostOps3 (W6 m ρ c) (Proc.devRef .tc main_v50) = _
    dsimp only [hostOps3]
    after_results
    rw [at6_arg3 m ρ c]
    rfl

theorem at7_v57 : W7 m ρ c (Proc.devRef .tc main_v57) = (Cert.Net.bRow (m ((c : Thread nD τ).loc main_arg4)) 1 Cert.ReferenceIdeal.Facts₀.slices_S3x128_S1x128_1_0) :=
  by
    show StableHlo.after hostOps3 (W6 m ρ c) (Proc.devRef .tc main_v57) = _
    dsimp only [hostOps3]
    after_results
    rw [at6_arg4 m ρ c]
    exact Cert.LibRowCast.row_eq (shapeCast Cert.KernelIdeal.S128 (extractStridedSlice Cert.KernelIdeal.S1x128 ![1, 0] (m ((c : Thread nD τ).loc main_arg4)) Cert.KernelIdeal.Facts₀.slices_S3x128_S1x128_1_0) Cert.KernelIdeal.Facts₀.shapeCasts_S1x128_S128) Cert.KernelIdeal.Facts₀.shapeCasts_S128_S1x128 Cert.ReferenceIdeal.Facts₀.bcast_S128_S1x128_1

theorem at7_v54 : W7 m ρ c (Proc.devRef .tc main_v54) = (Cert.Net.mat (m ((c : Thread nD τ).loc main_arg5)) 1 Cert.ReferenceIdeal.Facts₀.slices_S3x128x128_S1x128x128_1_0_0) :=
  by
    show StableHlo.after hostOps3 (W6 m ρ c) (Proc.devRef .tc main_v54) = _
    dsimp only [hostOps3]
    after_results
    rw [at6_arg5 m ρ c]
    rfl

theorem at7_v58 : W7 m ρ c (Proc.devRef .tc main_v58) = (Cert.Net.bRow (m ((c : Thread nD τ).loc main_arg6)) 1 Cert.ReferenceIdeal.Facts₀.slices_S3x128_S1x128_1_0) :=
  by
    show StableHlo.after hostOps3 (W6 m ρ c) (Proc.devRef .tc main_v58) = _
    dsimp only [hostOps3]
    after_results
    rw [at6_arg6 m ρ c]
    exact Cert.LibRowCast.row_eq (shapeCast Cert.KernelIdeal.S128 (extractStridedSlice Cert.KernelIdeal.S1x128 ![1, 0] (m ((c : Thread nD τ).loc main_arg6)) Cert.KernelIdeal.Facts₀.slices_S3x128_S1x128_1_0) Cert.KernelIdeal.Facts₀.shapeCasts_S1x128_S128) Cert.KernelIdeal.Facts₀.shapeCasts_S128_S1x128 Cert.ReferenceIdeal.Facts₀.bcast_S128_S1x128_1

theorem at8_v1 : W8 m ρ c (Proc.devRef .tc main_v1) = (Cert.Net.src (m ((c : Thread nD τ).loc main_arg2))) :=
  (Cert.Exits.thru3 m ρ c main_v1 (by decide)).trans (at7_v1 m ρ c)

theorem at8_v3 : W8 m ρ c (Proc.devRef .tc main_v3) = (Cert.Net.dst (m ((c : Thread nD τ).loc main_arg2))) :=
  (Cert.Exits.thru3 m ρ c main_v3 (by decide)).trans (at7_v3 m ρ c)

theorem at8_arg1 : W8 m ρ c (Proc.devRef .tc main_arg1) = (m ((c : Thread nD τ).loc main_arg1)) :=
  (Cert.Exits.thru3 m ρ c main_arg1 (by decide)).trans (at7_arg1 m ρ c)

theorem at8_arg3 : W8 m ρ c (Proc.devRef .tc main_arg3) = (m ((c : Thread nD τ).loc main_arg3)) :=
  (Cert.Exits.thru3 m ρ c main_arg3 (by decide)).trans (at7_arg3 m ρ c)

theorem at8_arg4 : W8 m ρ c (Proc.devRef .tc main_arg4) = (m ((c : Thread nD τ).loc main_arg4)) :=
  (Cert.Exits.thru3 m ρ c main_arg4 (by decide)).trans (at7_arg4 m ρ c)

theorem at8_arg5 : W8 m ρ c (Proc.devRef .tc main_arg5) = (m ((c : Thread nD τ).loc main_arg5)) :=
  (Cert.Exits.thru3 m ρ c main_arg5 (by decide)).trans (at7_arg5 m ρ c)

theorem at8_arg6 : W8 m ρ c (Proc.devRef .tc main_arg6) = (m ((c : Thread nD τ).loc main_arg6)) :=
  (Cert.Exits.thru3 m ρ c main_arg6 (by decide)).trans (at7_arg6 m ρ c)

theorem at8_arg7 : W8 m ρ c (Proc.devRef .tc main_arg7) = (m ((c : Thread nD τ).loc main_arg7)) :=
  (Cert.Exits.thru3 m ρ c main_arg7 (by decide)).trans (at7_arg7 m ρ c)

theorem at8_arg8 : W8 m ρ c (Proc.devRef .tc main_arg8) = (m ((c : Thread nD τ).loc main_arg8)) :=
  (Cert.Exits.thru3 m ρ c main_arg8 (by decide)).trans (at7_arg8 m ρ c)

theorem at8_arg9 : W8 m ρ c (Proc.devRef .tc main_arg9) = (m ((c : Thread nD τ).loc main_arg9)) :=
  (Cert.Exits.thru3 m ρ c main_arg9 (by decide)).trans (at7_arg9 m ρ c)

theorem at8_arg10 : W8 m ρ c (Proc.devRef .tc main_arg10) = (m ((c : Thread nD τ).loc main_arg10)) :=
  (Cert.Exits.thru3 m ρ c main_arg10 (by decide)).trans (at7_arg10 m ρ c)

theorem at8_arg11 : W8 m ρ c (Proc.devRef .tc main_arg11) = (m ((c : Thread nD τ).loc main_arg11)) :=
  (Cert.Exits.thru3 m ρ c main_arg11 (by decide)).trans (at7_arg11 m ρ c)

theorem at8_arg12 : W8 m ρ c (Proc.devRef .tc main_arg12) = (m ((c : Thread nD τ).loc main_arg12)) :=
  (Cert.Exits.thru3 m ρ c main_arg12 (by decide)).trans (at7_arg12 m ρ c)

theorem at8_v59 : W8 m ρ c (Proc.devRef .tc main_v59) = (Cert.Net.x2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :=
  (Cert.Exits.exit3 m ρ c).trans (by
    rw [at7_v31 m ρ c, at7_v48 m ρ c, at7_v50 m ρ c, at7_v57 m ρ c, at7_v54 m ρ c, at7_v58 m ρ c]
    rfl)

theorem at9_v1 : W9 m ρ c (Proc.devRef .tc main_v1) = (Cert.Net.src (m ((c : Thread nD τ).loc main_arg2))) :=
  (show StableHlo.after hostOps4 (W8 m ρ c) (Proc.devRef .tc main_v1) = W8 m ρ c (Proc.devRef .tc main_v1) from
    (StableHlo.after_of_forall_not_mem _ _ (List.forall_iff_forall_mem.mp (by
      simp only [hostOps0, hostOps1, hostOps2, hostOps3, hostOps4, hostOps5, hostOps6, hostOps7, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans (at8_v1 m ρ c)

theorem at9_v3 : W9 m ρ c (Proc.devRef .tc main_v3) = (Cert.Net.dst (m ((c : Thread nD τ).loc main_arg2))) :=
  (show StableHlo.after hostOps4 (W8 m ρ c) (Proc.devRef .tc main_v3) = W8 m ρ c (Proc.devRef .tc main_v3) from
    (StableHlo.after_of_forall_not_mem _ _ (List.forall_iff_forall_mem.mp (by
      simp only [hostOps0, hostOps1, hostOps2, hostOps3, hostOps4, hostOps5, hostOps6, hostOps7, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans (at8_v3 m ρ c)

theorem at9_v59 : W9 m ρ c (Proc.devRef .tc main_v59) = (Cert.Net.x2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :=
  (show StableHlo.after hostOps4 (W8 m ρ c) (Proc.devRef .tc main_v59) = W8 m ρ c (Proc.devRef .tc main_v59) from
    (StableHlo.after_of_forall_not_mem _ _ (List.forall_iff_forall_mem.mp (by
      simp only [hostOps0, hostOps1, hostOps2, hostOps3, hostOps4, hostOps5, hostOps6, hostOps7, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans (at8_v59 m ρ c)

theorem at9_arg1 : W9 m ρ c (Proc.devRef .tc main_arg1) = (m ((c : Thread nD τ).loc main_arg1)) :=
  (show StableHlo.after hostOps4 (W8 m ρ c) (Proc.devRef .tc main_arg1) = W8 m ρ c (Proc.devRef .tc main_arg1) from
    (StableHlo.after_of_forall_not_mem _ _ (List.forall_iff_forall_mem.mp (by
      simp only [hostOps0, hostOps1, hostOps2, hostOps3, hostOps4, hostOps5, hostOps6, hostOps7, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans (at8_arg1 m ρ c)

theorem at9_arg3 : W9 m ρ c (Proc.devRef .tc main_arg3) = (m ((c : Thread nD τ).loc main_arg3)) :=
  (show StableHlo.after hostOps4 (W8 m ρ c) (Proc.devRef .tc main_arg3) = W8 m ρ c (Proc.devRef .tc main_arg3) from
    (StableHlo.after_of_forall_not_mem _ _ (List.forall_iff_forall_mem.mp (by
      simp only [hostOps0, hostOps1, hostOps2, hostOps3, hostOps4, hostOps5, hostOps6, hostOps7, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans (at8_arg3 m ρ c)

theorem at9_arg4 : W9 m ρ c (Proc.devRef .tc main_arg4) = (m ((c : Thread nD τ).loc main_arg4)) :=
  (show StableHlo.after hostOps4 (W8 m ρ c) (Proc.devRef .tc main_arg4) = W8 m ρ c (Proc.devRef .tc main_arg4) from
    (StableHlo.after_of_forall_not_mem _ _ (List.forall_iff_forall_mem.mp (by
      simp only [hostOps0, hostOps1, hostOps2, hostOps3, hostOps4, hostOps5, hostOps6, hostOps7, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans (at8_arg4 m ρ c)

theorem at9_arg5 : W9 m ρ c (Proc.devRef .tc main_arg5) = (m ((c : Thread nD τ).loc main_arg5)) :=
  (show StableHlo.after hostOps4 (W8 m ρ c) (Proc.devRef .tc main_arg5) = W8 m ρ c (Proc.devRef .tc main_arg5) from
    (StableHlo.after_of_forall_not_mem _ _ (List.forall_iff_forall_mem.mp (by
      simp only [hostOps0, hostOps1, hostOps2, hostOps3, hostOps4, hostOps5, hostOps6, hostOps7, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans (at8_arg5 m ρ c)

theorem at9_arg6 : W9 m ρ c (Proc.devRef .tc main_arg6) = (m ((c : Thread nD τ).loc main_arg6)) :=
  (show StableHlo.after hostOps4 (W8 m ρ c) (Proc.devRef .tc main_arg6) = W8 m ρ c (Proc.devRef .tc main_arg6) from
    (StableHlo.after_of_forall_not_mem _ _ (List.forall_iff_forall_mem.mp (by
      simp only [hostOps0, hostOps1, hostOps2, hostOps3, hostOps4, hostOps5, hostOps6, hostOps7, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans (at8_arg6 m ρ c)

theorem at9_arg9 : W9 m ρ c (Proc.devRef .tc main_arg9) = (m ((c : Thread nD τ).loc main_arg9)) :=
  (show StableHlo.after hostOps4 (W8 m ρ c) (Proc.devRef .tc main_arg9) = W8 m ρ c (Proc.devRef .tc main_arg9) from
    (StableHlo.after_of_forall_not_mem _ _ (List.forall_iff_forall_mem.mp (by
      simp only [hostOps0, hostOps1, hostOps2, hostOps3, hostOps4, hostOps5, hostOps6, hostOps7, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans (at8_arg9 m ρ c)

theorem at9_arg10 : W9 m ρ c (Proc.devRef .tc main_arg10) = (m ((c : Thread nD τ).loc main_arg10)) :=
  (show StableHlo.after hostOps4 (W8 m ρ c) (Proc.devRef .tc main_arg10) = W8 m ρ c (Proc.devRef .tc main_arg10) from
    (StableHlo.after_of_forall_not_mem _ _ (List.forall_iff_forall_mem.mp (by
      simp only [hostOps0, hostOps1, hostOps2, hostOps3, hostOps4, hostOps5, hostOps6, hostOps7, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans (at8_arg10 m ρ c)

theorem at9_arg11 : W9 m ρ c (Proc.devRef .tc main_arg11) = (m ((c : Thread nD τ).loc main_arg11)) :=
  (show StableHlo.after hostOps4 (W8 m ρ c) (Proc.devRef .tc main_arg11) = W8 m ρ c (Proc.devRef .tc main_arg11) from
    (StableHlo.after_of_forall_not_mem _ _ (List.forall_iff_forall_mem.mp (by
      simp only [hostOps0, hostOps1, hostOps2, hostOps3, hostOps4, hostOps5, hostOps6, hostOps7, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans (at8_arg11 m ρ c)

theorem at9_arg12 : W9 m ρ c (Proc.devRef .tc main_arg12) = (m ((c : Thread nD τ).loc main_arg12)) :=
  (show StableHlo.after hostOps4 (W8 m ρ c) (Proc.devRef .tc main_arg12) = W8 m ρ c (Proc.devRef .tc main_arg12) from
    (StableHlo.after_of_forall_not_mem _ _ (List.forall_iff_forall_mem.mp (by
      simp only [hostOps0, hostOps1, hostOps2, hostOps3, hostOps4, hostOps5, hostOps6, hostOps7, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans (at8_arg12 m ρ c)

/-- Host stretch 4's gather, over any contents: the rows of one buffer at the wrapped entries of another. -/
theorem host4_v66 (W : Valuation τ sig (Elt Ideal)) :
    StableHlo.after hostOps4 W (Proc.devRef .tc main_v66) = Cert.Net.gat (W (Proc.devRef .tc main_v59)) (Cert.Net.wrap (W (Proc.devRef .tc main_v1))) := by
  dsimp only [hostOps4]
  after_results
  rfl

theorem at9_v66 : W9 m ρ c (Proc.devRef .tc main_v66) = (Cert.Net.gat (Cert.Net.x2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (Cert.Net.wrap (Cert.Net.src (m ((c : Thread nD τ).loc main_arg2))))) :=
  (host4_v66 (W8 m ρ c)).trans
    (congrArg₂ (fun a b => Cert.Net.gat a (Cert.Net.wrap b)) (at8_v59 m ρ c) (at8_v1 m ρ c))

theorem at9_v71 : W9 m ρ c (Proc.devRef .tc main_v71) = (Cert.Net.wRow (m ((c : Thread nD τ).loc main_arg7)) 2 Cert.ReferenceIdeal.Facts₀.slices_S3x1x128_S1x1x128_2_0_0) :=
  by
    show StableHlo.after hostOps4 (W8 m ρ c) (Proc.devRef .tc main_v71) = _
    dsimp only [hostOps4]
    after_results
    rw [at8_arg7 m ρ c]
    exact Cert.LibRowCast.shapeCast_comp (extractStridedSlice Cert.KernelIdeal.S1x1x128 ![2, 0, 0] (m ((c : Thread nD τ).loc main_arg7)) Cert.KernelIdeal.Facts₀.slices_S3x1x128_S1x1x128_2_0_0) Cert.KernelIdeal.Facts₀.shapeCasts_S1x1x128_S128 Cert.KernelIdeal.Facts₀.shapeCasts_S128_S1x128 Cert.ReferenceIdeal.Facts₀.shapeCasts_S1x1x128_S1x128

theorem at9_v72 : W9 m ρ c (Proc.devRef .tc main_v72) = (Cert.Net.bRow (m ((c : Thread nD τ).loc main_arg8)) 2 Cert.ReferenceIdeal.Facts₀.slices_S3x128_S1x128_2_0) :=
  by
    show StableHlo.after hostOps4 (W8 m ρ c) (Proc.devRef .tc main_v72) = _
    dsimp only [hostOps4]
    after_results
    rw [at8_arg8 m ρ c]
    exact Cert.LibRowCast.row_eq (shapeCast Cert.KernelIdeal.S128 (extractStridedSlice Cert.KernelIdeal.S1x128 ![2, 0] (m ((c : Thread nD τ).loc main_arg8)) Cert.KernelIdeal.Facts₀.slices_S3x128_S1x128_2_0) Cert.KernelIdeal.Facts₀.shapeCasts_S1x128_S128) Cert.KernelIdeal.Facts₀.shapeCasts_S128_S1x128 Cert.ReferenceIdeal.Facts₀.bcast_S128_S1x128_1

theorem at10_v1 : W10 m ρ c (Proc.devRef .tc main_v1) = (Cert.Net.src (m ((c : Thread nD τ).loc main_arg2))) :=
  (Cert.Exits.thru4 m ρ c main_v1 (by decide)).trans (at9_v1 m ρ c)

theorem at10_v3 : W10 m ρ c (Proc.devRef .tc main_v3) = (Cert.Net.dst (m ((c : Thread nD τ).loc main_arg2))) :=
  (Cert.Exits.thru4 m ρ c main_v3 (by decide)).trans (at9_v3 m ρ c)

theorem at10_v59 : W10 m ρ c (Proc.devRef .tc main_v59) = (Cert.Net.x2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :=
  (Cert.Exits.thru4 m ρ c main_v59 (by decide)).trans (at9_v59 m ρ c)

theorem at10_arg3 : W10 m ρ c (Proc.devRef .tc main_arg3) = (m ((c : Thread nD τ).loc main_arg3)) :=
  (Cert.Exits.thru4 m ρ c main_arg3 (by decide)).trans (at9_arg3 m ρ c)

theorem at10_arg4 : W10 m ρ c (Proc.devRef .tc main_arg4) = (m ((c : Thread nD τ).loc main_arg4)) :=
  (Cert.Exits.thru4 m ρ c main_arg4 (by decide)).trans (at9_arg4 m ρ c)

theorem at10_arg5 : W10 m ρ c (Proc.devRef .tc main_arg5) = (m ((c : Thread nD τ).loc main_arg5)) :=
  (Cert.Exits.thru4 m ρ c main_arg5 (by decide)).trans (at9_arg5 m ρ c)

theorem at10_arg6 : W10 m ρ c (Proc.devRef .tc main_arg6) = (m ((c : Thread nD τ).loc main_arg6)) :=
  (Cert.Exits.thru4 m ρ c main_arg6 (by decide)).trans (at9_arg6 m ρ c)

theorem at10_arg9 : W10 m ρ c (Proc.devRef .tc main_arg9) = (m ((c : Thread nD τ).loc main_arg9)) :=
  (Cert.Exits.thru4 m ρ c main_arg9 (by decide)).trans (at9_arg9 m ρ c)

theorem at10_arg10 : W10 m ρ c (Proc.devRef .tc main_arg10) = (m ((c : Thread nD τ).loc main_arg10)) :=
  (Cert.Exits.thru4 m ρ c main_arg10 (by decide)).trans (at9_arg10 m ρ c)

theorem at10_arg11 : W10 m ρ c (Proc.devRef .tc main_arg11) = (m ((c : Thread nD τ).loc main_arg11)) :=
  (Cert.Exits.thru4 m ρ c main_arg11 (by decide)).trans (at9_arg11 m ρ c)

theorem at10_arg12 : W10 m ρ c (Proc.devRef .tc main_arg12) = (m ((c : Thread nD τ).loc main_arg12)) :=
  (Cert.Exits.thru4 m ρ c main_arg12 (by decide)).trans (at9_arg12 m ρ c)

theorem at10_v73 : W10 m ρ c (Proc.devRef .tc main_v73) = (Cert.Layer.msg (Cert.Net.gat (Cert.Net.x2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (Cert.Net.wrap (Cert.Net.src (m ((c : Thread nD τ).loc main_arg2))))) (m ((c : Thread nD τ).loc main_arg1)) (Cert.Net.wRow (m ((c : Thread nD τ).loc main_arg7)) 2 Cert.ReferenceIdeal.Facts₀.slices_S3x1x128_S1x1x128_2_0_0) (Cert.Net.bRow (m ((c : Thread nD τ).loc main_arg8)) 2 Cert.ReferenceIdeal.Facts₀.slices_S3x128_S1x128_2_0)) :=
  (Cert.Exits.exit4 m ρ c).trans (by
    rw [at9_v66 m ρ c, at9_arg1 m ρ c, at9_v71 m ρ c, at9_v72 m ρ c])

theorem at11_v1 : W11 m ρ c (Proc.devRef .tc main_v1) = (Cert.Net.src (m ((c : Thread nD τ).loc main_arg2))) :=
  (show StableHlo.after hostOps5 (W10 m ρ c) (Proc.devRef .tc main_v1) = W10 m ρ c (Proc.devRef .tc main_v1) from
    (StableHlo.after_of_forall_not_mem _ _ (List.forall_iff_forall_mem.mp (by
      simp only [hostOps0, hostOps1, hostOps2, hostOps3, hostOps4, hostOps5, hostOps6, hostOps7, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans (at10_v1 m ρ c)

theorem at11_v3 : W11 m ρ c (Proc.devRef .tc main_v3) = (Cert.Net.dst (m ((c : Thread nD τ).loc main_arg2))) :=
  (show StableHlo.after hostOps5 (W10 m ρ c) (Proc.devRef .tc main_v3) = W10 m ρ c (Proc.devRef .tc main_v3) from
    (StableHlo.after_of_forall_not_mem _ _ (List.forall_iff_forall_mem.mp (by
      simp only [hostOps0, hostOps1, hostOps2, hostOps3, hostOps4, hostOps5, hostOps6, hostOps7, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans (at10_v3 m ρ c)

theorem at11_v59 : W11 m ρ c (Proc.devRef .tc main_v59) = (Cert.Net.x2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :=
  (show StableHlo.after hostOps5 (W10 m ρ c) (Proc.devRef .tc main_v59) = W10 m ρ c (Proc.devRef .tc main_v59) from
    (StableHlo.after_of_forall_not_mem _ _ (List.forall_iff_forall_mem.mp (by
      simp only [hostOps0, hostOps1, hostOps2, hostOps3, hostOps4, hostOps5, hostOps6, hostOps7, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans (at10_v59 m ρ c)

theorem at11_arg9 : W11 m ρ c (Proc.devRef .tc main_arg9) = (m ((c : Thread nD τ).loc main_arg9)) :=
  (show StableHlo.after hostOps5 (W10 m ρ c) (Proc.devRef .tc main_arg9) = W10 m ρ c (Proc.devRef .tc main_arg9) from
    (StableHlo.after_of_forall_not_mem _ _ (List.forall_iff_forall_mem.mp (by
      simp only [hostOps0, hostOps1, hostOps2, hostOps3, hostOps4, hostOps5, hostOps6, hostOps7, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans (at10_arg9 m ρ c)

theorem at11_arg10 : W11 m ρ c (Proc.devRef .tc main_arg10) = (m ((c : Thread nD τ).loc main_arg10)) :=
  (show StableHlo.after hostOps5 (W10 m ρ c) (Proc.devRef .tc main_arg10) = W10 m ρ c (Proc.devRef .tc main_arg10) from
    (StableHlo.after_of_forall_not_mem _ _ (List.forall_iff_forall_mem.mp (by
      simp only [hostOps0, hostOps1, hostOps2, hostOps3, hostOps4, hostOps5, hostOps6, hostOps7, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans (at10_arg10 m ρ c)

theorem at11_arg11 : W11 m ρ c (Proc.devRef .tc main_arg11) = (m ((c : Thread nD τ).loc main_arg11)) :=
  (show StableHlo.after hostOps5 (W10 m ρ c) (Proc.devRef .tc main_arg11) = W10 m ρ c (Proc.devRef .tc main_arg11) from
    (StableHlo.after_of_forall_not_mem _ _ (List.forall_iff_forall_mem.mp (by
      simp only [hostOps0, hostOps1, hostOps2, hostOps3, hostOps4, hostOps5, hostOps6, hostOps7, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans (at10_arg11 m ρ c)

theorem at11_arg12 : W11 m ρ c (Proc.devRef .tc main_arg12) = (m ((c : Thread nD τ).loc main_arg12)) :=
  (show StableHlo.after hostOps5 (W10 m ρ c) (Proc.devRef .tc main_arg12) = W10 m ρ c (Proc.devRef .tc main_arg12) from
    (StableHlo.after_of_forall_not_mem _ _ (List.forall_iff_forall_mem.mp (by
      simp only [hostOps0, hostOps1, hostOps2, hostOps3, hostOps4, hostOps5, hostOps6, hostOps7, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans (at10_arg12 m ρ c)

theorem at11_v76 : W11 m ρ c (Proc.devRef .tc main_v76) = (Cert.Net.sca (Cert.Net.col (Cert.Net.dst (m ((c : Thread nD τ).loc main_arg2)))) (Cert.Layer.msg (Cert.Net.gat (Cert.Net.x2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (Cert.Net.wrap (Cert.Net.src (m ((c : Thread nD τ).loc main_arg2))))) (m ((c : Thread nD τ).loc main_arg1)) (Cert.Net.wRow (m ((c : Thread nD τ).loc main_arg7)) 2 Cert.ReferenceIdeal.Facts₀.slices_S3x1x128_S1x1x128_2_0_0) (Cert.Net.bRow (m ((c : Thread nD τ).loc main_arg8)) 2 Cert.ReferenceIdeal.Facts₀.slices_S3x128_S1x128_2_0))) :=
  by
    show StableHlo.after hostOps5 (W10 m ρ c) (Proc.devRef .tc main_v76) = _
    dsimp only [hostOps5]
    after_results
    rw [at10_v3 m ρ c, at10_v73 m ρ c]
    rfl

theorem at11_v78 : W11 m ρ c (Proc.devRef .tc main_v78) = (Cert.Net.mat (m ((c : Thread nD τ).loc main_arg3)) 2 Cert.ReferenceIdeal.Facts₀.slices_S3x128x128_S1x128x128_2_0_0) :=
  by
    show StableHlo.after hostOps5 (W10 m ρ c) (Proc.devRef .tc main_v78) = _
    dsimp only [hostOps5]
    after_results
    rw [at10_arg3 m ρ c]
    rfl

theorem at11_v85 : W11 m ρ c (Proc.devRef .tc main_v85) = (Cert.Net.bRow (m ((c : Thread nD τ).loc main_arg4)) 2 Cert.ReferenceIdeal.Facts₀.slices_S3x128_S1x128_2_0) :=
  by
    show StableHlo.after hostOps5 (W10 m ρ c) (Proc.devRef .tc main_v85) = _
    dsimp only [hostOps5]
    after_results
    rw [at10_arg4 m ρ c]
    exact Cert.LibRowCast.row_eq (shapeCast Cert.KernelIdeal.S128 (extractStridedSlice Cert.KernelIdeal.S1x128 ![2, 0] (m ((c : Thread nD τ).loc main_arg4)) Cert.KernelIdeal.Facts₀.slices_S3x128_S1x128_2_0) Cert.KernelIdeal.Facts₀.shapeCasts_S1x128_S128) Cert.KernelIdeal.Facts₀.shapeCasts_S128_S1x128 Cert.ReferenceIdeal.Facts₀.bcast_S128_S1x128_1

theorem at11_v82 : W11 m ρ c (Proc.devRef .tc main_v82) = (Cert.Net.mat (m ((c : Thread nD τ).loc main_arg5)) 2 Cert.ReferenceIdeal.Facts₀.slices_S3x128x128_S1x128x128_2_0_0) :=
  by
    show StableHlo.after hostOps5 (W10 m ρ c) (Proc.devRef .tc main_v82) = _
    dsimp only [hostOps5]
    after_results
    rw [at10_arg5 m ρ c]
    rfl

theorem at11_v86 : W11 m ρ c (Proc.devRef .tc main_v86) = (Cert.Net.bRow (m ((c : Thread nD τ).loc main_arg6)) 2 Cert.ReferenceIdeal.Facts₀.slices_S3x128_S1x128_2_0) :=
  by
    show StableHlo.after hostOps5 (W10 m ρ c) (Proc.devRef .tc main_v86) = _
    dsimp only [hostOps5]
    after_results
    rw [at10_arg6 m ρ c]
    exact Cert.LibRowCast.row_eq (shapeCast Cert.KernelIdeal.S128 (extractStridedSlice Cert.KernelIdeal.S1x128 ![2, 0] (m ((c : Thread nD τ).loc main_arg6)) Cert.KernelIdeal.Facts₀.slices_S3x128_S1x128_2_0) Cert.KernelIdeal.Facts₀.shapeCasts_S1x128_S128) Cert.KernelIdeal.Facts₀.shapeCasts_S128_S1x128 Cert.ReferenceIdeal.Facts₀.bcast_S128_S1x128_1

theorem at12_v1 : W12 m ρ c (Proc.devRef .tc main_v1) = (Cert.Net.src (m ((c : Thread nD τ).loc main_arg2))) :=
  (Cert.Exits.thru5 m ρ c main_v1 (by decide)).trans (at11_v1 m ρ c)

theorem at12_v3 : W12 m ρ c (Proc.devRef .tc main_v3) = (Cert.Net.dst (m ((c : Thread nD τ).loc main_arg2))) :=
  (Cert.Exits.thru5 m ρ c main_v3 (by decide)).trans (at11_v3 m ρ c)

theorem at12_arg9 : W12 m ρ c (Proc.devRef .tc main_arg9) = (m ((c : Thread nD τ).loc main_arg9)) :=
  (Cert.Exits.thru5 m ρ c main_arg9 (by decide)).trans (at11_arg9 m ρ c)

theorem at12_arg10 : W12 m ρ c (Proc.devRef .tc main_arg10) = (m ((c : Thread nD τ).loc main_arg10)) :=
  (Cert.Exits.thru5 m ρ c main_arg10 (by decide)).trans (at11_arg10 m ρ c)

theorem at12_arg11 : W12 m ρ c (Proc.devRef .tc main_arg11) = (m ((c : Thread nD τ).loc main_arg11)) :=
  (Cert.Exits.thru5 m ρ c main_arg11 (by decide)).trans (at11_arg11 m ρ c)

theorem at12_arg12 : W12 m ρ c (Proc.devRef .tc main_arg12) = (m ((c : Thread nD τ).loc main_arg12)) :=
  (Cert.Exits.thru5 m ρ c main_arg12 (by decide)).trans (at11_arg12 m ρ c)

theorem at12_v87 : W12 m ρ c (Proc.devRef .tc main_v87) = (Cert.Net.x3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :=
  (Cert.Exits.exit5 m ρ c).trans (by
    rw [at11_v59 m ρ c, at11_v76 m ρ c, at11_v78 m ρ c, at11_v85 m ρ c, at11_v82 m ρ c, at11_v86 m ρ c]
    rfl)

theorem at13_arg11 : W13 m ρ c (Proc.devRef .tc main_arg11) = (m ((c : Thread nD τ).loc main_arg11)) :=
  (show StableHlo.after hostOps6 (W12 m ρ c) (Proc.devRef .tc main_arg11) = W12 m ρ c (Proc.devRef .tc main_arg11) from
    (StableHlo.after_of_forall_not_mem _ _ (List.forall_iff_forall_mem.mp (by
      simp only [hostOps0, hostOps1, hostOps2, hostOps3, hostOps4, hostOps5, hostOps6, hostOps7, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans (at12_arg11 m ρ c)

/-- Host stretch 6's gather, over any contents: the rows of one buffer at the wrapped entries of another. -/
theorem host6_v94 (W : Valuation τ sig (Elt Ideal)) :
    StableHlo.after hostOps6 W (Proc.devRef .tc main_v94) = Cert.Net.gat (W (Proc.devRef .tc main_v87)) (Cert.Net.wrap (W (Proc.devRef .tc main_v1))) := by
  dsimp only [hostOps6]
  after_results
  rfl

theorem at13_v94 : W13 m ρ c (Proc.devRef .tc main_v94) = (Cert.Net.gat (Cert.Net.x3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (Cert.Net.wrap (Cert.Net.src (m ((c : Thread nD τ).loc main_arg2))))) :=
  (host6_v94 (W12 m ρ c)).trans
    (congrArg₂ (fun a b => Cert.Net.gat a (Cert.Net.wrap b)) (at12_v87 m ρ c) (at12_v1 m ρ c))

set_option maxHeartbeats 2000000 in
/-- Host stretch 6's gather, over any contents: the rows of one buffer at the wrapped entries of another. -/
theorem host6_v101 (W : Valuation τ sig (Elt Ideal)) :
    StableHlo.after hostOps6 W (Proc.devRef .tc main_v101) = Cert.Net.gat (W (Proc.devRef .tc main_v87)) (Cert.Net.wrap (W (Proc.devRef .tc main_v3))) := by
  dsimp only [hostOps6]
  after_results
  rfl

theorem at13_v101 : W13 m ρ c (Proc.devRef .tc main_v101) = (Cert.Net.gat (Cert.Net.x3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (Cert.Net.wrap (Cert.Net.dst (m ((c : Thread nD τ).loc main_arg2))))) :=
  (host6_v101 (W12 m ρ c)).trans
    (congrArg₂ (fun a b => Cert.Net.gat a (Cert.Net.wrap b)) (at12_v87 m ρ c) (at12_v3 m ρ c))

theorem at13_v102 : W13 m ρ c (Proc.devRef .tc main_v102) = (extractStridedSlice S128x128 ![0, 0] (m ((c : Thread nD τ).loc main_arg9)) Cert.KernelIdeal.Facts₀.slices_S256x128_S128x128_0_0) :=
  by
    show StableHlo.after hostOps6 (W12 m ρ c) (Proc.devRef .tc main_v102) = _
    dsimp only [hostOps6]
    after_results
    rw [at12_arg9 m ρ c]

theorem at13_v103 : W13 m ρ c (Proc.devRef .tc main_v103) = (extractStridedSlice S128x128 ![128, 0] (m ((c : Thread nD τ).loc main_arg9)) Cert.KernelIdeal.Facts₀.slices_S256x128_S128x128_128_0) :=
  by
    show StableHlo.after hostOps6 (W12 m ρ c) (Proc.devRef .tc main_v103) = _
    dsimp only [hostOps6]
    after_results
    rw [at12_arg9 m ρ c]

theorem at13_v104 : W13 m ρ c (Proc.devRef .tc main_v104) = (broadcastInDim Cert.ReferenceIdeal.S1x128 ![1] Cert.ReferenceIdeal.Facts₀.bcast_S128_S1x128_1 (m ((c : Thread nD τ).loc main_arg10))) :=
  by
    show StableHlo.after hostOps6 (W12 m ρ c) (Proc.devRef .tc main_v104) = _
    dsimp only [hostOps6]
    after_results
    rw [at12_arg10 m ρ c]
    exact Cert.LibRowCast.row_eq (m ((c : Thread nD τ).loc main_arg10)) Cert.KernelIdeal.Facts₀.shapeCasts_S128_S1x128 Cert.ReferenceIdeal.Facts₀.bcast_S128_S1x128_1

theorem at13_v105 : W13 m ρ c (Proc.devRef .tc main_v105) = (broadcastInDim Cert.ReferenceIdeal.S1x1 ![1] Cert.ReferenceIdeal.Facts₀.bcast_S1_S1x1_1 (m ((c : Thread nD τ).loc main_arg12))) :=
  by
    show StableHlo.after hostOps6 (W12 m ρ c) (Proc.devRef .tc main_v105) = _
    dsimp only [hostOps6]
    after_results
    rw [at12_arg12 m ρ c]
    exact Cert.LibRowCast.row_eq (m ((c : Thread nD τ).loc main_arg12)) Cert.KernelIdeal.Facts₀.shapeCasts_S1_S1x1 Cert.ReferenceIdeal.Facts₀.bcast_S1_S1x1_1

theorem at14_v106 : W14 m ρ c (Proc.devRef .tc main_v106) = (Cert.Layer.pred (Cert.Net.gat (Cert.Net.x3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (Cert.Net.wrap (Cert.Net.src (m ((c : Thread nD τ).loc main_arg2))))) (Cert.Net.gat (Cert.Net.x3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (Cert.Net.wrap (Cert.Net.dst (m ((c : Thread nD τ).loc main_arg2))))) (m ((c : Thread nD τ).loc main_arg9)) (broadcastInDim Cert.ReferenceIdeal.S1x128 ![1] Cert.ReferenceIdeal.Facts₀.bcast_S128_S1x128_1 (m ((c : Thread nD τ).loc main_arg10))) (m ((c : Thread nD τ).loc main_arg11)) (broadcastInDim Cert.ReferenceIdeal.S1x1 ![1] Cert.ReferenceIdeal.Facts₀.bcast_S1_S1x1_1 (m ((c : Thread nD τ).loc main_arg12)))) :=
  (Cert.Exits.exit6 m ρ c (m ((c : Thread nD τ).loc main_arg9))
    (fun k' k => by
      rw [at13_v102 m ρ c]
      exact slice2_axis0_apply 0 (m ((c : Thread nD τ).loc main_arg9)) _ k' k ⟨k'.val, by have := k'.isLt; omega⟩ (Nat.zero_add _).symm)
    (fun k' k => by
      rw [at13_v103 m ρ c]
      exact slice2_axis0_apply 128 (m ((c : Thread nD τ).loc main_arg9)) _ k' k ⟨128 + k'.val, by have := k'.isLt; omega⟩ rfl)).trans (by
    rw [at13_v94 m ρ c, at13_v101 m ρ c, at13_v104 m ρ c, at13_arg11 m ρ c, at13_v105 m ρ c])

theorem at15_v107 : W15 m ρ c (Proc.devRef .tc main_v107) = (Cert.Net.head (Cert.Net.x3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg2)) (m ((c : Thread nD τ).loc main_arg9)) (m ((c : Thread nD τ).loc main_arg10)) (m ((c : Thread nD τ).loc main_arg11)) (m ((c : Thread nD τ).loc main_arg12))) :=
  by
    show StableHlo.after hostOps7 (W14 m ρ c) (Proc.devRef .tc main_v107) = _
    dsimp only [hostOps7]
    after_results
    rw [at14_v106 m ρ c]
    rfl

end Cert.Stages

end
-- ==== Proof.RefNet.lean ====
/-
  The reference's result is the network function of its arguments: its run's composed term, with the layer
  functions' names unfolded, is that term operation for operation.
-/
import proofs.«105022_j75840532513189_1_alg».proof.Proof.Net
import proofs.«105022_j75840532513189_1_alg».proof.Proof.Gen.ReferenceIdeal.Run

set_option maxRecDepth 16384

noncomputable section

namespace Cert.RefNet

open Idealize.ShloMosaic Idealize.ShloMosaic.TcCoe Idealize.SL.Sem Cert.ReferenceIdeal Cert.ReferenceIdeal.Gen

variable (m : (ℓ : Loc nD τ sig) → Buf (Elt Ideal) ℓ) (c : Dev nD)

theorem res_eq : Cert.ReferenceIdeal.Value.res_main_v145 (F := Ideal) m c =
    Cert.Net.head (Cert.Net.x3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))
      (m ((c.tc : Thread nD τ).loc main_arg2)) (m ((c.tc : Thread nD τ).loc main_arg9)) (m ((c.tc : Thread nD τ).loc main_arg10)) (m ((c.tc : Thread nD τ).loc main_arg11)) (m ((c.tc : Thread nD τ).loc main_arg12)) := by
  unfold Cert.ReferenceIdeal.Value.res_main_v145 Cert.Net.head Cert.Net.x3 Cert.Net.x2 Cert.Net.x1 Cert.Net.step Cert.Net.sca
    Cert.Net.gat Cert.Net.zeros Cert.Net.mat Cert.Net.bRow Cert.Net.bVec Cert.Net.wRow Cert.Net.col Cert.Net.wrap Cert.Net.dst
    Cert.Net.src Cert.Layer.pred Cert.Layer.phid Cert.Layer.node Cert.Layer.out Cert.Layer.hid Cert.Layer.msg
  rfl

end Cert.RefNet

end
-- ==== Proof.lean ====
/-
  A three-layer message-passing network with an edge head, as seven tiled kernels among host gathers and scatter-adds,
  against its plain reference: equal at the exact values.

  Per layer the program gathers the node features at every edge's source, forms every edge's message
  relu(x_src + ea · w + b) in a kernel over blocks of 4000 edges, adds the messages up at the edges' targets, and
  updates every node by relu(relu((x + aggregate) · W₁ + b₁) · W₂ + b₂) in a kernel over blocks of 5000 nodes; at the
  end a kernel over blocks of 4000 edges computes relu(x_src · Wₛ + x_dst · W_d + b₁) · w₂ + b₂ from the two halves of
  the first head weight. The reference computes the same chain with whole-array operations, the head as one product of
  the two gathered halves laid side by side with the whole first weight.

  What is proved, in order: each kernel's body stores, entry by entry, the whole-array layer function of its loaded
  blocks (a block product accumulated from zero is the sum over the contraction, the narrowing of its operands is the
  identity at the exact values, a row laid down the sublanes or a column across the lanes reads the row or the column);
  a region's blocks tile its result array, so after the region the array is that function of the region's inputs; the
  buffer contents at every boundary of the run are therefore fixed functions of the launch arguments, and the result
  is the network function of the arguments; the reference's result is the same function, operation for operation. The
  one place where the two sides add in a different order is the head's first product, where a sum over 256 positions
  is the sum of its two halves — a regrouping of a finite sum, valid for all extended reals. No other law of
  arithmetic is used, so the precondition (finite inputs) is never opened.

  The three frames are the generated ones (the reference's is its generated run with the result dropped); the ideal
  pass rewrote nothing, so there is nothing to preserve.
-/
import proofs.«105022_j75840532513189_1_alg».proof.Defs
import proofs.«105022_j75840532513189_1_alg».proof.Proof.Gen.Kernel
import proofs.«105022_j75840532513189_1_alg».proof.Proof.Gen.Kernel.Frame
import proofs.«105022_j75840532513189_1_alg».proof.Proof.Gen.KernelIdeal
import proofs.«105022_j75840532513189_1_alg».proof.Proof.Gen.KernelIdeal.Frame
import proofs.«105022_j75840532513189_1_alg».proof.Proof.Gen.ReferenceIdeal
import proofs.«105022_j75840532513189_1_alg».proof.Proof.Gen.Pre_finite_inputs
import proofs.«105022_j75840532513189_1_alg».proof.Proof.Gen.ReferenceIdeal.Run
import proofs.«105022_j75840532513189_1_alg».proof.Proof.RunResult
import proofs.«105022_j75840532513189_1_alg».proof.Proof.Stages
import proofs.«105022_j75840532513189_1_alg».proof.Proof.RefNet
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the network function of the (agreeing) arguments. -/
theorem algebraic : Cert.algebraic_KernelIdeal_ReferenceIdeal := by
  intro m ρ m' ρ' _ hagree
  refine ⟨fun c => Cert.Net.head (Cert.Net.x3 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) (m ((c.tc : Thread Cert.KernelIdeal.nD Cert.KernelIdeal.τ).loc Cert.KernelIdeal.main_arg2)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.Stages.at15_v107 m ρ c), (h c).2⟩)
      (Cert.KernelIdeal.GenP.run_result m ρ)
  · refine (θ_run Cert.ReferenceIdeal.defs _ _).mono (fun r h c => ⟨(h c).1.trans ?_, (h c).2⟩)
      (Cert.ReferenceIdeal.Value.run (F := Ideal) m' ρ')
    rw [Cert.RefNet.res_eq m' c]
    obtain ⟨h0, h1, h2, h3, h4, h5, h6, h7, h8, h9, h10, h11, h12⟩ := hagree c
    rw [h0, h1, h2, h3, h4, h5, h6, h7, h8, h9, h10, h11, h12]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
